-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16129x64x64 : Shape := ⟨4, ![2, 16129, 64, 64]⟩
abbrev S_ : Shape := ⟨0, ![]⟩

class Facts : Prop where
  bcast_S_S2x16129x64x64 : S_.BroadcastsInDim S2x16129x64x64 (![] : Fin 0 → Fin S2x16129x64x64.rank)
  reducesTo_S2x16129x64x64_S_d0_1_2_3 : S2x16129x64x64.ReducesTo [0, 1, 2, 3] S_
  h_S_ : 0 < S_.numel

variable [Facts]

def fn {F : FTy → Type} [FloatOps F] (main_arg0 : FVec F S2x16129x64x64 .f32) : IVec S_ 1 :=
  let main_v0 : FVec F S2x16129x64x64 .f32 := Host.absf main_arg0
  let main_cst : FVec F S_ .f32 := constant S_ .f32 0x7F800000#32
  let main_v1 : FVec F S2x16129x64x64 .f32 := broadcastInDim S2x16129x64x64 ![] bcast_S_S2x16129x64x64 main_cst
  let main_v2 : IVec S2x16129x64x64 1 := cmpf .olt main_v0 main_v1
  let main_c : IVec S_ 1 := constantI S_ 1 1#1
  let main_v3 : IVec S_ 1 := (fun x v => Host.reduce IntOp.andi x v reducesTo_S2x16129x64x64_S_d0_1_2_3 h_S_) main_v2 main_c
  main_v3
-- ==== Kernel.lean ====
abbrev S2x16129x64x64 : Shape := ⟨4, ![2, 16129, 64, 64]⟩
abbrev S2x127x127x64x64 : Shape := ⟨5, ![2, 127, 127, 64, 64]⟩
abbrev S2x64x4096x64 : Shape := ⟨4, ![2, 64, 4096, 64]⟩
abbrev S2x1x4096x64 : Shape := ⟨4, ![2, 1, 4096, 64]⟩
abbrev S2x2x64x127x64 : Shape := ⟨5, ![2, 2, 64, 127, 64]⟩
abbrev S2 : Shape := ⟨1, ![2]⟩
abbrev S1 : Shape := ⟨1, ![1]⟩
abbrev S_ : Shape := ⟨0, ![]⟩
abbrev S1x2x64x127x64 : Shape := ⟨5, ![1, 2, 64, 127, 64]⟩
abbrev S2x64x127x64 : Shape := ⟨4, ![2, 64, 127, 64]⟩
abbrev S2x64x127x1x64 : Shape := ⟨5, ![2, 64, 127, 1, 64]⟩
abbrev S2x64x64x127 : Shape := ⟨4, ![2, 64, 64, 127]⟩
abbrev S2x64x64x1 : Shape := ⟨4, ![2, 64, 64, 1]⟩
abbrev S2x64x64x128 : Shape := ⟨4, ![2, 64, 64, 128]⟩
abbrev S2x64x128x64 : Shape := ⟨4, ![2, 64, 128, 64]⟩
abbrev S2x64x64x64 : Shape := ⟨4, ![2, 64, 64, 64]⟩
abbrev S2x4096x64 : Shape := ⟨3, ![2, 4096, 64]⟩
abbrev S2x4096x64x64 : Shape := ⟨4, ![2, 4096, 64, 64]⟩

abbrev nBuf : Space → Nat
  | .hbm => 4
  | .vmem => 3
  | .smem => 0
  | _ => 0

abbrev bufTy : (tb : Table) → Fin (tcTables nBuf tb) → BufTy
  | .hbm, ⟨0, _⟩ => ⟨S2x16129x64x64, .f32⟩
  | .hbm, ⟨1, _⟩ => ⟨S2x127x127x64x64, .f32⟩
  | .hbm, ⟨2, _⟩ => ⟨S2x64x4096x64, .f32⟩
  | .hbm, ⟨3, _⟩ => ⟨S2x4096x64x64, .f32⟩
  | .local _ .vmem, ⟨0, _⟩ => ⟨S2x1x4096x64, .f32⟩
  | .local _ .vmem, ⟨1, _⟩ => ⟨S2x1x4096x64, .f32⟩
  | .local _ .vmem, ⟨2, _⟩ => ⟨S2x2x64x127x64, .f32⟩
  | _, _ => ⟨S2x16129x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let c0_i32_8 : BitVec 32 := 0#32
  let c0_i32_9 : BitVec 32 := 0#32
  let c0_i32_10 : BitVec 32 := 0#32
  ![v9.toNat, 0, 0, 0, 0]
def k0_cond2 (i : grid0.Coords) : BitVec 1 :=
  let arg0 : BitVec 32 := BitVec.ofNat 32 (i 0).val
  let c1_i32_14 : BitVec 32 := 1#32
  let v20 : BitVec 32 := Scalar.addi arg0 c1_i32_14
  let c64_i32 : BitVec 32 := 64#32
  let v21 : BitVec 1 := Scalar.cmpi .slt v20 c64_i32
  let v22 : BitVec 32 := Scalar.extui v21
  let c0_i32_15 : BitVec 32 := 0#32
  let v23 : BitVec 1 := Scalar.cmpi .ne v22 c0_i32_15
  v23

def k0_off3 (i : grid0.Coords) : Fin 1 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  ![v10.toNat]
def k0_off4 (i : grid0.Coords) : Fin 5 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let c0_i32_25 : BitVec 32 := 0#32
  let c0_i32_26 : BitVec 32 := 0#32
  let c0_i32_27 : BitVec 32 := 0#32
  let c0_i32_28 : BitVec 32 := 0#32
  ![v10.toNat, 0, 0, 0, 0]
def k0_off5 (i : grid0.Coords) : Fin 5 → Nat :=
  let c0_i32_29 : BitVec 32 := 0#32
  let c63_i32_24 : BitVec 32 := 63#32
  let arg0 : BitVec 32 := BitVec.ofNat 32 (i 0).val
  let c1_i32_23 : BitVec 32 := 1#32
  let v38 : BitVec 32 := Scalar.addi arg0 c1_i32_23
  let v39 : BitVec 32 := Scalar.subi c63_i32_24 v38
  let c0_i32_30 : BitVec 32 := 0#32
  let c0_i32_31 : BitVec 32 := 0#32
  ![0, v39.toNat, 0, v38.toNat, 0]
def k0_off6 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : Index := Scalar.indexCast v9
  let c0 : Index := 0#32
  let c0_16 : Index := 0#32
  let c0_17 : Index := 0#32
  let c0_18 : Index := 0#32
  ![v24.toNat, 0, 0, 0, 0]
def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  shapeCasts_S2x16129x64x64_S2x127x127x64x64 : S2x16129x64x64.ShapeCasts S2x127x127x64x64
  inb_S2_S1_0 : ∀ a, (![0] : Fin 1 → Nat) a + S1.size a ≤ S2.size a
  squeezes_S1_S_ : S1.Squeezes S_
  inb_S2x2x64x127x64_S1x2x64x127x64_0_0_0_0_0 : ∀ a, (![0, 0, 0, 0, 0] : Fin 5 → Nat) a + S1x2x64x127x64.size a ≤ S2x2x64x127x64.size a
  squeezes_S1x2x64x127x64_S2x64x127x64 : S1x2x64x127x64.Squeezes S2x64x127x64
  inb_S2x127x127x64x64_S2x64x127x1x64_0_63_0_0_0 : ∀ a, (![0, 63, 0, 0, 0] : Fin 5 → Nat) a + S2x64x127x1x64.size a ≤ S2x127x127x64x64.size a
  squeezes_S2x64x127x1x64_S2x64x127x64 : S2x64x127x1x64.Squeezes S2x64x127x64
  h_S1x2x64x127x64 : 0 < S1x2x64x127x64.numel
  shapeCasts_S1x2x64x127x64_S2x64x127x64 : S1x2x64x127x64.ShapeCasts S2x64x127x64
  transposes_S2x64x127x64_p0_1_3_2_S2x64x64x127 : S2x64x127x64.Transposes [0, 1, 3, 2] S2x64x64x127
  concatenates_S2x64x64x1_S2x64x64x127_S2x64x64x128_d3 : Shape.Concatenates [S2x64x64x1, S2x64x64x127] S2x64x64x128 3
  shapeCasts_S2x64x64x128_S2x64x128x64 : S2x64x64x128.ShapeCasts S2x64x128x64
  slices_S2x64x128x64_o0_0_1_0_S2x64x127x64 : S2x64x128x64.Slices ![0, 0, 1, 0] S2x64x127x64
  shapeCasts_S2x64x127x64_S2x64x64x127 : S2x64x127x64.ShapeCasts S2x64x64x127
  slices_S2x64x64x127_o0_0_0_0_S2x64x64x64 : S2x64x64x127.Slices ![0, 0, 0, 0] S2x64x64x64
  transposes_S2x64x64x64_p0_1_3_2_S2x64x64x64 : S2x64x64x64.Transposes [0, 1, 3, 2] S2x64x64x64
  shapeCasts_S2x64x64x64_S2x4096x64 : S2x64x64x64.ShapeCasts S2x4096x64
  shapeCasts_S2x4096x64_S2x1x4096x64 : S2x4096x64.ShapeCasts S2x1x4096x64
  inb_S2x1x4096x64_S2x1x4096x64_0_0_0_0 : ∀ a, (![0, 0, 0, 0] : Fin 4 → Nat) a + S2x1x4096x64.size a ≤ S2x1x4096x64.size a
  h_S2x1x4096x64 : 0 < S2x1x4096x64.numel
  transposes_S2x64x4096x64_S2x4096x64x64_0_2_1_3 : S2x64x4096x64.Transposes [0, 2, 1, 3] S2x4096x64x64
  hcc0_scratch1 : 2 + S2.numel ≤ 4
  hrank0 : 0 < grid0.rank
  k0_off1_inb : ∀ i : grid0.Coords, ∀ a, (k0_off1 i) a + S1.size a ≤ S2.size a
  k0_off2_inb : ∀ i : grid0.Coords, ∀ a, (k0_off2 i) a + S1x2x64x127x64.size a ≤ S2x2x64x127x64.size a
  k0_off3_inb : ∀ i : grid0.Coords, ∀ (k0_h2 : k0_cond2 i = 1#1), ∀ a, (k0_off3 i) a + S1.size a ≤ S2.size a
  k0_off4_inb : ∀ i : grid0.Coords, ∀ (k0_h2 : k0_cond2 i = 1#1), ∀ a, (k0_off4 i) a + S1x2x64x127x64.size a ≤ S2x2x64x127x64.size a
  k0_off5_inb : ∀ i : grid0.Coords, ∀ (k0_h2 : k0_cond2 i = 1#1), ∀ a, (k0_off5 i) a + S2x64x127x1x64.size a ≤ S2x127x127x64x64.size a
  k0_off6_inb : ∀ i : grid0.Coords, ∀ a, (k0_off6 i) a + S1x2x64x127x64.size a ≤ S2x2x64x127x64.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S2x1x4096x64.size a ≤ S2x64x4096x64.size a
  hwx0_0 : ∀ i : grid0.Coords, EltTy.bits .f32 = 32 ∨ (Rect.block (s := S2x64x4096x64) S2x1x4096x64.size (cc0_transform_1 i) (hinb0_0 i)).WholeWords (EltTy.packing .f32)

variable [Facts₀]

abbrev cc0_scratch1 : DmaSems sig S2 := SemArray.consecutive 2 S2 hcc0_scratch1

abbrev win0_0 : Pipeline.Window sig grid0 :=
  Pipeline.Window.ofSpec (Memref.whole main_v1) S2x1x4096x64.size cc0_transform_1 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2x16129x64x64 : Shape := ⟨4, ![2, 16129, 64, 64]⟩
abbrev S64 : Shape := ⟨1, ![64]⟩
abbrev S64x1x1x1 : Shape := ⟨4, ![64, 1, 1, 1]⟩
abbrev S1x64x1x1 : Shape := ⟨4, ![1, 64, 1, 1]⟩
abbrev S1x1x64x1 : Shape := ⟨4, ![1, 1, 64, 1]⟩
abbrev S1x1x1x64 : Shape := ⟨4, ![1, 1, 1, 64]⟩
abbrev S64x1x64x1 : Shape := ⟨4, ![64, 1, 64, 1]⟩
abbrev S_ : Shape := ⟨0, ![]⟩
abbrev S1x64x1x64 : Shape := ⟨4, ![1, 64, 1, 64]⟩
abbrev S64x64x64x64 : Shape := ⟨4, ![64, 64, 64, 64]⟩
abbrev S1x4096x64x64 : Shape := ⟨4, ![1, 4096, 64, 64]⟩
abbrev S2x4096x64x64 : Shape := ⟨4, ![2, 4096, 64, 64]⟩
abbrev S2x4096x64x64x1 : Shape := ⟨5, ![2, 4096, 64, 64, 1]⟩
abbrev S1 : Shape := ⟨1, ![1]⟩
abbrev S1x1x1x1x1 : Shape := ⟨5, ![1, 1, 1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x16129x64x64, .f32⟩
  | .hbm, ⟨1, _⟩ => ⟨S64, .i32⟩
  | .hbm, ⟨2, _⟩ => ⟨S64x1x1x1, .i32⟩
  | .hbm, ⟨3, _⟩ => ⟨S64, .i32⟩
  | .hbm, ⟨4, _⟩ => ⟨S1x64x1x1, .i32⟩
  | .hbm, ⟨5, _⟩ => ⟨S64, .i32⟩
  | .hbm, ⟨6, _⟩ => ⟨S1x1x64x1, .i32⟩
  | .hbm, ⟨7, _⟩ => ⟨S64, .i32⟩
  | .hbm, ⟨8, _⟩ => ⟨S1x1x1x64, .i32⟩
  | .hbm, ⟨9, _⟩ => ⟨S64x1x64x1, .i32⟩
  | .hbm, ⟨10, _⟩ => ⟨S64x1x64x1, .i32⟩
  | .hbm, ⟨11, _⟩ => ⟨S64x1x64x1, .i32⟩
  | .hbm, ⟨12, _⟩ => ⟨S_, .i32⟩
  | .hbm, ⟨13, _⟩ => ⟨S64x1x64x1, .i32⟩
  | .hbm, ⟨14, _⟩ => ⟨S64x1x64x1, .i32⟩
  | .hbm, ⟨15, _⟩ => ⟨S_, .i32⟩
  | .hbm, ⟨16, _⟩ => ⟨S64x1x64x1, .i32⟩
  | .hbm, ⟨17, _⟩ => ⟨S64x1x64x1, .i32⟩
  | .hbm, ⟨18, _⟩ => ⟨S1x64x1x64, .i32⟩
  | .hbm, ⟨19, _⟩ => ⟨S1x64x1x64, .i32⟩
  | .hbm, ⟨20, _⟩ => ⟨S1x64x1x64, .i32⟩
  | .hbm, ⟨21, _⟩ => ⟨S_, .i32⟩
  | .hbm, ⟨22, _⟩ => ⟨S1x64x1x64, .i32⟩
  | .hbm, ⟨23, _⟩ => ⟨S1x64x1x64, .i32⟩
  | .hbm, ⟨24, _⟩ => ⟨S64x64x64x64, .i32⟩
  | .hbm, ⟨25, _⟩ => ⟨S64x64x64x64, .i32⟩
  | .hbm, ⟨26, _⟩ => ⟨S64x64x64x64, .i32⟩
  | .hbm, ⟨27, _⟩ => ⟨S1x4096x64x64, .i32⟩
  | .hbm, ⟨28, _⟩ => ⟨S2x4096x64x64, .i32⟩
  | .hbm, ⟨29, _⟩ => ⟨S_, .i32⟩
  | .hbm, ⟨30, _⟩ => ⟨S2x4096x64x64, .i32⟩
  | .hbm, ⟨31, _⟩ => ⟨S2x4096x64x64, .i1⟩
  | .hbm, ⟨32, _⟩ => ⟨S_, .i32⟩
  | .hbm, ⟨33, _⟩ => ⟨S2x4096x64x64, .i32⟩
  | .hbm, ⟨34, _⟩ => ⟨S2x4096x64x64, .i32⟩
  | .hbm, ⟨35, _⟩ => ⟨S2x4096x64x64, .i32⟩
  | .hbm, ⟨36, _⟩ => ⟨S2x4096x64x64x1, .i32⟩
  | .hbm, ⟨37, _⟩ => ⟨S1, .i32⟩
  | .hbm, ⟨38, _⟩ => ⟨S_, .i32⟩
  | .hbm, ⟨39, _⟩ => ⟨S2x4096x64x64x1, .i32⟩
  | .hbm, ⟨40, _⟩ => ⟨S2x4096x64x64x1, .i1⟩
  | .hbm, ⟨41, _⟩ => ⟨S1x1x1x1x1, .i32⟩
  | .hbm, ⟨42, _⟩ => ⟨S2x4096x64x64x1, .i32⟩
  | .hbm, ⟨43, _⟩ => ⟨S2x4096x64x64x1, .i1⟩
  | .hbm, ⟨44, _⟩ => ⟨S2x4096x64x64x1, .i1⟩
  | .hbm, ⟨45, _⟩ => ⟨S_, .i1⟩
  | .hbm, ⟨46, _⟩ => ⟨S2x4096x64x64, .i1⟩
  | .hbm, ⟨47, _⟩ => ⟨S2x4096x64x64, .f32⟩
  | .hbm, ⟨48, _⟩ => ⟨S_, .f32⟩
  | .hbm, ⟨49, _⟩ => ⟨S2x4096x64x64, .f32⟩
  | .hbm, ⟨50, _⟩ => ⟨S2x4096x64x64, .f32⟩
  | _, _ => ⟨S2x16129x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_v11 : Ref sig .tc := ⟨.hbm, 13, rfl⟩
abbrev main_v12 : Ref sig .tc := ⟨.hbm, 14, rfl⟩
abbrev main_c_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_1 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_cst : Ref sig .tc := ⟨.hbm, 48, rfl⟩
abbrev main_call0_v14 : Ref sig .tc := ⟨.hbm, 49, rfl⟩
abbrev main_v25 : Ref sig .tc := ⟨.hbm, 50, rfl⟩

abbrev nD : Nat := 1
abbrev τ : Topo := Topo.v7x

variable {F : FTy → Type} [FloatOps F]

class Facts₀ : Prop where
  bcast_S64_S64x1x1x1_0 : S64.BroadcastsInDim S64x1x1x1 (![0] : Fin 1 → Fin S64x1x1x1.rank)
  bcast_S64_S1x64x1x1_1 : S64.BroadcastsInDim S1x64x1x1 (![1] : Fin 1 → Fin S1x64x1x1.rank)
  bcast_S64_S1x1x64x1_2 : S64.BroadcastsInDim S1x1x64x1 (![2] : Fin 1 → Fin S1x1x64x1.rank)
  bcast_S64_S1x1x1x64_3 : S64.BroadcastsInDim S1x1x1x64 (![3] : Fin 1 → Fin S1x1x1x64.rank)
  bcast_S64x1x1x1_S64x1x64x1_0_1_2_3 : S64x1x1x1.BroadcastsInDim S64x1x64x1 (![0, 1, 2, 3] : Fin 4 → Fin S64x1x64x1.rank)
  bcast_S1x1x64x1_S64x1x64x1_0_1_2_3 : S1x1x64x1.BroadcastsInDim S64x1x64x1 (![0, 1, 2, 3] : Fin 4 → Fin S64x1x64x1.rank)
  bcast_S_S64x1x64x1 : S_.BroadcastsInDim S64x1x64x1 (![] : Fin 0 → Fin S64x1x64x1.rank)
  bcast_S1x64x1x1_S1x64x1x64_0_1_2_3 : S1x64x1x1.BroadcastsInDim S1x64x1x64 (![0, 1, 2, 3] : Fin 4 → Fin S1x64x1x64.rank)
  bcast_S1x1x1x64_S1x64x1x64_0_1_2_3 : S1x1x1x64.BroadcastsInDim S1x64x1x64 (![0, 1, 2, 3] : Fin 4 → Fin S1x64x1x64.rank)
  bcast_S_S1x64x1x64 : S_.BroadcastsInDim S1x64x1x64 (![] : Fin 0 → Fin S1x64x1x64.rank)
  bcast_S64x1x64x1_S64x64x64x64_0_1_2_3 : S64x1x64x1.BroadcastsInDim S64x64x64x64 (![0, 1, 2, 3] : Fin 4 → Fin S64x64x64x64.rank)
  bcast_S1x64x1x64_S64x64x64x64_0_1_2_3 : S1x64x1x64.BroadcastsInDim S64x64x64x64 (![0, 1, 2, 3] : Fin 4 → Fin S64x64x64x64.rank)
  shapeCasts_S64x64x64x64_S1x4096x64x64 : S64x64x64x64.ShapeCasts S1x4096x64x64
  bcast_S1x4096x64x64_S2x4096x64x64_0_1_2_3 : S1x4096x64x64.BroadcastsInDim S2x4096x64x64 (![0, 1, 2, 3] : Fin 4 → Fin S2x4096x64x64.rank)
  bcast_S_S2x4096x64x64 : S_.BroadcastsInDim S2x4096x64x64 (![] : Fin 0 → Fin S2x4096x64x64.rank)
  shapeCasts_S2x4096x64x64_S2x4096x64x64x1 : S2x4096x64x64.ShapeCasts S2x4096x64x64x1
  bcast_S_S2x4096x64x64x1 : S_.BroadcastsInDim S2x4096x64x64x1 (![] : Fin 0 → Fin S2x4096x64x64x1.rank)
  bcast_S1_S1x1x1x1x1_4 : S1.BroadcastsInDim S1x1x1x1x1 (![4] : Fin 1 → Fin S1x1x1x1x1.rank)
  bcast_S1x1x1x1x1_S2x4096x64x64x1_0_1_2_3_4 : S1x1x1x1x1.BroadcastsInDim S2x4096x64x64x1 (![0, 1, 2, 3, 4] : Fin 5 → Fin S2x4096x64x64x1.rank)
  reducesTo_S2x4096x64x64x1_S2x4096x64x64_d4 : S2x4096x64x64x1.ReducesTo [4] S2x4096x64x64
  h_S_ : 0 < S_.numel
  gather_S2x16129x64x64_S2x4096x64x64x1_S2x4096x64x64_n_1_023_023_1_4_1111_wf : GatherDims.WF S2x16129x64x64 S2x4096x64x64x1 S2x4096x64x64 [] [1] [0, 2, 3] [1] [0, 2, 3] 4 ![1, 1, 1, 1]

variable [Facts₀]

def gather_S2x16129x64x64_S2x4096x64x64x1_S2x4096x64x64_n_1_023_023_1_4_1111 : GatherDims S2x16129x64x64 S2x4096x64x64x1 S2x4096x64x64 where
  offsetDims := []
  collapsedSliceDims := [1]
  operandBatchingDims := [0, 2, 3]
  startIndicesBatchingDims := [0, 2, 3]
  startIndexMap := [1]
  indexVectorDim := 4
  sliceSizes := ![1, 1, 1, 1]
  wf := gather_S2x16129x64x64_S2x4096x64x64x1_S2x4096x64x64_n_1_023_023_1_4_1111_wf

class Facts : Prop extends Facts₀ where

variable [Facts]
-- ==== Proof.RingKB.lean ====
/-
  The collect kernel's read-ahead, as an invariant over the grid.
  Grid point h (0 ≤ h < 64) needs, for every n and every output row i, the 127 relative-column channels of the
  relative row i - h: the 64 consecutive channel rows 63 - h … 126 - h of the reshaped input x5[2, 127, 127, 64, 64],
  at image row h — the box at offsets (0, 63 - h, 0, h, 0) of extent (2, 64, 127, 1, 64): "block h".
  The kernel streams these blocks through two slots of a scratch, one block ahead: point 0 starts block 0 into slot 0;
  every point h waits for block h in slot h % 2, and, while one remains, starts block h + 1 into the other slot on that
  slot's own semaphore; then it reads slot h % 2. A transfer started at a point completes at the next one, so what is in
  flight rides the invariant between points: before point h ≥ 1, block h is in flight into slot h % 2 and the other
  slot still holds block h - 1. The operand is only read, so it is lent by share, one read share per slot, and no block
  of it is ever held apart.
  This module fixes the names the three kinds of point (first, middle, last) are stated over: the slots, the blocks,
  the semaphore cells, the pieces of the invariant, and the equalities identifying the body's operands at point h
  with them.
-/
import proofs.«120862_j50199577755805_1_alg».proof.Proof.Gen.Kernel.Frame
import proofs.«120862_j50199577755805_1_alg».proof.Proof.Gen.Kernel.Skeleton

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around its region, over the algebra that carries transfers -/

/-- The program is: the reshape of the input, the region, the transpose of the region's result. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The transpose after the region does not write the input: it ends as launched. -/
theorem tail_main_arg0 (dats : (p : Fin 1) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The frame claim's post from a run to the library's post read after the transpose. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (tail_main_arg0 m dats c))) h

/-! ## Which points start a transfer -/

/-- "This is the first point" as the body computes it. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "A block remains to be started" as the body computes it. -/
abbrev hasNext (i : grid0.Coords) : Prop := k0_cond2 i = 1#1
theorem hasNext_iff : ∀ t : Fin cfg0.N, hasNext (grid0.coords t) ↔ t.val < 63 :=
  (by decide +kernel : ∀ t : Fin grid0.N, hasNext (grid0.coords t) ↔ t.val < 63)

/-! ## The buffers the body is handed -/

/-- One staging buffer of the output window, through which its contents are stated. -/
abbrev VOut : View sig .tc .vmem S2x1x4096x64 .f32 := (Memref.whole cc0_stg0_0 : Memref sig .tc .vmem S2x1x4096x64 .f32).view
/-- The output window's current staging buffer at point `t`. -/
abbrev outM (t : Fin cfg0.N) : Memref sig .tc .vmem S2x1x4096x64 .f32 := win0_0.stage (cfg0.slots t 0)
abbrev outM_whole (t : Fin cfg0.N) : (outM t).IsWhole := hstage0_0 ((cfg0.slots t 0).cast nbuf0_0)
/-- The two-slot scratch, and the reshaped input left in HBM. -/
abbrev scM : Memref sig .tc .vmem S2x2x64x127x64 .f32 := Memref.whole cc0_scratch0
abbrev hbM : Memref sig .tc .hbm S2x127x127x64x64 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own two semaphore cells, by their numbers in the pool. -/
abbrev osem : Fin 2 → SemLoc sig := fun j => (![SemLoc.dma 2, SemLoc.dma 3] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 2) 0 ∗ semVal ((c : Thread nD τ), SemLoc.dma 3) 0) := by
  rw [Pipeline.ownSems0_eq_of_list c osem [0, 1] (by decide) (by decide)]; rfl
/-- The HBM buffer the body reads by its own transfers: the reshaped input. -/
def Hset : Finset (Ref sig .tc) := {main_v0}
theorem Hset_sub : Hset ⊆ Pipeline.restRefs sig spec0 := by decide
theorem hbmPts_eq (c : Dev nD) :
    (bigSep Hset (fun b => ((c : Thread nD τ).loc b) ↦{fullShare} V m c b) : sProp 𝕄) = iprop(hbPt c hbM (V m c main_v0)) := by
  rw [BI.bigSep_eq_bigSepL_of_eq [main_v0] (by decide) (by decide)]; rfl

/-- What the launch hands the body and takes back, conjunct by conjunct: the scratch at some contents, the generator
    register, the two cells at zero, the reshaped input whole. -/
theorem PhiD_eq (c : Dev nD) :
    (Pipeline.ΦD osem spec0 Hset (V m) c : sProp 𝕄)
      = iprop(iprop((∃ d, owns (c : Thread nD τ) scM fullShare d)) ∗ (∃ r, prngReg c r) ∗ iprop(semVal ((c : Thread nD τ), SemLoc.dma 2) 0 ∗ semVal ((c : Thread nD τ), SemLoc.dma 3) 0) ∗ iprop(hbPt c hbM (V m c main_v0))) := by
  rw [Pipeline.ΦD_eq, scopedRest0_eq, ownSems_eq, hbmPts_eq]; simp only [scM, owns_whole]; try rfl

/-! ## Slots, blocks, cells -/

instance : NeZero grid0.N := ⟨by rw [N_0]; decide⟩
theorem inb_slot (s : Fin 2) : ∀ a, (![s.val, 0, 0, 0, 0] : Fin 5 → Nat) a + S1x2x64x127x64.size a ≤ S2x2x64x127x64.size a := by
  have := s.isLt; intro a; fin_cases a <;> simp <;> omega
theorem inb_src (b : Fin 64) : ∀ a, (![0, 63 - b.val, 0, b.val, 0] : Fin 5 → Nat) a + S2x64x127x1x64.size a ≤ S2x127x127x64x64.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch, spelt as the body's transfers spell their destination. -/
def rslot (s : Fin 2) : Memref sig .tc .vmem S2x64x127x64 .f32 :=
  (scM.slice (Rect.unit (s := S2x2x64x127x64) ![s.val, 0, 0, 0, 0] S1x2x64x127x64.size (inb_slot s)) (fun _ => rfl)).squeeze S2x64x127x64 squeezes_S1x2x64x127x64_S2x64x127x64
/-- Block `b` of the reshaped input: channel rows 63 - b … 126 - b at image row b, spelt as the transfers spell their source. -/
def srcB (b : Fin 64) : Memref sig .tc .hbm S2x64x127x64 .f32 :=
  (hbM.slice (Rect.unit (s := S2x127x127x64x64) ![0, 63 - b.val, 0, b.val, 0] S2x64x127x1x64.size (inb_src b)) (fun _ => rfl)).squeeze S2x64x127x64 squeezes_S2x64x127x1x64_S2x64x127x64
/-- Cell `s` of the kernel's semaphore array, and its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 2 := by decide
theorem cellR_1 : cellR 1 = SemLoc.dma 3 := by decide

section RingDefs
variable (c : Dev nD) (W : HbBuf (F := F) c hbM)
/-- Each slot borrows from its own read share of the input. -/
abbrev qs (s : Fin 2) : PosShare TreeShare := if s.val = 0 then fullShare.left else fullShare.right
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 64) : sProp 𝕄 := (srcB b).view.loc (c : Thread nD τ) ↦[(srcB b).view.set]{qs s} W
def restP (s : Fin 2) (b : Fin 64) : sProp 𝕄 := ((c : Thread nD τ).loc main_v0) ↦[Finset.univ \ (srcB b).view.set]{qs s} W
abbrev wholeP (s : Fin 2) : sProp 𝕄 := ((c : Thread nD τ).loc main_v0) ↦[Finset.univ]{qs s} W
/-- Slot `s` once block `b` has landed in it whole, over prior contents `f`. -/
abbrev landed (s : Fin 2) (b : Fin 64) (f : HbBuf (F := F) c (rslot s)) : HbBuf (F := F) c (rslot s) :=
  (rslot s).view.writes (Elt F) f [⟨Rect.whole S2x64x127x64, ReadAs.same.apply ((srcB b).view.read (Elt F) W)⟩]
/-- Block `b` in flight into slot `s`: on completion the slot landed, and the lent elements back. -/
abbrev flightP (s : Fin 2) (b : Fin 64) (f : HbBuf (F := F) c (rslot s)) : sProp 𝕄 :=
  Transfers.Flight countersEmb (c : Thread nD τ) (cellR s) default ((rslot s).view.amount (cellR s))
    iprop(slotP c s (landed c W s b f) ∗ srcP c W s b)
abbrev slotW (s : Fin 2) (f : HbBuf (F := F) c (rslot s)) : sProp 𝕄 := iprop(slotP c s f ∗ wholeP c W s)
abbrev flightW (s : Fin 2) (b : Fin 64) (f : HbBuf (F := F) c (rslot s)) : sProp 𝕄 := iprop(flightP c W s b f ∗ restP c W s b)
abbrev noHome (b : Fin 64) : sProp 𝕄 := iprop(emp)
/-- The state of the read-ahead before point `k`. -/
def ringAt (k : ℕ) : sProp 𝕄 :=
  if k = 0 then Ring.At₀ (cellP c) (slotW c W) noHome
  else Ring.AtK 1 (cellP c) (slotW c W) noHome (flightW c W) (landed c W) k
omit [FloatOps F] in
theorem cellP_0 : cellP (F := F) c 0 = semVal ((c : Thread nD τ), SemLoc.dma 2) 0 := congrArg (fun x => (semVal ((c : Thread nD τ), x) 0 : sProp 𝕄)) cellR_0
omit [FloatOps F] in
theorem cellP_1 : cellP (F := F) c 1 = semVal ((c : Thread nD τ), SemLoc.dma 3) 0 := congrArg (fun x => (semVal ((c : Thread nD τ), x) 0 : sProp 𝕄)) cellR_1
end RingDefs

/-! ## The two slots tile the scratch -/

abbrev slotSet (s : Fin 2) : Finset S2x2x64x127x64.Idx := (Rect.unit (s := S2x2x64x127x64) ![s.val, 0, 0, 0, 0] S1x2x64x127x64.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x2x64x127x64) (0 : Fin 5) 1 (fun s : Fin 2 => (![s.val, 0, 0, 0, 0] : Fin 5 → Nat)) S1x2x64x127x64.size inb_slot (fun s => by simp) rfl s s' h
theorem slots_cover : Finset.univ.biUnion slotSet = Finset.univ :=
  Ring.lead_cover (s := S2x2x64x127x64) (0 : Fin 5) 1 (fun s : Fin 2 => (![s.val, 0, 0, 0, 0] : Fin 5 → Nat)) S1x2x64x127x64.size inb_slot (fun s => by simp)
    (fun s a ha => by fin_cases a <;> first | exact absurd rfl ha | rfl) rfl (fun a ha => by fin_cases a <;> first | exact absurd rfl ha | rfl) rfl

/-! ## Into the invariant at the launch, out of it at the exit -/

section InOut
variable (c : Dev nD) (W : HbBuf (F := F) c hbM)
theorem slotP_eq (s : Fin 2) (f) : slotP (F := F) c s f = (((c : Thread nD τ).loc cc0_scratch0) ↦[slotSet s]{fullShare} f : sProp 𝕄) := by
  unfold slotP; rw [slotSet_eq]; rfl
/-- A slot's read share of the input is block `b`'s elements and the rest, for any `b`. -/
theorem src_split (s : Fin 2) (b : Fin 64) : wholeP (F := F) c W s ⊣⊢ iprop(srcP c W s b ∗ restP c W s b) := by
  unfold restP; exact pointsTo_split_subset (Finset.subset_univ _)
/-- The input whole is the two read shares. -/
theorem whole_split : (hbPt c hbM W : sProp 𝕄) ⊣⊢ iprop(wholeP c W 0 ∗ wholeP c W 1) :=
  pointsTo_share (PosShare.mem_left_op_right fullShare)
set_option maxHeartbeats 1000000 in
theorem slots_in : iprop(∃ d, owns (c : Thread nD τ) scM fullShare d) ⊢ (iprop((∃ f, slotP (F := F) c 0 f) ∗ ∃ f, slotP (F := F) c 1 f) : sProp 𝕄) := by
  simp only [scM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scM fullShare d) := by
  simp only [scM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- The launch's pieces are the invariant before the first point; -/
theorem ring_in (c : Dev nD) :
    iprop((∃ d, owns (c : Thread nD τ) scM fullShare d) ∗ (semVal ((c : Thread nD τ), SemLoc.dma 2) 0 ∗ semVal ((c : Thread nD τ), SemLoc.dma 3) 0) ∗ hbPt c hbM (V m c main_v0))
      ⊢ ringAt c (V m c main_v0) 0 := by
  unfold ringAt; rw [if_pos rfl]; unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and after the last point, with nothing in flight, they are those pieces again. -/
theorem ring_out (c : Dev nD) :
    ringAt c (V m c main_v0) 64
      ⊢ iprop((∃ d, owns (c : Thread nD τ) scM fullShare d) ∗ (semVal ((c : Thread nD τ), SemLoc.dma 2) 0 ∗ semVal ((c : Thread nD τ), SemLoc.dma 3) 0) ∗ hbPt c hbM (V m c main_v0)) := by
  unfold ringAt; rw [if_neg (by decide)]
  iintro H
  ihave H' := (Ring.free2_of_AtK_last _ _ _ _ _) $$ H
  simp only [Ring.free, cellP_0, cellP_1]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c (V m c main_v0)).2; isplitl [HW0]; · iexact HW0
    iexact HW1

/-! ## The body's operands at point `t` are the named slots, blocks and cells -/

section Names
omit [FloatOps F]
theorem step_first : ∀ t : Fin grid0.N, isFirst (grid0.coords t) → hasNext (grid0.coords t) → t.val = 0 ∧ (t.val + 1) = 1 := by decide +kernel
theorem step_mid : ∀ t : Fin grid0.N, ¬isFirst (grid0.coords t) → hasNext (grid0.coords t) → 1 ≤ t.val ∧ t.val + 1 < 64 ∧ (t.val + 1) = t.val + 1 := by decide +kernel
theorem step_last : ∀ t : Fin grid0.N, ¬isFirst (grid0.coords t) → ¬hasNext (grid0.coords t) → 1 ≤ t.val ∧ t.val + 1 = 64 ∧ (t.val + 1) = t.val + 1 := by decide +kernel
-- the first point's own start: slot 0, cell 0, block 0
set_option synthInstance.maxSize 4096 in
theorem off_first_slot : ∀ t : Fin grid0.N, isFirst (grid0.coords t) → hasNext (grid0.coords t) → (![0, 0, 0, 0, 0] : Fin 5 → Nat) = ![(Ring.sl 2 t.val).val, 0, 0, 0, 0] := by decide +kernel
@[sl_canon] theorem name_first_slot (t : Fin grid0.N) (h0 : isFirst (grid0.coords t)) (h1 : hasNext (grid0.coords t)) :
    (scM.slice (Rect.unit (s := S2x2x64x127x64) ![0, 0, 0, 0, 0] S1x2x64x127x64.size inb_S2x2x64x127x64_S1x2x64x127x64_0_0_0_0_0) (fun _ => rfl)).squeeze S2x64x127x64 squeezes_S1x2x64x127x64_S2x64x127x64 = rslot (Ring.sl 2 t.val) :=
  congrArg (fun M : Memref sig .tc .vmem S1x2x64x127x64 .f32 => M.squeeze S2x64x127x64 squeezes_S1x2x64x127x64_S2x64x127x64) (Memref.slice_unit_congr _ (off_first_slot t h0 h1) _ _ (fun _ => rfl) (fun _ => rfl))
set_option synthInstance.maxSize 4096 in
theorem off_first_cell : ∀ t : Fin grid0.N, isFirst (grid0.coords t) → hasNext (grid0.coords t) → (![0] : Fin 1 → Nat) = ![(Ring.sl 2 t.val).val] := by decide +kernel
@[sl_canon] theorem name_first_cell (t : Fin grid0.N) (h0 : isFirst (grid0.coords t)) (h1 : hasNext (grid0.coords t)) :
    (cc0_scratch1.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (off_first_cell t h0 h1) _ _)
set_option synthInstance.maxSize 4096 in
theorem off_first_src : ∀ t : Fin grid0.N, isFirst (grid0.coords t) → hasNext (grid0.coords t) → (![0, 63, 0, 0, 0] : Fin 5 → Nat) = ![0, 63 - (Ring.bk 64 t.val).val, 0, (Ring.bk 64 t.val).val, 0] := by decide +kernel
@[sl_canon] theorem name_first_src (t : Fin grid0.N) (h0 : isFirst (grid0.coords t)) (h1 : hasNext (grid0.coords t)) :
    (hbM.slice (Rect.unit (s := S2x127x127x64x64) ![0, 63, 0, 0, 0] S2x64x127x1x64.size inb_S2x127x127x64x64_S2x64x127x1x64_0_63_0_0_0) (fun _ => rfl)).squeeze S2x64x127x64 squeezes_S2x64x127x1x64_S2x64x127x64 = srcB (Ring.bk 64 t.val) :=
  congrArg (fun M : Memref sig .tc .hbm S2x64x127x1x64 .f32 => M.squeeze S2x64x127x64 squeezes_S2x64x127x1x64_S2x64x127x64) (Memref.slice_unit_congr _ (off_first_src t h0 h1) _ _ (fun _ => rfl) (fun _ => rfl))
-- the wait: slot t % 2, cell t % 2
set_option synthInstance.maxSize 4096 in
theorem off_wait_slot : ∀ t : Fin grid0.N, k0_off2 (grid0.coords t) = ![(Ring.sl 2 t.val).val, 0, 0, 0, 0] := by decide +kernel
@[sl_canon] theorem name_wait_slot (t : Fin grid0.N) :
    (scM.slice (Rect.unit (s := S2x2x64x127x64) (k0_off2 (grid0.coords t)) S1x2x64x127x64.size (k0_off2_inb (grid0.coords t))) (fun _ => rfl)).squeeze S2x64x127x64 squeezes_S1x2x64x127x64_S2x64x127x64 = rslot (Ring.sl 2 t.val) :=
  congrArg (fun M : Memref sig .tc .vmem S1x2x64x127x64 .f32 => M.squeeze S2x64x127x64 squeezes_S1x2x64x127x64_S2x64x127x64) (Memref.slice_unit_congr _ (off_wait_slot t) _ _ (fun _ => rfl) (fun _ => rfl))
set_option synthInstance.maxSize 4096 in
theorem off_wait_cell : ∀ t : Fin grid0.N, k0_off1 (grid0.coords t) = ![(Ring.sl 2 t.val).val] := by decide +kernel
@[sl_canon] theorem name_wait_cell (t : Fin grid0.N) :
    (cc0_scratch1.slice (Rect.unit (s := S2) (k0_off1 (grid0.coords t)) S1.size (k0_off1_inb (grid0.coords t)))).squeeze S_ squeezes_S1_S_ = cellA (Ring.sl 2 t.val) :=
  congrArg (fun A : DmaSems sig S1 => A.squeeze S_ squeezes_S1_S_) (SemArray.slice_unit_congr _ (off_wait_cell t) _ _)
-- the start of the next block: slot (t + 1) % 2, cell (t + 1) % 2, block t + 1
set_option synthInstance.maxSize 4096 in
theorem off_next_slot : ∀ t : Fin grid0.N, k0_off4 (grid0.coords t) = ![(Ring.sl 2 (t.val + 1)).val, 0, 0, 0, 0] := by decide +kernel
@[sl_canon] theorem name_next_slot (t : Fin grid0.N) (h1 : hasNext (grid0.coords t)) :
    (scM.slice (Rect.unit (s := S2x2x64x127x64) (k0_off4 (grid0.coords t)) S1x2x64x127x64.size (k0_off4_inb (grid0.coords t) h1)) (fun _ => rfl)).squeeze S2x64x127x64 squeezes_S1x2x64x127x64_S2x64x127x64 = rslot (Ring.sl 2 (t.val + 1)) :=
  congrArg (fun M : Memref sig .tc .vmem S1x2x64x127x64 .f32 => M.squeeze S2x64x127x64 squeezes_S1x2x64x127x64_S2x64x127x64) (Memref.slice_unit_congr _ (off_next_slot t) _ _ (fun _ => rfl) (fun _ => rfl))
set_option synthInstance.maxSize 4096 in
theorem off_next_cell : ∀ t : Fin grid0.N, k0_off3 (grid0.coords t) = ![(Ring.sl 2 (t.val + 1)).val] := by decide +kernel
@[sl_canon] theorem name_next_cell (t : Fin grid0.N) (h1 : hasNext (grid0.coords t)) :
    (cc0_scratch1.slice (Rect.unit (s := S2) (k0_off3 (grid0.coords t)) S1.size (k0_off3_inb (grid0.coords t) h1))).squeeze S_ squeezes_S1_S_ = cellA (Ring.sl 2 (t.val + 1)) :=
  congrArg (fun A : DmaSems sig S1 => A.squeeze S_ squeezes_S1_S_) (SemArray.slice_unit_congr _ (off_next_cell t) _ _)
set_option synthInstance.maxSize 4096 in
theorem off_next_src : ∀ t : Fin grid0.N, hasNext (grid0.coords t) → k0_off5 (grid0.coords t) = ![0, 63 - (Ring.bk 64 (t.val + 1)).val, 0, (Ring.bk 64 (t.val + 1)).val, 0] := by decide +kernel
@[sl_canon] theorem name_next_src (t : Fin grid0.N) (h1 : hasNext (grid0.coords t)) :
    (hbM.slice (Rect.unit (s := S2x127x127x64x64) (k0_off5 (grid0.coords t)) S2x64x127x1x64.size (k0_off5_inb (grid0.coords t) h1)) (fun _ => rfl)).squeeze S2x64x127x64 squeezes_S2x64x127x1x64_S2x64x127x64 = srcB (Ring.bk 64 (t.val + 1)) :=
  congrArg (fun M : Memref sig .tc .hbm S2x64x127x1x64 .f32 => M.squeeze S2x64x127x64 squeezes_S2x64x127x1x64_S2x64x127x64) (Memref.slice_unit_congr _ (off_next_src t h1) _ _ (fun _ => rfl) (fun _ => rfl))
-- the load: slot t % 2's row
set_option synthInstance.maxSize 4096 in
theorem off_load : ∀ t : Fin grid0.N, k0_off6 (grid0.coords t) = ![(Ring.sl 2 t.val).val, 0, 0, 0, 0] := by decide +kernel
instance (priority := high) closedOff_load (t : Fin grid0.N) : ClosedOff (k0_off6 (grid0.coords t)) := ⟨![(Ring.sl 2 t.val).val, 0, 0, 0, 0], off_load t⟩
end Names

end Cert.Proof.KB

end
-- ==== Proof.RunFirstKB.lean ====
/-
  The body at the FIRST point (h = 0; a next block exists): both slots are free. It starts block 0 into slot 0, waits
  for it, starts block 1 into slot 1, reads slot 0 and stores the rearranged block. It hands on: block 1 in flight
  into slot 1, slot 0 keeping block 0. What the store leaves in the output's staging buffer is found by running the body.
-/
import proofs.«120862_j50199577755805_1_alg».proof.Proof.RingKB

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body's store leaves in the output's staging buffer at the first point, with the proof that from
    both slots free the body runs to: the output's buffer with those pieces written, block 1 in flight into slot 1,
    slot 0 keeping block 0. -/
noncomputable def runFirst (c : Dev nD) (t : Fin cfg0.N) (arg2 : Memref sig .tc .vmem S2x1x4096x64 .f32) (harg2 : arg2.IsWhole)
    (hc0 : isFirst (grid0.coords t)) (hc1 : hasNext (grid0.coords t)) (fh : HbBuf (F := F) c hbM) :
    { L : List (View.Piece (Elt F) S2x1x4096x64 .f32) //
      ∀ (W : Waits sig Unit) (K : PUnit → sProp 𝕄),
        iprop((∃ d, owns (c : Thread nD τ) arg2 fullShare d) ∗ Ring.free (cellP c) (slotW c fh) (Ring.sl 2 t.val) ∗ Ring.free (cellP c) (slotW c fh) (Ring.sl 2 (t.val + 1)) ∗ owes (c : Thread nD τ) 0 W
            ∗ (iprop((∃ f, arg2.view.loc (c : Thread nD τ) ↦[arg2.view.set]{fullShare} arg2.view.writes (Elt F) f L) ∗ Ring.inflight (flightW c fh) (Ring.sl 2 (t.val + 1)) (Ring.bk 64 (t.val + 1)) ∗ Ring.kept (cellP c) (slotW c fh) (landed c fh) (Ring.sl 2 t.val) (Ring.bk 64 t.val) ∗ (∃ W', owes (c : Thread nD τ) 0 W')) -∗ K ⟨⟩))
          ⊢ wp frame (wpE (defs₀ (F := F)) Variants.none c none) Set.univ (cc0__collect_kernel (grid0.coords t) hbM (Memref.isWhole_whole _) arg2 harg2 scM (Memref.isWhole_whole _) cc0_scratch1) K } := by
  refine ⟨?_, fun W K => ?run⟩
  case run =>
    haveI : Fact (isFirst (grid0.coords t)) := ⟨hc0⟩
    haveI : Fact (hasNext (grid0.coords t)) := ⟨hc1⟩
    simp only [cc0__collect_kernel_eq_skeleton]; unfold cc0__collect_kernel_skel
    simp only [k0_part1_eq_skeleton]
    have hcanon0 := name_first_slot t hc0 hc1
    have hcanon1 := name_first_cell t hc0 hc1
    have hcanon2 := name_first_src t hc0 hc1
    unfold owns Ring.free Ring.inflight Ring.kept
    iintro ⟨⟨%d1, %f1, -, H1⟩, ⟨Hc0, ⟨%fs0, Hs0, Hw0⟩⟩, ⟨Hc1, ⟨%fs1, Hs1, Hw1⟩⟩, HW, Hk⟩
    ihave Hsp0 := (src_split c fh (Ring.sl 2 t.val) (Ring.bk 64 t.val)).1 $$ Hw0
    icases Hsp0 with ⟨Hh0, Hr0⟩
    ihave Hsp1 := (src_split c fh (Ring.sl 2 (t.val + 1)) (Ring.bk 64 (t.val + 1))).1 $$ Hw1
    icases Hsp1 with ⟨Hh1, Hr1⟩
    sl_exec (disch := first | exact hc0 | exact hc1)
    sl_step
    iapply Hk
    isplitl [H1]; · iexists _; iexact H1
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (src_split c fh (Ring.sl 2 t.val) (Ring.bk 64 t.val)).2; isplitl [Hh0]; · iexact Hh0
      iexact Hr0
    iexists _; iexact HW

end Cert.Proof.KB

end
-- ==== Proof.RunMidKB.lean ====
/-
  The body at a MIDDLE point (1 ≤ h < 63): block h is in flight into slot h % 2 and the other slot keeps block h - 1.
  It waits for block h, starts block h + 1 over the kept block, reads slot h % 2 and stores the rearranged block. It
  hands on: block h + 1 in flight, slot h % 2 keeping block h.
-/
import proofs.«120862_j50199577755805_1_alg».proof.Proof.RunFirstKB

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body's store leaves in the output's staging buffer at a middle point, with the proof of the run. -/
noncomputable def runMid (c : Dev nD) (t : Fin cfg0.N) (arg2 : Memref sig .tc .vmem S2x1x4096x64 .f32) (harg2 : arg2.IsWhole)
    (hc0 : ¬isFirst (grid0.coords t)) (hc1 : hasNext (grid0.coords t)) (fh : HbBuf (F := F) c hbM) :
    { L : List (View.Piece (Elt F) S2x1x4096x64 .f32) //
      ∀ (W : Waits sig Unit) (K : PUnit → sProp 𝕄),
        iprop((∃ d, owns (c : Thread nD τ) arg2 fullShare d) ∗ Ring.inflight (flightW c fh) (Ring.sl 2 t.val) (Ring.bk 64 t.val) ∗ Ring.kept (cellP c) (slotW c fh) (landed c fh) (Ring.sl 2 (t.val + 1)) (Ring.bk 64 (t.val - 1)) ∗ owes (c : Thread nD τ) 0 W
            ∗ (iprop((∃ f, arg2.view.loc (c : Thread nD τ) ↦[arg2.view.set]{fullShare} arg2.view.writes (Elt F) f L) ∗ Ring.inflight (flightW c fh) (Ring.sl 2 (t.val + 1)) (Ring.bk 64 (t.val + 1)) ∗ Ring.kept (cellP c) (slotW c fh) (landed c fh) (Ring.sl 2 t.val) (Ring.bk 64 t.val) ∗ (∃ W', owes (c : Thread nD τ) 0 W')) -∗ K ⟨⟩))
          ⊢ wp frame (wpE (defs₀ (F := F)) Variants.none c none) Set.univ (cc0__collect_kernel (grid0.coords t) hbM (Memref.isWhole_whole _) arg2 harg2 scM (Memref.isWhole_whole _) cc0_scratch1) K } := by
  refine ⟨?_, fun W K => ?run⟩
  case run =>
    haveI : Fact (¬isFirst (grid0.coords t)) := ⟨hc0⟩
    haveI : Fact (hasNext (grid0.coords t)) := ⟨hc1⟩
    simp only [cc0__collect_kernel_eq_skeleton]; unfold cc0__collect_kernel_skel
    simp only [k0_part1_eq_skeleton]
    unfold owns Ring.inflight Ring.kept
    iintro ⟨⟨%d1, %f1, -, H1⟩, ⟨%ff, Hf, Hrf⟩, ⟨Hc1, ⟨%fs1, Hs1, Hw1⟩⟩, HW, Hk⟩
    ihave Hsp1 := (src_split c fh (Ring.sl 2 (t.val + 1)) (Ring.bk 64 (t.val + 1))).1 $$ Hw1
    icases Hsp1 with ⟨Hh1, Hr1⟩
    sl_exec (disch := first | exact hc0 | exact hc1)
    sl_step
    iapply Hk
    isplitl [H1]; · iexists _; iexact H1
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (src_split c fh (Ring.sl 2 t.val) (Ring.bk 64 t.val)).2; isplitl [Hf_src]; · iexact Hf_src
      iexact Hrf
    iexists _; iexact HW

end Cert.Proof.KB

end
-- ==== Proof.RunLastKB.lean ====
/-
  The body at the LAST point (h = 63): block 63 is in flight into slot 1. It waits for it, starts nothing, reads slot 1
  and stores the rearranged block. It hands on slot 1 keeping block 63; the other slot still keeps block 62.
-/
import proofs.«120862_j50199577755805_1_alg».proof.Proof.RunMidKB

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body's store leaves in the output's staging buffer at the last point, with the proof of the run. -/
noncomputable def runLast (c : Dev nD) (t : Fin cfg0.N) (arg2 : Memref sig .tc .vmem S2x1x4096x64 .f32) (harg2 : arg2.IsWhole)
    (hc0 : ¬isFirst (grid0.coords t)) (hc1 : ¬hasNext (grid0.coords t)) (fh : HbBuf (F := F) c hbM) :
    { L : List (View.Piece (Elt F) S2x1x4096x64 .f32) //
      ∀ (W : Waits sig Unit) (K : PUnit → sProp 𝕄),
        iprop((∃ d, owns (c : Thread nD τ) arg2 fullShare d) ∗ Ring.inflight (flightW c fh) (Ring.sl 2 t.val) (Ring.bk 64 t.val) ∗ owes (c : Thread nD τ) 0 W
            ∗ (iprop((∃ f, arg2.view.loc (c : Thread nD τ) ↦[arg2.view.set]{fullShare} arg2.view.writes (Elt F) f L) ∗ Ring.kept (cellP c) (slotW c fh) (landed c fh) (Ring.sl 2 t.val) (Ring.bk 64 t.val) ∗ (∃ W', owes (c : Thread nD τ) 0 W')) -∗ K ⟨⟩))
          ⊢ wp frame (wpE (defs₀ (F := F)) Variants.none c none) Set.univ (cc0__collect_kernel (grid0.coords t) hbM (Memref.isWhole_whole _) arg2 harg2 scM (Memref.isWhole_whole _) cc0_scratch1) K } := by
  refine ⟨?_, fun W K => ?run⟩
  case run =>
    haveI : Fact (¬isFirst (grid0.coords t)) := ⟨hc0⟩
    haveI : Fact (¬hasNext (grid0.coords t)) := ⟨hc1⟩
    simp only [cc0__collect_kernel_eq_skeleton]; unfold cc0__collect_kernel_skel
    simp only [k0_part1_eq_skeleton]
    unfold owns Ring.inflight Ring.kept
    iintro ⟨⟨%d1, %f1, -, H1⟩, ⟨%ff, Hf, Hrf⟩, HW, Hk⟩
    sl_exec (disch := first | exact hc0 | exact hc1)
    sl_step
    iapply Hk
    isplitl [H1]; · iexists _; iexact H1
    isplitl [Hf Hf_dst Hf_src Hrf]
    · isplitl [Hf]; · iexact Hf
      iexists _; isplitl [Hf_dst]; · iexact Hf_dst
      iapply (src_split c fh (Ring.sl 2 t.val) (Ring.bk 64 t.val)).2; isplitl [Hf_src]; · iexact Hf_src
      iexact Hrf
    iexists _; iexact HW

end Cert.Proof.KB

end
-- ==== Proof.FrameKB.lean ====
/-
  The frame of the collect kernel: the three kinds of point assembled over the grid.
  What the output's staging buffer holds after point h is what that point's store left (the body never reads it);
  the invariant before point h is the generator register and the read-ahead's state before step h; the launch's pieces
  (scratch, the two cells at zero, the reshaped input whole) are the invariant before point 0, and after point 63,
  nothing being in flight, they are handed back. The run is the library's launch theorem for a kernel with transfers
  of its own whose program continues after the region.
-/
import proofs.«120862_j50199577755805_1_alg».proof.Proof.RunLastKB

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The store of the first point covers the output's block. -/
theorem coverFirst (c : Dev nD) (t : Fin cfg0.N) (arg2 : Memref sig .tc .vmem S2x1x4096x64 .f32) (harg2 : arg2.IsWhole)
    (hc0 : isFirst (grid0.coords t)) (hc1 : hasNext (grid0.coords t)) (fh : HbBuf (F := F) c hbM) (y : S2x1x4096x64.Idx) :
    ∃ pc ∈ (runFirst c t arg2 harg2 hc0 hc1 fh).1, y ∈ pc.1.set :=
  View.cover_of_tiledL (runFirst c t arg2 harg2 hc0 hc1 fh).1 S2x1x4096x64.size (by sl_kernel_rfl) y

/-- What the first point leaves in the output's staging buffer: its pieces read back. -/
def outFirst (c : Dev nD) (t : Fin cfg0.N) (arg2 : Memref sig .tc .vmem S2x1x4096x64 .f32) (harg2 : arg2.IsWhole)
    (hc0 : isFirst (grid0.coords t)) (hc1 : hasNext (grid0.coords t)) (fh : HbBuf (F := F) c hbM) : Vec F S2x1x4096x64 .f32 :=
  VOut.read (Elt F) (VOut.writes (Elt F) VOut.junk (runFirst c t arg2 harg2 hc0 hc1 fh).1)

/-- The store of a middle point covers the output's block. -/
theorem coverMid (c : Dev nD) (t : Fin cfg0.N) (arg2 : Memref sig .tc .vmem S2x1x4096x64 .f32) (harg2 : arg2.IsWhole)
    (hc0 : ¬isFirst (grid0.coords t)) (hc1 : hasNext (grid0.coords t)) (fh : HbBuf (F := F) c hbM) (y : S2x1x4096x64.Idx) :
    ∃ pc ∈ (runMid c t arg2 harg2 hc0 hc1 fh).1, y ∈ pc.1.set :=
  View.cover_of_tiledL (runMid c t arg2 harg2 hc0 hc1 fh).1 S2x1x4096x64.size (by sl_kernel_rfl) y

/-- What a middle point leaves in the output's staging buffer: its pieces read back. -/
def outMid (c : Dev nD) (t : Fin cfg0.N) (arg2 : Memref sig .tc .vmem S2x1x4096x64 .f32) (harg2 : arg2.IsWhole)
    (hc0 : ¬isFirst (grid0.coords t)) (hc1 : hasNext (grid0.coords t)) (fh : HbBuf (F := F) c hbM) : Vec F S2x1x4096x64 .f32 :=
  VOut.read (Elt F) (VOut.writes (Elt F) VOut.junk (runMid c t arg2 harg2 hc0 hc1 fh).1)

/-- The store of the last point covers the output's block. -/
theorem coverLast (c : Dev nD) (t : Fin cfg0.N) (arg2 : Memref sig .tc .vmem S2x1x4096x64 .f32) (harg2 : arg2.IsWhole)
    (hc0 : ¬isFirst (grid0.coords t)) (hc1 : ¬hasNext (grid0.coords t)) (fh : HbBuf (F := F) c hbM) (y : S2x1x4096x64.Idx) :
    ∃ pc ∈ (runLast c t arg2 harg2 hc0 hc1 fh).1, y ∈ pc.1.set :=
  View.cover_of_tiledL (runLast c t arg2 harg2 hc0 hc1 fh).1 S2x1x4096x64.size (by sl_kernel_rfl) y

/-- What the last point leaves in the output's staging buffer: its pieces read back. -/
def outLast (c : Dev nD) (t : Fin cfg0.N) (arg2 : Memref sig .tc .vmem S2x1x4096x64 .f32) (harg2 : arg2.IsWhole)
    (hc0 : ¬isFirst (grid0.coords t)) (hc1 : ¬hasNext (grid0.coords t)) (fh : HbBuf (F := F) c hbM) : Vec F S2x1x4096x64 .f32 :=
  VOut.read (Elt F) (VOut.writes (Elt F) VOut.junk (runLast c t arg2 harg2 hc0 hc1 fh).1)

/-! ## What the output's staging buffer holds after each point -/

/-- After point `t`: what the kind of point `t` is leaves there. -/
def outsAt (c : Dev nD) (t : Fin cfg0.N) : Vec F S2x1x4096x64 .f32 :=
  if h0 : t.val = 0 then
    if h1 : t.val < 63 then outFirst c t (outM t) (outM_whole t) ((isFirst_iff t).mpr h0) ((hasNext_iff t).mpr h1) (V m c main_v0)
    else False.elim (by omega)
  else
    if h1 : t.val < 63 then outMid c t (outM t) (outM_whole t) (fun h => h0 ((isFirst_iff t).mp h)) ((hasNext_iff t).mpr h1) (V m c main_v0)
    else outLast c t (outM t) (outM_whole t) (fun h => h0 ((isFirst_iff t).mp h)) (fun h => h1 ((hasNext_iff t).mp h)) (V m c main_v0)

theorem outsAt_first (c : Dev nD) (t : Fin cfg0.N) (h0 : t.val = 0) (h1 : t.val < 63) :
    outsAt m c t = outFirst c t (outM t) (outM_whole t) ((isFirst_iff t).mpr h0) ((hasNext_iff t).mpr h1) (V m c main_v0) :=
  (dif_pos h0).trans (dif_pos h1)
theorem outsAt_mid (c : Dev nD) (t : Fin cfg0.N) (h0 : ¬t.val = 0) (h1 : t.val < 63) :
    outsAt m c t = outMid c t (outM t) (outM_whole t) (fun h => h0 ((isFirst_iff t).mp h)) ((hasNext_iff t).mpr h1) (V m c main_v0) :=
  (dif_neg h0).trans (dif_pos h1)
theorem outsAt_last (c : Dev nD) (t : Fin cfg0.N) (h0 : ¬t.val = 0) (h1 : ¬t.val < 63) :
    outsAt m c t = outLast c t (outM t) (outM_whole t) (fun h => h0 ((isFirst_iff t).mp h)) (fun h => h1 ((hasNext_iff t).mp h)) (V m c main_v0) :=
  (dif_neg h0).trans (dif_neg h1)

/-! ## The proof data -/

/-- The invariant before point `k`. -/
def PhiR (c : Dev nD) (k : ℕ) : sProp 𝕄 := iprop((∃ r, prngReg c r) ∗ ringAt c (V m c main_v0) k)

def dats (_ : Fin 1) (c : Dev nD) : Dat τ (Elt F) Unit ℕ (Pipeline.UD sig nD τ) ℕ cfg0 c where
  A w := V m c (Pipeline.arrRef spec0 w)
  after w t := match w with
    | ⟨0, _⟩ => outsAt m c t
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_0 (c : Dev nD) (t : Fin cfg0.N) : (dats m 0 c).after 0 t = outsAt m c t := by dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (outM t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (outM t) fullShare ((dats m 0 c).after 0 t))

set_option maxHeartbeats 1200000 in
/-- At any point: which kind it is is decided by its number; the invariant before it is rewritten to the pieces that
    kind of point takes, the run applies, and what it hands back is the invariant before the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after_0]
  rw [PhiR_castSucc m c t, PhiR_succ m c t]
  unfold Dat.owesAt Pipeline.owesWithin
  rw [show (dats m 0 c).owed t.castSucc = 0 from rfl, show (dats m 0 c).owed t.succ = 0 from rfl]
  unfold PhiR ringAt
  have hN : t.val < 64 := lt_of_lt_of_eq t.isLt (show cfg0.N = 64 from N_0)
  by_cases h0 : t.val = 0
  · by_cases h1 : t.val < 63
    · rw [outsAt_first m c t h0 h1]
      unfold outFirst
      have hr := step_first t ((isFirst_iff t).mpr h0) ((hasNext_iff t).mpr h1)
      obtain ⟨hK0, hK1⟩ := hr
      rw [if_pos hK0, if_neg (show ¬t.val + 1 = 0 by omega)]
      rw [Ring.At₀_eq2' _ _ _ t.val hK0 (by decide : 2 ≤ 64), Ring.AtK2_one' _ _ _ _ _ t.val hK0 (by decide : 1 < 64)]
      iintro ⟨⟨Hg, ⟨-, Hfr0, Hfr1⟩⟩, ⟨%W, -, HW⟩, ⟨%d1, H1⟩⟩
      iapply ((runFirst c t _ _ ((isFirst_iff t).mpr h0) ((hasNext_iff t).mpr h1) (V m c main_v0)).2 W _)
      isplitl [H1]; · iexists _; iexact H1
      isplitl [Hfr0]; · iexact Hfr0
      isplitl [Hfr1]; · iexact Hfr1
      isplitl [HW]; · iexact HW
      iintro ⟨⟨%e1, H1⟩, Hfl', Hkp', ⟨%W', HW'⟩⟩
      isplitl [Hg Hfl' Hkp']
      · isplitl [Hg]; · iexact Hg
        iapply Ring.with_homes₀
        isplitl [Hfl']; · iexact Hfl'
        iexact Hkp'
      isplitl [HW']
      · iexists W'; isplitr; · ipureintro; exact fun _ _ => Or.inl trivial
        iexact HW'
      unfold owns; iexists _; isplitr
      swap; · iexact H1
      ipureintro; exact View.read_writes_of_cover _ _ _ _ _ (coverFirst c _ _ _ _ _ _)
    · exfalso; omega
  · by_cases h1 : t.val < 63
    · rw [outsAt_mid m c t h0 h1]
      unfold outMid
      have hr := step_mid t (fun h => h0 ((isFirst_iff t).mp h)) ((hasNext_iff t).mpr h1)
      obtain ⟨hK1, hKB, hKs⟩ := hr
      rw [if_neg (show ¬t.val = 0 by omega), if_neg (show ¬t.val + 1 = 0 by omega)]
      rw [Ring.AtK2_here _ _ _ _ _ t.val hK1 hKB, Ring.AtK2_next _ _ _ _ _ t.val hK1 hKB]
      iintro ⟨⟨Hg, ⟨-, Hfl, Hkp⟩⟩, ⟨%W, -, HW⟩, ⟨%d1, H1⟩⟩
      iapply ((runMid c t _ _ (fun h => h0 ((isFirst_iff t).mp h)) ((hasNext_iff t).mpr h1) (V m c main_v0)).2 W _)
      isplitl [H1]; · iexists _; iexact H1
      isplitl [Hfl]; · iexact Hfl
      isplitl [Hkp]; · iexact Hkp
      isplitl [HW]; · iexact HW
      iintro ⟨⟨%e1, H1⟩, Hfl', Hkp', ⟨%W', HW'⟩⟩
      isplitl [Hg Hfl' Hkp']
      · isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      unfold owns; iexists _; isplitr
      swap; · iexact H1
      ipureintro; exact View.read_writes_of_cover _ _ _ _ _ (coverMid c _ _ _ _ _ _)
    · rw [outsAt_last m c t h0 h1]
      unfold outLast
      have hr := step_last t (fun h => h0 ((isFirst_iff t).mp h)) (fun h => h1 ((hasNext_iff t).mp h))
      obtain ⟨hK1, hKB, hKs⟩ := hr
      rw [if_neg (show ¬t.val = 0 by omega), if_neg (show ¬t.val + 1 = 0 by omega)]
      rw [Ring.AtK2_here_last _ _ _ _ _ t.val hK1 hKB, Ring.AtK2_next_last _ _ _ _ _ t.val hK1 hKB]
      iintro ⟨⟨Hg, ⟨-, Hfl, Hkp⟩⟩, ⟨%W, -, HW⟩, ⟨%d1, H1⟩⟩
      iapply ((runLast c t _ _ (fun h => h0 ((isFirst_iff t).mp h)) (fun h => h1 ((hasNext_iff t).mp h)) (V m c main_v0)).2 W _)
      isplitl [H1]; · iexists _; iexact H1
      isplitl [Hfl]; · iexact Hfl
      isplitl [HW]; · iexact HW
      iintro ⟨⟨%e1, H1⟩, Hkp', ⟨%W', HW'⟩⟩
      isplitl [Hg Hkp Hkp']
      · isplitl [Hg]; · iexact Hg
        iapply (Ring.with_homes (Idealize.SL.BI.Entails.refl _))
        isplitl [Hkp]; · iexact Hkp
        iexact Hkp'
      isplitl [HW']
      · iexists W'; isplitr; · ipureintro; exact fun _ _ => Or.inl trivial
        iexact HW'
      unfold owns; iexists _; isplitr
      swap; · iexact H1
      ipureintro; exact View.read_writes_of_cover _ _ _ _ _ (coverLast c _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦD osem spec0 Hset (V m) c ⊢ (dats m 0 c).Φ 0 := by
  rw [PhiD_eq, show (dats m 0 c).Φ 0 = PhiR m c 0 from rfl]
  unfold PhiR
  iintro ⟨HR, Hg, ⟨Hq0, Hq1⟩, Hh⟩
  isplitl [Hg]; · iexact Hg
  iapply (ring_in (F := F) m c)
  isplitl [HR]; · iexact HR
  isplitl [Hq0 Hq1]
  · isplitl [Hq0]; · iexact Hq0
    iexact Hq1
  iexact Hh
theorem hout (c : Dev nD) : (dats m 0 c).Φ (Fin.last cfg0.N) ⊢ Pipeline.ΦD osem spec0 Hset (V m) c := by
  rw [PhiD_eq, show (dats m 0 c).Φ (Fin.last cfg0.N) = PhiR m c grid0.N from rfl]
  unfold PhiR
  rw [show grid0.N = 64 by rw [N_0]]
  iintro ⟨Hg, HR⟩
  ihave HX := (ring_out (F := F) m c) $$ HR
  icases HX with ⟨HR, ⟨Hq0, Hq1⟩, Hh⟩
  isplitl [HR]
  · iexact HR
  isplitl [Hg]
  · iexact Hg
  isplitl [Hq0 Hq1]
  · isplitl [Hq0]; · iexact Hq0
    iexact Hq1
  iexact Hh

/-! ## The transpose after the region touches neither the scratch's source nor any array -/

theorem tail_sub : ∀ ops ∈ ([hostOps1] : List (List (HloOp τ sig (Elt F)))), ∀ op ∈ ops,
    op.bufs ⊆ Pipeline.tailRefsBut sig Pipeline.Prefetch.none spec0 Hset := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  simp only [Hset, Finset.mem_singleton] at hb
  subst hb
  simp only [StableHlo.unary_bufs, Finset.mem_insert, Finset.mem_singleton, not_or]
  exact ⟨StableHlo.devRef_ne_of_ne (by decide), StableHlo.devRef_ne_of_ne (by decide)⟩

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem defs₀ Variants.none ownSemFacts Hset Hset_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := hin m) (hout := hout m)

/-- The frame: the program runs to the end, faults nowhere, and leaves its input as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_ofD m ρ (dats m) (run_main m ρ)

end Cert.Proof.KB

end
-- ==== Proof.RingKI.lean ====
/-
  The collect kernel's read-ahead, as an invariant over the grid.
  Grid point h (0 ≤ h < 64) needs, for every n and every output row i, the 127 relative-column channels of the
  relative row i - h: the 64 consecutive channel rows 63 - h … 126 - h of the reshaped input x5[2, 127, 127, 64, 64],
  at image row h — the box at offsets (0, 63 - h, 0, h, 0) of extent (2, 64, 127, 1, 64): "block h".
  The kernel streams these blocks through two slots of a scratch, one block ahead: point 0 starts block 0 into slot 0;
  every point h waits for block h in slot h % 2, and, while one remains, starts block h + 1 into the other slot on that
  slot's own semaphore; then it reads slot h % 2. A transfer started at a point completes at the next one, so what is in
  flight rides the invariant between points: before point h ≥ 1, block h is in flight into slot h % 2 and the other
  slot still holds block h - 1. The operand is only read, so it is lent by share, one read share per slot, and no block
  of it is ever held apart.
  This module fixes the names the three kinds of point (first, middle, last) are stated over: the slots, the blocks,
  the semaphore cells, the pieces of the invariant, and the equalities identifying the body's operands at point h
  with them.
-/
import proofs.«120862_j50199577755805_1_alg».proof.Proof.Gen.KernelIdeal.Frame
import proofs.«120862_j50199577755805_1_alg».proof.Proof.Gen.KernelIdeal.Skeleton

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around its region, over the algebra that carries transfers -/

/-- The program is: the reshape of the input, the region, the transpose of the region's result. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The transpose after the region does not write the input: it ends as launched. -/
theorem tail_main_arg0 (dats : (p : Fin 1) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The frame claim's post from a run to the library's post read after the transpose. -/
theorem frame_ofD (dats : (p : Fin 1) → (c : Dev nD) → Dat τ (Elt F) Unit ℕ (Pipeline.UD sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (((h c).2 main_arg0 (Pipeline.mem_restRefs_of main_arg0 (by decide) (by decide))).trans (tail_main_arg0 m dats c))) h

/-! ## Which points start a transfer -/

/-- "This is the first point" as the body computes it. -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- "A block remains to be started" as the body computes it. -/
abbrev hasNext (i : grid0.Coords) : Prop := k0_cond2 i = 1#1
theorem hasNext_iff : ∀ t : Fin cfg0.N, hasNext (grid0.coords t) ↔ t.val < 63 :=
  (by decide +kernel : ∀ t : Fin grid0.N, hasNext (grid0.coords t) ↔ t.val < 63)

/-! ## The buffers the body is handed -/

/-- One staging buffer of the output window, through which its contents are stated. -/
abbrev VOut : View sig .tc .vmem S2x1x4096x64 .f32 := (Memref.whole cc0_stg0_0 : Memref sig .tc .vmem S2x1x4096x64 .f32).view
/-- The output window's current staging buffer at point `t`. -/
abbrev outM (t : Fin cfg0.N) : Memref sig .tc .vmem S2x1x4096x64 .f32 := win0_0.stage (cfg0.slots t 0)
abbrev outM_whole (t : Fin cfg0.N) : (outM t).IsWhole := hstage0_0 ((cfg0.slots t 0).cast nbuf0_0)
/-- The two-slot scratch, and the reshaped input left in HBM. -/
abbrev scM : Memref sig .tc .vmem S2x2x64x127x64 .f32 := Memref.whole cc0_scratch0
abbrev hbM : Memref sig .tc .hbm S2x127x127x64x64 .f32 := Memref.whole main_v0
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The kernel's own two semaphore cells, by their numbers in the pool. -/
abbrev osem : Fin 2 → SemLoc sig := fun j => (![SemLoc.dma 2, SemLoc.dma 3] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 2) 0 ∗ semVal ((c : Thread nD τ), SemLoc.dma 3) 0) := by
  rw [Pipeline.ownSems0_eq_of_list c osem [0, 1] (by decide) (by decide)]; rfl
/-- The HBM buffer the body reads by its own transfers: the reshaped input. -/
def Hset : Finset (Ref sig .tc) := {main_v0}
theorem Hset_sub : Hset ⊆ Pipeline.restRefs sig spec0 := by decide
theorem hbmPts_eq (c : Dev nD) :
    (bigSep Hset (fun b => ((c : Thread nD τ).loc b) ↦{fullShare} V m c b) : sProp 𝕄) = iprop(hbPt c hbM (V m c main_v0)) := by
  rw [BI.bigSep_eq_bigSepL_of_eq [main_v0] (by decide) (by decide)]; rfl

/-- What the launch hands the body and takes back, conjunct by conjunct: the scratch at some contents, the generator
    register, the two cells at zero, the reshaped input whole. -/
theorem PhiD_eq (c : Dev nD) :
    (Pipeline.ΦD osem spec0 Hset (V m) c : sProp 𝕄)
      = iprop(iprop((∃ d, owns (c : Thread nD τ) scM fullShare d)) ∗ (∃ r, prngReg c r) ∗ iprop(semVal ((c : Thread nD τ), SemLoc.dma 2) 0 ∗ semVal ((c : Thread nD τ), SemLoc.dma 3) 0) ∗ iprop(hbPt c hbM (V m c main_v0))) := by
  rw [Pipeline.ΦD_eq, scopedRest0_eq, ownSems_eq, hbmPts_eq]; simp only [scM, owns_whole]; try rfl

/-! ## Slots, blocks, cells -/

instance : NeZero grid0.N := ⟨by rw [N_0]; decide⟩
theorem inb_slot (s : Fin 2) : ∀ a, (![s.val, 0, 0, 0, 0] : Fin 5 → Nat) a + S1x2x64x127x64.size a ≤ S2x2x64x127x64.size a := by
  have := s.isLt; intro a; fin_cases a <;> simp <;> omega
theorem inb_src (b : Fin 64) : ∀ a, (![0, 63 - b.val, 0, b.val, 0] : Fin 5 → Nat) a + S2x64x127x1x64.size a ≤ S2x127x127x64x64.size a := by
  have := b.isLt; intro a; fin_cases a <;> simp <;> omega
theorem inb_cell (s : Fin 2) : ∀ a, (![s.val] : Fin 1 → Nat) a + S1.size a ≤ S2.size a := by
  have := s.isLt; intro a; fin_cases a <;> simp <;> omega
/-- Slot `s` of the scratch, spelt as the body's transfers spell their destination. -/
def rslot (s : Fin 2) : Memref sig .tc .vmem S2x64x127x64 .f32 :=
  (scM.slice (Rect.unit (s := S2x2x64x127x64) ![s.val, 0, 0, 0, 0] S1x2x64x127x64.size (inb_slot s)) (fun _ => rfl)).squeeze S2x64x127x64 squeezes_S1x2x64x127x64_S2x64x127x64
/-- Block `b` of the reshaped input: channel rows 63 - b … 126 - b at image row b, spelt as the transfers spell their source. -/
def srcB (b : Fin 64) : Memref sig .tc .hbm S2x64x127x64 .f32 :=
  (hbM.slice (Rect.unit (s := S2x127x127x64x64) ![0, 63 - b.val, 0, b.val, 0] S2x64x127x1x64.size (inb_src b)) (fun _ => rfl)).squeeze S2x64x127x64 squeezes_S2x64x127x1x64_S2x64x127x64
/-- Cell `s` of the kernel's semaphore array, and its number in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 2 := by decide
theorem cellR_1 : cellR 1 = SemLoc.dma 3 := by decide

section RingDefs
variable (c : Dev nD) (W : HbBuf (F := F) c hbM)
/-- Each slot borrows from its own read share of the input. -/
abbrev qs (s : Fin 2) : PosShare TreeShare := if s.val = 0 then fullShare.left else fullShare.right
abbrev slotP (s : Fin 2) (f : HbBuf (F := F) c (rslot s)) : sProp 𝕄 := (rslot s).view.loc (c : Thread nD τ) ↦[(rslot s).view.set]{fullShare} f
abbrev cellP (s : Fin 2) : sProp 𝕄 := semVal ((c : Thread nD τ), cellR s) 0
abbrev srcP (s : Fin 2) (b : Fin 64) : sProp 𝕄 := (srcB b).view.loc (c : Thread nD τ) ↦[(srcB b).view.set]{qs s} W
def restP (s : Fin 2) (b : Fin 64) : sProp 𝕄 := ((c : Thread nD τ).loc main_v0) ↦[Finset.univ \ (srcB b).view.set]{qs s} W
abbrev wholeP (s : Fin 2) : sProp 𝕄 := ((c : Thread nD τ).loc main_v0) ↦[Finset.univ]{qs s} W
/-- Slot `s` once block `b` has landed in it whole, over prior contents `f`. -/
abbrev landed (s : Fin 2) (b : Fin 64) (f : HbBuf (F := F) c (rslot s)) : HbBuf (F := F) c (rslot s) :=
  (rslot s).view.writes (Elt F) f [⟨Rect.whole S2x64x127x64, ReadAs.same.apply ((srcB b).view.read (Elt F) W)⟩]
/-- Block `b` in flight into slot `s`: on completion the slot landed, and the lent elements back. -/
abbrev flightP (s : Fin 2) (b : Fin 64) (f : HbBuf (F := F) c (rslot s)) : sProp 𝕄 :=
  Transfers.Flight countersEmb (c : Thread nD τ) (cellR s) default ((rslot s).view.amount (cellR s))
    iprop(slotP c s (landed c W s b f) ∗ srcP c W s b)
abbrev slotW (s : Fin 2) (f : HbBuf (F := F) c (rslot s)) : sProp 𝕄 := iprop(slotP c s f ∗ wholeP c W s)
abbrev flightW (s : Fin 2) (b : Fin 64) (f : HbBuf (F := F) c (rslot s)) : sProp 𝕄 := iprop(flightP c W s b f ∗ restP c W s b)
abbrev noHome (b : Fin 64) : sProp 𝕄 := iprop(emp)
/-- The state of the read-ahead before point `k`. -/
def ringAt (k : ℕ) : sProp 𝕄 :=
  if k = 0 then Ring.At₀ (cellP c) (slotW c W) noHome
  else Ring.AtK 1 (cellP c) (slotW c W) noHome (flightW c W) (landed c W) k
omit [FloatOps F] in
theorem cellP_0 : cellP (F := F) c 0 = semVal ((c : Thread nD τ), SemLoc.dma 2) 0 := congrArg (fun x => (semVal ((c : Thread nD τ), x) 0 : sProp 𝕄)) cellR_0
omit [FloatOps F] in
theorem cellP_1 : cellP (F := F) c 1 = semVal ((c : Thread nD τ), SemLoc.dma 3) 0 := congrArg (fun x => (semVal ((c : Thread nD τ), x) 0 : sProp 𝕄)) cellR_1
end RingDefs

/-! ## The two slots tile the scratch -/

abbrev slotSet (s : Fin 2) : Finset S2x2x64x127x64.Idx := (Rect.unit (s := S2x2x64x127x64) ![s.val, 0, 0, 0, 0] S1x2x64x127x64.size (inb_slot s)).set
theorem slotSet_eq (s : Fin 2) : (rslot s).view.set = slotSet s := by
  simp only [rslot, Memref.view_squeeze, View.set_reshape]; exact View.set_slice_whole _ _
theorem slots_disjoint (s s' : Fin 2) (h : s ≠ s') : Disjoint (slotSet s) (slotSet s') :=
  Ring.lead_disjoint (s := S2x2x64x127x64) (0 : Fin 5) 1 (fun s : Fin 2 => (![s.val, 0, 0, 0, 0] : Fin 5 → Nat)) S1x2x64x127x64.size inb_slot (fun s => by simp) rfl s s' h
theorem slots_cover : Finset.univ.biUnion slotSet = Finset.univ :=
  Ring.lead_cover (s := S2x2x64x127x64) (0 : Fin 5) 1 (fun s : Fin 2 => (![s.val, 0, 0, 0, 0] : Fin 5 → Nat)) S1x2x64x127x64.size inb_slot (fun s => by simp)
    (fun s a ha => by fin_cases a <;> first | exact absurd rfl ha | rfl) rfl (fun a ha => by fin_cases a <;> first | exact absurd rfl ha | rfl) rfl

/-! ## Into the invariant at the launch, out of it at the exit -/

section InOut
variable (c : Dev nD) (W : HbBuf (F := F) c hbM)
theorem slotP_eq (s : Fin 2) (f) : slotP (F := F) c s f = (((c : Thread nD τ).loc cc0_scratch0) ↦[slotSet s]{fullShare} f : sProp 𝕄) := by
  unfold slotP; rw [slotSet_eq]; rfl
/-- A slot's read share of the input is block `b`'s elements and the rest, for any `b`. -/
theorem src_split (s : Fin 2) (b : Fin 64) : wholeP (F := F) c W s ⊣⊢ iprop(srcP c W s b ∗ restP c W s b) := by
  unfold restP; exact pointsTo_split_subset (Finset.subset_univ _)
/-- The input whole is the two read shares. -/
theorem whole_split : (hbPt c hbM W : sProp 𝕄) ⊣⊢ iprop(wholeP c W 0 ∗ wholeP c W 1) :=
  pointsTo_share (PosShare.mem_left_op_right fullShare)
set_option maxHeartbeats 1000000 in
theorem slots_in : iprop(∃ d, owns (c : Thread nD τ) scM fullShare d) ⊢ (iprop((∃ f, slotP (F := F) c 0 f) ∗ ∃ f, slotP (F := F) c 1 f) : sProp 𝕄) := by
  simp only [scM, owns_whole]
  exact Ring.slots2_split (U := Pipeline.UD sig nD τ) (ℓ := (c : Thread nD τ).loc cc0_scratch0) (q := fullShare) slotSet slots_disjoint slots_cover
    (slotP c 0) (slotP c 1) (slotP_eq c 0) (slotP_eq c 1)
set_option maxHeartbeats 1000000 in
theorem slots_out : (iprop((∃ f, slotP (F := F) c 0 f) ∗ ∃ f, slotP (F := F) c 1 f) : sProp 𝕄) ⊢ iprop(∃ d, owns (c : Thread nD τ) scM fullShare d) := by
  simp only [scM, owns_whole]
  exact Ring.slots2_join (U := Pipeline.UD sig nD τ) (ℓ := (c : Thread nD τ).loc cc0_scratch0) (q := fullShare) slotSet slots_disjoint slots_cover
    (slotP c 0) (slotP c 1) (slotP_eq c 0) (slotP_eq c 1)
end InOut

/-- The launch's pieces are the invariant before the first point; -/
theorem ring_in (c : Dev nD) :
    iprop((∃ d, owns (c : Thread nD τ) scM fullShare d) ∗ (semVal ((c : Thread nD τ), SemLoc.dma 2) 0 ∗ semVal ((c : Thread nD τ), SemLoc.dma 3) 0) ∗ hbPt c hbM (V m c main_v0))
      ⊢ ringAt c (V m c main_v0) 0 := by
  unfold ringAt; rw [if_pos rfl]; unfold Ring.At₀
  rw [Ring.bigSep_fin2]
  simp only [Ring.free, cellP_0, cellP_1]
  iintro ⟨HS, Hc, HW⟩
  iapply Ring.with_homes₀
  icases Hc with ⟨H0, H1⟩
  ihave HS' := (slots_in (F := F) c) $$ HS
  icases HS' with ⟨⟨%d0, HS0⟩, ⟨%d1, HS1⟩⟩
  ihave HW' := (whole_split (F := F) c (V m c main_v0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- and after the last point, with nothing in flight, they are those pieces again. -/
theorem ring_out (c : Dev nD) :
    ringAt c (V m c main_v0) 64
      ⊢ iprop((∃ d, owns (c : Thread nD τ) scM fullShare d) ∗ (semVal ((c : Thread nD τ), SemLoc.dma 2) 0 ∗ semVal ((c : Thread nD τ), SemLoc.dma 3) 0) ∗ hbPt c hbM (V m c main_v0)) := by
  unfold ringAt; rw [if_neg (by decide)]
  iintro H
  ihave H' := (Ring.free2_of_AtK_last _ _ _ _ _) $$ H
  simp only [Ring.free, cellP_0, cellP_1]
  icases H' with ⟨-, ⟨H0, ⟨%f0, HS0, HW0⟩⟩, ⟨H1, ⟨%f1, HS1, HW1⟩⟩⟩
  isplitl [HS0 HS1]
  · iapply (slots_out (F := F) c); isplitl [HS0]; · iexists f0; iexact HS0
    iexists f1; iexact HS1
  isplitl [H0 H1]
  · isplitl [H0]; · iexact H0
    iexact H1
  · iapply (whole_split (F := F) c (V m c main_v0)).2; isplitl [HW0]; · iexact HW0
    iexact HW1

/-! ## The body's operands at point `t` are the named slots, blocks and cells -/

section Names
omit [FloatOps F]
theorem step_first : ∀ t : Fin grid0.N, isFirst (grid0.coords t) → hasNext (grid0.coords t) → t.val = 0 ∧ (t.val + 1) = 1 := by decide +kernel
theorem step_mid : ∀ t : Fin grid0.N, ¬isFirst (grid0.coords t) → hasNext (grid0.coords t) → 1 ≤ t.val ∧ t.val + 1 < 64 ∧ (t.val + 1) = t.val + 1 := by decide +kernel
theorem step_last : ∀ t : Fin grid0.N, ¬isFirst (grid0.coords t) → ¬hasNext (grid0.coords t) → 1 ≤ t.val ∧ t.val + 1 = 64 ∧ (t.val + 1) = t.val + 1 := by decide +kernel
-- the first point's own start: slot 0, cell 0, block 0
set_option synthInstance.maxSize 4096 in
theorem off_first_slot : ∀ t : Fin grid0.N, isFirst (grid0.coords t) → hasNext (grid0.coords t) → (![0, 0, 0, 0, 0] : Fin 5 → Nat) = ![(Ring.sl 2 t.val).val, 0, 0, 0, 0] := by decide +kernel
@[sl_canon] theorem name_first_slot (t : Fin grid0.N) (h0 : isFirst (grid0.coords t)) (h1 : hasNext (grid0.coords t)) :
    (scM.slice (Rect.unit (s := S2x2x64x127x64) ![0, 0, 0, 0, 0] S1x2x64x127x64.size inb_S2x2x64x127x64_S1x2x64x127x64_0_0_0_0_0) (fun _ => rfl)).squeeze S2x64x127x64 squeezes_S1x2x64x127x64_S2x64x127x64 = rslot (Ring.sl 2 t.val) :=
  congrArg (fun M : Memref sig .tc .vmem S1x2x64x127x64 .f32 => M.squeeze S2x64x127x64 squeezes_S1x2x64x127x64_S2x64x127x64) (Memref.slice_unit_congr _ (off_first_slot t h0 h1) _ _ (fun _ => rfl) (fun _ => rfl))
set_option synthInstance.maxSize 4096 in
theorem off_first_cell : ∀ t : Fin grid0.N, isFirst (grid0.coords t) → hasNext (grid0.coords t) → (![0] : Fin 1 → Nat) = ![(Ring.sl 2 t.val).val] := by decide +kernel
@[sl_canon] theorem name_first_cell (t : Fin grid0.N) (h0 : isFirst (grid0.coords t)) (h1 : hasNext (grid0.coords t)) :
    (cc0_scratch1.slice (Rect.unit (s := S2) ![0] S1.size inb_S2_S1_0)).squeeze S_ squeezes_S1_S_ = cellA (Ring.sl 2 t.val) :=
  congrArg (fun A : DmaSems sig S1 => A.squeeze S_ squeezes_S1_S_) (SemArray.slice_unit_congr _ (off_first_cell t h0 h1) _ _)
set_option synthInstance.maxSize 4096 in
theorem off_first_src : ∀ t : Fin grid0.N, isFirst (grid0.coords t) → hasNext (grid0.coords t) → (![0, 63, 0, 0, 0] : Fin 5 → Nat) = ![0, 63 - (Ring.bk 64 t.val).val, 0, (Ring.bk 64 t.val).val, 0] := by decide +kernel
@[sl_canon] theorem name_first_src (t : Fin grid0.N) (h0 : isFirst (grid0.coords t)) (h1 : hasNext (grid0.coords t)) :
    (hbM.slice (Rect.unit (s := S2x127x127x64x64) ![0, 63, 0, 0, 0] S2x64x127x1x64.size inb_S2x127x127x64x64_S2x64x127x1x64_0_63_0_0_0) (fun _ => rfl)).squeeze S2x64x127x64 squeezes_S2x64x127x1x64_S2x64x127x64 = srcB (Ring.bk 64 t.val) :=
  congrArg (fun M : Memref sig .tc .hbm S2x64x127x1x64 .f32 => M.squeeze S2x64x127x64 squeezes_S2x64x127x1x64_S2x64x127x64) (Memref.slice_unit_congr _ (off_first_src t h0 h1) _ _ (fun _ => rfl) (fun _ => rfl))
-- the wait: slot t % 2, cell t % 2
set_option synthInstance.maxSize 4096 in
theorem off_wait_slot : ∀ t : Fin grid0.N, k0_off2 (grid0.coords t) = ![(Ring.sl 2 t.val).val, 0, 0, 0, 0] := by decide +kernel
@[sl_canon] theorem name_wait_slot (t : Fin grid0.N) :
    (scM.slice (Rect.unit (s := S2x2x64x127x64) (k0_off2 (grid0.coords t)) S1x2x64x127x64.size (k0_off2_inb (grid0.coords t))) (fun _ => rfl)).squeeze S2x64x127x64 squeezes_S1x2x64x127x64_S2x64x127x64 = rslot (Ring.sl 2 t.val) :=
  congrArg (fun M : Memref sig .tc .vmem S1x2x64x127x64 .f32 => M.squeeze S2x64x127x64 squeezes_S1x2x64x127x64_S2x64x127x64) (Memref.slice_unit_congr _ (off_wait_slot t) _ _ (fun _ => rfl) (fun _ => rfl))
set_option synthInstance.maxSize 4096 in
theorem off_wait_cell : ∀ t : Fin grid0.N, k0_off1 (grid0.coords t) = ![(Ring.sl 2 t.val).val] := by decide +kernel
@[sl_canon] theorem name_wait_cell (t : Fin grid0.N) :
    (cc0_scratch1.slice (Rect.unit (s := S2) (k0_off1 (grid0.coords t)) S1.size (k0_off1_inb (grid0.coords t)))).squeeze S_ squeezes_S1_S_ = cellA (Ring.sl 2 t.val) :=
  congrArg (fun A : DmaSems sig S1 => A.squeeze S_ squeezes_S1_S_) (SemArray.slice_unit_congr _ (off_wait_cell t) _ _)
-- the start of the next block: slot (t + 1) % 2, cell (t + 1) % 2, block t + 1
set_option synthInstance.maxSize 4096 in
theorem off_next_slot : ∀ t : Fin grid0.N, k0_off4 (grid0.coords t) = ![(Ring.sl 2 (t.val + 1)).val, 0, 0, 0, 0] := by decide +kernel
@[sl_canon] theorem name_next_slot (t : Fin grid0.N) (h1 : hasNext (grid0.coords t)) :
    (scM.slice (Rect.unit (s := S2x2x64x127x64) (k0_off4 (grid0.coords t)) S1x2x64x127x64.size (k0_off4_inb (grid0.coords t) h1)) (fun _ => rfl)).squeeze S2x64x127x64 squeezes_S1x2x64x127x64_S2x64x127x64 = rslot (Ring.sl 2 (t.val + 1)) :=
  congrArg (fun M : Memref sig .tc .vmem S1x2x64x127x64 .f32 => M.squeeze S2x64x127x64 squeezes_S1x2x64x127x64_S2x64x127x64) (Memref.slice_unit_congr _ (off_next_slot t) _ _ (fun _ => rfl) (fun _ => rfl))
set_option synthInstance.maxSize 4096 in
theorem off_next_cell : ∀ t : Fin grid0.N, k0_off3 (grid0.coords t) = ![(Ring.sl 2 (t.val + 1)).val] := by decide +kernel
@[sl_canon] theorem name_next_cell (t : Fin grid0.N) (h1 : hasNext (grid0.coords t)) :
    (cc0_scratch1.slice (Rect.unit (s := S2) (k0_off3 (grid0.coords t)) S1.size (k0_off3_inb (grid0.coords t) h1))).squeeze S_ squeezes_S1_S_ = cellA (Ring.sl 2 (t.val + 1)) :=
  congrArg (fun A : DmaSems sig S1 => A.squeeze S_ squeezes_S1_S_) (SemArray.slice_unit_congr _ (off_next_cell t) _ _)
set_option synthInstance.maxSize 4096 in
theorem off_next_src : ∀ t : Fin grid0.N, hasNext (grid0.coords t) → k0_off5 (grid0.coords t) = ![0, 63 - (Ring.bk 64 (t.val + 1)).val, 0, (Ring.bk 64 (t.val + 1)).val, 0] := by decide +kernel
@[sl_canon] theorem name_next_src (t : Fin grid0.N) (h1 : hasNext (grid0.coords t)) :
    (hbM.slice (Rect.unit (s := S2x127x127x64x64) (k0_off5 (grid0.coords t)) S2x64x127x1x64.size (k0_off5_inb (grid0.coords t) h1)) (fun _ => rfl)).squeeze S2x64x127x64 squeezes_S2x64x127x1x64_S2x64x127x64 = srcB (Ring.bk 64 (t.val + 1)) :=
  congrArg (fun M : Memref sig .tc .hbm S2x64x127x1x64 .f32 => M.squeeze S2x64x127x64 squeezes_S2x64x127x1x64_S2x64x127x64) (Memref.slice_unit_congr _ (off_next_src t h1) _ _ (fun _ => rfl) (fun _ => rfl))
-- the load: slot t % 2's row
set_option synthInstance.maxSize 4096 in
theorem off_load : ∀ t : Fin grid0.N, k0_off6 (grid0.coords t) = ![(Ring.sl 2 t.val).val, 0, 0, 0, 0] := by decide +kernel
instance (priority := high) closedOff_load (t : Fin grid0.N) : ClosedOff (k0_off6 (grid0.coords t)) := ⟨![(Ring.sl 2 t.val).val, 0, 0, 0, 0], off_load t⟩
end Names

end Cert.Proof.KI

end
-- ==== Proof.RunFirstKI.lean ====
/-
  The body at the FIRST point (h = 0; a next block exists): both slots are free. It starts block 0 into slot 0, waits
  for it, starts block 1 into slot 1, reads slot 0 and stores the rearranged block. It hands on: block 1 in flight
  into slot 1, slot 0 keeping block 0. What the store leaves in the output's staging buffer is found by running the body.
-/
import proofs.«120862_j50199577755805_1_alg».proof.Proof.RingKI

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body's store leaves in the output's staging buffer at the first point, with the proof that from
    both slots free the body runs to: the output's buffer with those pieces written, block 1 in flight into slot 1,
    slot 0 keeping block 0. -/
noncomputable def runFirst (c : Dev nD) (t : Fin cfg0.N) (arg2 : Memref sig .tc .vmem S2x1x4096x64 .f32) (harg2 : arg2.IsWhole)
    (hc0 : isFirst (grid0.coords t)) (hc1 : hasNext (grid0.coords t)) (fh : HbBuf (F := F) c hbM) :
    { L : List (View.Piece (Elt F) S2x1x4096x64 .f32) //
      ∀ (W : Waits sig Unit) (K : PUnit → sProp 𝕄),
        iprop((∃ d, owns (c : Thread nD τ) arg2 fullShare d) ∗ Ring.free (cellP c) (slotW c fh) (Ring.sl 2 t.val) ∗ Ring.free (cellP c) (slotW c fh) (Ring.sl 2 (t.val + 1)) ∗ owes (c : Thread nD τ) 0 W
            ∗ (iprop((∃ f, arg2.view.loc (c : Thread nD τ) ↦[arg2.view.set]{fullShare} arg2.view.writes (Elt F) f L) ∗ Ring.inflight (flightW c fh) (Ring.sl 2 (t.val + 1)) (Ring.bk 64 (t.val + 1)) ∗ Ring.kept (cellP c) (slotW c fh) (landed c fh) (Ring.sl 2 t.val) (Ring.bk 64 t.val) ∗ (∃ W', owes (c : Thread nD τ) 0 W')) -∗ K ⟨⟩))
          ⊢ wp frame (wpE (defs₀ (F := F)) Variants.none c none) Set.univ (cc0__collect_kernel (grid0.coords t) hbM (Memref.isWhole_whole _) arg2 harg2 scM (Memref.isWhole_whole _) cc0_scratch1) K } := by
  refine ⟨?_, fun W K => ?run⟩
  case run =>
    haveI : Fact (isFirst (grid0.coords t)) := ⟨hc0⟩
    haveI : Fact (hasNext (grid0.coords t)) := ⟨hc1⟩
    simp only [cc0__collect_kernel_eq_skeleton]; unfold cc0__collect_kernel_skel
    simp only [k0_part1_eq_skeleton]
    have hcanon0 := name_first_slot t hc0 hc1
    have hcanon1 := name_first_cell t hc0 hc1
    have hcanon2 := name_first_src t hc0 hc1
    unfold owns Ring.free Ring.inflight Ring.kept
    iintro ⟨⟨%d1, %f1, -, H1⟩, ⟨Hc0, ⟨%fs0, Hs0, Hw0⟩⟩, ⟨Hc1, ⟨%fs1, Hs1, Hw1⟩⟩, HW, Hk⟩
    ihave Hsp0 := (src_split c fh (Ring.sl 2 t.val) (Ring.bk 64 t.val)).1 $$ Hw0
    icases Hsp0 with ⟨Hh0, Hr0⟩
    ihave Hsp1 := (src_split c fh (Ring.sl 2 (t.val + 1)) (Ring.bk 64 (t.val + 1))).1 $$ Hw1
    icases Hsp1 with ⟨Hh1, Hr1⟩
    sl_exec (disch := first | exact hc0 | exact hc1)
    sl_step
    iapply Hk
    isplitl [H1]; · iexists _; iexact H1
    isplitl [Hc1 Hr1]
    · iexists _; isplitl [Hc1]; · iexact Hc1
      iexact Hr1
    isplitl [Hc0 Hs0 Hh0 Hr0]
    · isplitl [Hc0]; · iexact Hc0
      iexists _; isplitl [Hs0]; · iexact Hs0
      iapply (src_split c fh (Ring.sl 2 t.val) (Ring.bk 64 t.val)).2; isplitl [Hh0]; · iexact Hh0
      iexact Hr0
    iexists _; iexact HW

end Cert.Proof.KI

end
-- ==== Proof.RunMidKI.lean ====
/-
  The body at a MIDDLE point (1 ≤ h < 63): block h is in flight into slot h % 2 and the other slot keeps block h - 1.
  It waits for block h, starts block h + 1 over the kept block, reads slot h % 2 and stores the rearranged block. It
  hands on: block h + 1 in flight, slot h % 2 keeping block h.
-/
import proofs.«120862_j50199577755805_1_alg».proof.Proof.RunFirstKI

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body's store leaves in the output's staging buffer at a middle point, with the proof of the run. -/
noncomputable def runMid (c : Dev nD) (t : Fin cfg0.N) (arg2 : Memref sig .tc .vmem S2x1x4096x64 .f32) (harg2 : arg2.IsWhole)
    (hc0 : ¬isFirst (grid0.coords t)) (hc1 : hasNext (grid0.coords t)) (fh : HbBuf (F := F) c hbM) :
    { L : List (View.Piece (Elt F) S2x1x4096x64 .f32) //
      ∀ (W : Waits sig Unit) (K : PUnit → sProp 𝕄),
        iprop((∃ d, owns (c : Thread nD τ) arg2 fullShare d) ∗ Ring.inflight (flightW c fh) (Ring.sl 2 t.val) (Ring.bk 64 t.val) ∗ Ring.kept (cellP c) (slotW c fh) (landed c fh) (Ring.sl 2 (t.val + 1)) (Ring.bk 64 (t.val - 1)) ∗ owes (c : Thread nD τ) 0 W
            ∗ (iprop((∃ f, arg2.view.loc (c : Thread nD τ) ↦[arg2.view.set]{fullShare} arg2.view.writes (Elt F) f L) ∗ Ring.inflight (flightW c fh) (Ring.sl 2 (t.val + 1)) (Ring.bk 64 (t.val + 1)) ∗ Ring.kept (cellP c) (slotW c fh) (landed c fh) (Ring.sl 2 t.val) (Ring.bk 64 t.val) ∗ (∃ W', owes (c : Thread nD τ) 0 W')) -∗ K ⟨⟩))
          ⊢ wp frame (wpE (defs₀ (F := F)) Variants.none c none) Set.univ (cc0__collect_kernel (grid0.coords t) hbM (Memref.isWhole_whole _) arg2 harg2 scM (Memref.isWhole_whole _) cc0_scratch1) K } := by
  refine ⟨?_, fun W K => ?run⟩
  case run =>
    haveI : Fact (¬isFirst (grid0.coords t)) := ⟨hc0⟩
    haveI : Fact (hasNext (grid0.coords t)) := ⟨hc1⟩
    simp only [cc0__collect_kernel_eq_skeleton]; unfold cc0__collect_kernel_skel
    simp only [k0_part1_eq_skeleton]
    unfold owns Ring.inflight Ring.kept
    iintro ⟨⟨%d1, %f1, -, H1⟩, ⟨%ff, Hf, Hrf⟩, ⟨Hc1, ⟨%fs1, Hs1, Hw1⟩⟩, HW, Hk⟩
    ihave Hsp1 := (src_split c fh (Ring.sl 2 (t.val + 1)) (Ring.bk 64 (t.val + 1))).1 $$ Hw1
    icases Hsp1 with ⟨Hh1, Hr1⟩
    sl_exec (disch := first | exact hc0 | exact hc1)
    sl_step
    iapply Hk
    isplitl [H1]; · iexists _; iexact H1
    isplitl [Hc1 Hr1]
    · iexists _; isplitl [Hc1]; · iexact Hc1
      iexact Hr1
    isplitl [Hf Hf_dst Hf_src Hrf]
    · isplitl [Hf]; · iexact Hf
      iexists _; isplitl [Hf_dst]; · iexact Hf_dst
      iapply (src_split c fh (Ring.sl 2 t.val) (Ring.bk 64 t.val)).2; isplitl [Hf_src]; · iexact Hf_src
      iexact Hrf
    iexists _; iexact HW

end Cert.Proof.KI

end
-- ==== Proof.RunLastKI.lean ====
/-
  The body at the LAST point (h = 63): block 63 is in flight into slot 1. It waits for it, starts nothing, reads slot 1
  and stores the rearranged block. It hands on slot 1 keeping block 63; the other slot still keeps block 62.
-/
import proofs.«120862_j50199577755805_1_alg».proof.Proof.RunMidKI

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The pieces the body's store leaves in the output's staging buffer at the last point, with the proof of the run. -/
noncomputable def runLast (c : Dev nD) (t : Fin cfg0.N) (arg2 : Memref sig .tc .vmem S2x1x4096x64 .f32) (harg2 : arg2.IsWhole)
    (hc0 : ¬isFirst (grid0.coords t)) (hc1 : ¬hasNext (grid0.coords t)) (fh : HbBuf (F := F) c hbM) :
    { L : List (View.Piece (Elt F) S2x1x4096x64 .f32) //
      ∀ (W : Waits sig Unit) (K : PUnit → sProp 𝕄),
        iprop((∃ d, owns (c : Thread nD τ) arg2 fullShare d) ∗ Ring.inflight (flightW c fh) (Ring.sl 2 t.val) (Ring.bk 64 t.val) ∗ owes (c : Thread nD τ) 0 W
            ∗ (iprop((∃ f, arg2.view.loc (c : Thread nD τ) ↦[arg2.view.set]{fullShare} arg2.view.writes (Elt F) f L) ∗ Ring.kept (cellP c) (slotW c fh) (landed c fh) (Ring.sl 2 t.val) (Ring.bk 64 t.val) ∗ (∃ W', owes (c : Thread nD τ) 0 W')) -∗ K ⟨⟩))
          ⊢ wp frame (wpE (defs₀ (F := F)) Variants.none c none) Set.univ (cc0__collect_kernel (grid0.coords t) hbM (Memref.isWhole_whole _) arg2 harg2 scM (Memref.isWhole_whole _) cc0_scratch1) K } := by
  refine ⟨?_, fun W K => ?run⟩
  case run =>
    haveI : Fact (¬isFirst (grid0.coords t)) := ⟨hc0⟩
    haveI : Fact (¬hasNext (grid0.coords t)) := ⟨hc1⟩
    simp only [cc0__collect_kernel_eq_skeleton]; unfold cc0__collect_kernel_skel
    simp only [k0_part1_eq_skeleton]
    unfold owns Ring.inflight Ring.kept
    iintro ⟨⟨%d1, %f1, -, H1⟩, ⟨%ff, Hf, Hrf⟩, HW, Hk⟩
    sl_exec (disch := first | exact hc0 | exact hc1)
    sl_step
    iapply Hk
    isplitl [H1]; · iexists _; iexact H1
    isplitl [Hf Hf_dst Hf_src Hrf]
    · isplitl [Hf]; · iexact Hf
      iexists _; isplitl [Hf_dst]; · iexact Hf_dst
      iapply (src_split c fh (Ring.sl 2 t.val) (Ring.bk 64 t.val)).2; isplitl [Hf_src]; · iexact Hf_src
      iexact Hrf
    iexists _; iexact HW

end Cert.Proof.KI

end
-- ==== Proof.FrameKI.lean ====
/-
  The frame of the collect kernel: the three kinds of point assembled over the grid.
  What the output's staging buffer holds after point h is what that point's store left (the body never reads it);
  the invariant before point h is the generator register and the read-ahead's state before step h; the launch's pieces
  (scratch, the two cells at zero, the reshaped input whole) are the invariant before point 0, and after point 63,
  nothing being in flight, they are handed back. The run is the library's launch theorem for a kernel with transfers
  of its own whose program continues after the region.
-/
import proofs.«120862_j50199577755805_1_alg».proof.Proof.RunLastKI

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The store of the first point covers the output's block. -/
theorem coverFirst (c : Dev nD) (t : Fin cfg0.N) (arg2 : Memref sig .tc .vmem S2x1x4096x64 .f32) (harg2 : arg2.IsWhole)
    (hc0 : isFirst (grid0.coords t)) (hc1 : hasNext (grid0.coords t)) (fh : HbBuf (F := F) c hbM) (y : S2x1x4096x64.Idx) :
    ∃ pc ∈ (runFirst c t arg2 harg2 hc0 hc1 fh).1, y ∈ pc.1.set :=
  View.cover_of_tiledL (runFirst c t arg2 harg2 hc0 hc1 fh).1 S2x1x4096x64.size (by sl_kernel_rfl) y

/-- What the first point leaves in the output's staging buffer: its pieces read back. -/
def outFirst (c : Dev nD) (t : Fin cfg0.N) (arg2 : Memref sig .tc .vmem S2x1x4096x64 .f32) (harg2 : arg2.IsWhole)
    (hc0 : isFirst (grid0.coords t)) (hc1 : hasNext (grid0.coords t)) (fh : HbBuf (F := F) c hbM) : Vec F S2x1x4096x64 .f32 :=
  VOut.read (Elt F) (VOut.writes (Elt F) VOut.junk (runFirst c t arg2 harg2 hc0 hc1 fh).1)

/-- The store of a middle point covers the output's block. -/
theorem coverMid (c : Dev nD) (t : Fin cfg0.N) (arg2 : Memref sig .tc .vmem S2x1x4096x64 .f32) (harg2 : arg2.IsWhole)
    (hc0 : ¬isFirst (grid0.coords t)) (hc1 : hasNext (grid0.coords t)) (fh : HbBuf (F := F) c hbM) (y : S2x1x4096x64.Idx) :
    ∃ pc ∈ (runMid c t arg2 harg2 hc0 hc1 fh).1, y ∈ pc.1.set :=
  View.cover_of_tiledL (runMid c t arg2 harg2 hc0 hc1 fh).1 S2x1x4096x64.size (by sl_kernel_rfl) y

/-- What a middle point leaves in the output's staging buffer: its pieces read back. -/
def outMid (c : Dev nD) (t : Fin cfg0.N) (arg2 : Memref sig .tc .vmem S2x1x4096x64 .f32) (harg2 : arg2.IsWhole)
    (hc0 : ¬isFirst (grid0.coords t)) (hc1 : hasNext (grid0.coords t)) (fh : HbBuf (F := F) c hbM) : Vec F S2x1x4096x64 .f32 :=
  VOut.read (Elt F) (VOut.writes (Elt F) VOut.junk (runMid c t arg2 harg2 hc0 hc1 fh).1)

/-- The store of the last point covers the output's block. -/
theorem coverLast (c : Dev nD) (t : Fin cfg0.N) (arg2 : Memref sig .tc .vmem S2x1x4096x64 .f32) (harg2 : arg2.IsWhole)
    (hc0 : ¬isFirst (grid0.coords t)) (hc1 : ¬hasNext (grid0.coords t)) (fh : HbBuf (F := F) c hbM) (y : S2x1x4096x64.Idx) :
    ∃ pc ∈ (runLast c t arg2 harg2 hc0 hc1 fh).1, y ∈ pc.1.set :=
  View.cover_of_tiledL (runLast c t arg2 harg2 hc0 hc1 fh).1 S2x1x4096x64.size (by sl_kernel_rfl) y

/-- What the last point leaves in the output's staging buffer: its pieces read back. -/
def outLast (c : Dev nD) (t : Fin cfg0.N) (arg2 : Memref sig .tc .vmem S2x1x4096x64 .f32) (harg2 : arg2.IsWhole)
    (hc0 : ¬isFirst (grid0.coords t)) (hc1 : ¬hasNext (grid0.coords t)) (fh : HbBuf (F := F) c hbM) : Vec F S2x1x4096x64 .f32 :=
  VOut.read (Elt F) (VOut.writes (Elt F) VOut.junk (runLast c t arg2 harg2 hc0 hc1 fh).1)

/-! ## What the output's staging buffer holds after each point -/

/-- After point `t`: what the kind of point `t` is leaves there. -/
def outsAt (c : Dev nD) (t : Fin cfg0.N) : Vec F S2x1x4096x64 .f32 :=
  if h0 : t.val = 0 then
    if h1 : t.val < 63 then outFirst c t (outM t) (outM_whole t) ((isFirst_iff t).mpr h0) ((hasNext_iff t).mpr h1) (V m c main_v0)
    else False.elim (by omega)
  else
    if h1 : t.val < 63 then outMid c t (outM t) (outM_whole t) (fun h => h0 ((isFirst_iff t).mp h)) ((hasNext_iff t).mpr h1) (V m c main_v0)
    else outLast c t (outM t) (outM_whole t) (fun h => h0 ((isFirst_iff t).mp h)) (fun h => h1 ((hasNext_iff t).mp h)) (V m c main_v0)

theorem outsAt_first (c : Dev nD) (t : Fin cfg0.N) (h0 : t.val = 0) (h1 : t.val < 63) :
    outsAt m c t = outFirst c t (outM t) (outM_whole t) ((isFirst_iff t).mpr h0) ((hasNext_iff t).mpr h1) (V m c main_v0) :=
  (dif_pos h0).trans (dif_pos h1)
theorem outsAt_mid (c : Dev nD) (t : Fin cfg0.N) (h0 : ¬t.val = 0) (h1 : t.val < 63) :
    outsAt m c t = outMid c t (outM t) (outM_whole t) (fun h => h0 ((isFirst_iff t).mp h)) ((hasNext_iff t).mpr h1) (V m c main_v0) :=
  (dif_neg h0).trans (dif_pos h1)
theorem outsAt_last (c : Dev nD) (t : Fin cfg0.N) (h0 : ¬t.val = 0) (h1 : ¬t.val < 63) :
    outsAt m c t = outLast c t (outM t) (outM_whole t) (fun h => h0 ((isFirst_iff t).mp h)) (fun h => h1 ((hasNext_iff t).mp h)) (V m c main_v0) :=
  (dif_neg h0).trans (dif_neg h1)

/-! ## The proof data -/

/-- The invariant before point `k`. -/
def PhiR (c : Dev nD) (k : ℕ) : sProp 𝕄 := iprop((∃ r, prngReg c r) ∗ ringAt c (V m c main_v0) k)

def dats (_ : Fin 1) (c : Dev nD) : Dat τ (Elt F) Unit ℕ (Pipeline.UD sig nD τ) ℕ cfg0 c where
  A w := V m c (Pipeline.arrRef spec0 w)
  after w t := match w with
    | ⟨0, _⟩ => outsAt m c t
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]
theorem after_0 (c : Dev nD) (t : Fin cfg0.N) : (dats m 0 c).after 0 t = outsAt m c t := by dsimp only [dats]

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (outM t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (outM t) fullShare ((dats m 0 c).after 0 t))

set_option maxHeartbeats 1200000 in
/-- At any point: which kind it is is decided by its number; the invariant before it is rewritten to the pieces that
    kind of point takes, the run applies, and what it hands back is the invariant before the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after_0]
  rw [PhiR_castSucc m c t, PhiR_succ m c t]
  unfold Dat.owesAt Pipeline.owesWithin
  rw [show (dats m 0 c).owed t.castSucc = 0 from rfl, show (dats m 0 c).owed t.succ = 0 from rfl]
  unfold PhiR ringAt
  have hN : t.val < 64 := lt_of_lt_of_eq t.isLt (show cfg0.N = 64 from N_0)
  by_cases h0 : t.val = 0
  · by_cases h1 : t.val < 63
    · rw [outsAt_first m c t h0 h1]
      unfold outFirst
      have hr := step_first t ((isFirst_iff t).mpr h0) ((hasNext_iff t).mpr h1)
      obtain ⟨hK0, hK1⟩ := hr
      rw [if_pos hK0, if_neg (show ¬t.val + 1 = 0 by omega)]
      rw [Ring.At₀_eq2' _ _ _ t.val hK0 (by decide : 2 ≤ 64), Ring.AtK2_one' _ _ _ _ _ t.val hK0 (by decide : 1 < 64)]
      iintro ⟨⟨Hg, ⟨-, Hfr0, Hfr1⟩⟩, ⟨%W, -, HW⟩, ⟨%d1, H1⟩⟩
      iapply ((runFirst c t _ _ ((isFirst_iff t).mpr h0) ((hasNext_iff t).mpr h1) (V m c main_v0)).2 W _)
      isplitl [H1]; · iexists _; iexact H1
      isplitl [Hfr0]; · iexact Hfr0
      isplitl [Hfr1]; · iexact Hfr1
      isplitl [HW]; · iexact HW
      iintro ⟨⟨%e1, H1⟩, Hfl', Hkp', ⟨%W', HW'⟩⟩
      isplitl [Hg Hfl' Hkp']
      · isplitl [Hg]; · iexact Hg
        iapply Ring.with_homes₀
        isplitl [Hfl']; · iexact Hfl'
        iexact Hkp'
      isplitl [HW']
      · iexists W'; isplitr; · ipureintro; exact fun _ _ => Or.inl trivial
        iexact HW'
      unfold owns; iexists _; isplitr
      swap; · iexact H1
      ipureintro; exact View.read_writes_of_cover _ _ _ _ _ (coverFirst c _ _ _ _ _ _)
    · exfalso; omega
  · by_cases h1 : t.val < 63
    · rw [outsAt_mid m c t h0 h1]
      unfold outMid
      have hr := step_mid t (fun h => h0 ((isFirst_iff t).mp h)) ((hasNext_iff t).mpr h1)
      obtain ⟨hK1, hKB, hKs⟩ := hr
      rw [if_neg (show ¬t.val = 0 by omega), if_neg (show ¬t.val + 1 = 0 by omega)]
      rw [Ring.AtK2_here _ _ _ _ _ t.val hK1 hKB, Ring.AtK2_next _ _ _ _ _ t.val hK1 hKB]
      iintro ⟨⟨Hg, ⟨-, Hfl, Hkp⟩⟩, ⟨%W, -, HW⟩, ⟨%d1, H1⟩⟩
      iapply ((runMid c t _ _ (fun h => h0 ((isFirst_iff t).mp h)) ((hasNext_iff t).mpr h1) (V m c main_v0)).2 W _)
      isplitl [H1]; · iexists _; iexact H1
      isplitl [Hfl]; · iexact Hfl
      isplitl [Hkp]; · iexact Hkp
      isplitl [HW]; · iexact HW
      iintro ⟨⟨%e1, H1⟩, Hfl', Hkp', ⟨%W', HW'⟩⟩
      isplitl [Hg Hfl' Hkp']
      · isplitl [Hg]; · iexact Hg
        iapply (Ring.with_homes (Idealize.SL.BI.Entails.refl _))
        isplitl [Hfl']; · iexact Hfl'
        iexact Hkp'
      isplitl [HW']
      · iexists W'; isplitr; · ipureintro; exact fun _ _ => Or.inl trivial
        iexact HW'
      unfold owns; iexists _; isplitr
      swap; · iexact H1
      ipureintro; exact View.read_writes_of_cover _ _ _ _ _ (coverMid c _ _ _ _ _ _)
    · rw [outsAt_last m c t h0 h1]
      unfold outLast
      have hr := step_last t (fun h => h0 ((isFirst_iff t).mp h)) (fun h => h1 ((hasNext_iff t).mp h))
      obtain ⟨hK1, hKB, hKs⟩ := hr
      rw [if_neg (show ¬t.val = 0 by omega), if_neg (show ¬t.val + 1 = 0 by omega)]
      rw [Ring.AtK2_here_last _ _ _ _ _ t.val hK1 hKB, Ring.AtK2_next_last _ _ _ _ _ t.val hK1 hKB]
      iintro ⟨⟨Hg, ⟨-, Hfl, Hkp⟩⟩, ⟨%W, -, HW⟩, ⟨%d1, H1⟩⟩
      iapply ((runLast c t _ _ (fun h => h0 ((isFirst_iff t).mp h)) (fun h => h1 ((hasNext_iff t).mp h)) (V m c main_v0)).2 W _)
      isplitl [H1]; · iexists _; iexact H1
      isplitl [Hfl]; · iexact Hfl
      isplitl [HW]; · iexact HW
      iintro ⟨⟨%e1, H1⟩, Hkp', ⟨%W', HW'⟩⟩
      isplitl [Hg Hkp Hkp']
      · isplitl [Hg]; · iexact Hg
        iapply (Ring.with_homes (Idealize.SL.BI.Entails.refl _))
        isplitl [Hkp]; · iexact Hkp
        iexact Hkp'
      isplitl [HW']
      · iexists W'; isplitr; · ipureintro; exact fun _ _ => Or.inl trivial
        iexact HW'
      unfold owns; iexists _; isplitr
      swap; · iexact H1
      ipureintro; exact View.read_writes_of_cover _ _ _ _ _ (coverLast c _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦD osem spec0 Hset (V m) c ⊢ (dats m 0 c).Φ 0 := by
  rw [PhiD_eq, show (dats m 0 c).Φ 0 = PhiR m c 0 from rfl]
  unfold PhiR
  iintro ⟨HR, Hg, ⟨Hq0, Hq1⟩, Hh⟩
  isplitl [Hg]; · iexact Hg
  iapply (ring_in (F := F) m c)
  isplitl [HR]; · iexact HR
  isplitl [Hq0 Hq1]
  · isplitl [Hq0]; · iexact Hq0
    iexact Hq1
  iexact Hh
theorem hout (c : Dev nD) : (dats m 0 c).Φ (Fin.last cfg0.N) ⊢ Pipeline.ΦD osem spec0 Hset (V m) c := by
  rw [PhiD_eq, show (dats m 0 c).Φ (Fin.last cfg0.N) = PhiR m c grid0.N from rfl]
  unfold PhiR
  rw [show grid0.N = 64 by rw [N_0]]
  iintro ⟨Hg, HR⟩
  ihave HX := (ring_out (F := F) m c) $$ HR
  icases HX with ⟨HR, ⟨Hq0, Hq1⟩, Hh⟩
  isplitl [HR]
  · iexact HR
  isplitl [Hg]
  · iexact Hg
  isplitl [Hq0 Hq1]
  · isplitl [Hq0]; · iexact Hq0
    iexact Hq1
  iexact Hh

/-! ## The transpose after the region touches neither the scratch's source nor any array -/

theorem tail_sub : ∀ ops ∈ ([hostOps1] : List (List (HloOp τ sig (Elt F)))), ∀ op ∈ ops,
    op.bufs ⊆ Pipeline.tailRefsBut sig Pipeline.Prefetch.none spec0 Hset := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  intro b hb
  simp only [Hset, Finset.mem_singleton] at hb
  subst hb
  simp only [StableHlo.unary_bufs, Finset.mem_insert, Finset.mem_singleton, not_or]
  exact ⟨StableHlo.devRef_ne_of_ne (by decide), StableHlo.devRef_ne_of_ne (by decide)⟩

/-! ## The run and the frame -/

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_dma_around cfgs (dats m) (0 : Fin 1) launch0 osem defs₀ Variants.none ownSemFacts Hset Hset_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m Variants.none) (hA := A_eq m) (hin := hin m) (hout := hout m)

/-- The frame: the program runs to the end, faults nowhere, and leaves its input as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_ofD m ρ (dats m) (run_main m ρ)

end Cert.Proof.KI

end
-- ==== Proof.Payload.lean ====
/-
  The stored value of the kernel body, read at one index.

  The body loads one slot of its scratch, a vector `v` of shape [1, 2, 64, 127, 64] indexed `(0, n, i, T, w)`,
  and stores a vector of shape [2, 1, 4096, 64] obtained from it by layout operations only. Write an output
  channel as `c = i·64 + j`. The stored entry `(n, 0, c, w)` is `v (0, n, i, j + 63 − w, w)`.

  Why. The first group of operations drops the unit axis, swaps the last two axes to `(n, i, w, T)` and puts one
  zero in front of every row `T ↦ ·`, so row `(n, i, w)` has 128 entries, entry `p ≥ 1` being `v (0, n, i, p − 1, w)`.
  The second group re-reads each 64 × 128 block `(n, i)` row-major as 128 × 64, drops its first row of 64, re-reads
  the remaining 127 × 64 as 64 × 127, and keeps the first 64 columns. Entry `(w, j)` of that 64 × 127 block sits
  at flat position `w·127 + j` of the 127 × 64 block, hence at `w·127 + j + 64 = w·128 + (j + 64 − w)` of the
  original 64 × 128 block: row `w`, column `j + 64 − w`. Row `w` has been shifted by `w`. Since `j, w ≤ 63` the
  column lies in `1 … 127`: the zero column is never read, and the entry is `v (0, n, i, j + 63 − w, w)`. A last
  swap of the two inner axes and two regroupings of axes give the entry `(n, 0, i·64 + j, w)` of what is stored.
-/
import proofs.«120862_j50199577755805_1_alg».proof.Proof.Gen.KernelIdeal.Skeleton
import Idealize.ShloMosaic.Lib.ValueIdx
import Idealize.ShloMosaic.Lib.Pipeline.Value

namespace Cert.Proof.Payload

open Idealize.ShloMosaic Idealize.ShloMosaic.ValueIdx Cert.KernelIdeal

variable {F : FTy → Type} [FloatOps F]

/-- The zero-padded, transposed scratch slot at `(n, i, w, p)` with `p ≥ 1` is the slot at `(0, n, i, p − 1, w)`:
    the concatenation reads its second piece one column to the left, the transpose swaps the last two
    coordinates, and dropping the leading unit axis keeps the row-major position. -/
theorem pad_apply (v : Vec F S1x2x64x127x64 .f32) (n : Fin 2) (i : Fin 64) (w : Fin 64) (p : Fin 128)
    (T : Fin 127) (hT : T.val + 1 = p.val) :
    Cert.KernelIdeal.Gen.k0_pay2 v (ix4 n i w p) = v (ix5 (0 : Fin 1) n i T w) := by
  unfold Cert.KernelIdeal.Gen.k0_pay2
  -- the concatenation along the last axis: column p ≥ 1 is column p − 1 of the second piece
  refine (concatenate_pair_apply_right (t := S2x64x64x128) (s₁ := S2x64x64x1) (s₂ := S2x64x64x127) (3 : Fin 4) _ _ _
    (ix4 n i w p) (rfl : (4 : Nat) = 4) (rfl : (4 : Nat) = 4) (ix4 n i w T : S2x64x64x127.Idx)
    (fun b hb => match b, hb with
      | ⟨0, _⟩, _ => rfl
      | ⟨1, _⟩, _ => rfl
      | ⟨2, _⟩, _ => rfl
      | ⟨3, _⟩, hb => absurd rfl hb)
    (by show T.val + 1 = p.val; exact hT)).trans ?_
  -- the transpose [0, 1, 3, 2]
  refine (transpose_apply _ _ _ _ (ix4 n i T w : S2x64x127x64.Idx)
    (fun b => match b with | ⟨0, _⟩ => rfl | ⟨1, _⟩ => rfl | ⟨2, _⟩ => rfl | ⟨3, _⟩ => rfl)).trans ?_
  -- dropping the leading unit axis
  exact shapeCast_apply _ _ _ (ix5 (0 : Fin 1) n i T w : S1x2x64x127x64.Idx)
    (by rw [Shape.rowMajor_val_five, Shape.rowMajor_val_four]
        show ((((0 : Nat) * 2 + n.val) * 64 + i.val) * 127 + T.val) * 64 + w.val
          = ((n.val * 64 + i.val) * 127 + T.val) * 64 + w.val
        omega)

/-- The skewed re-reading: the stored vector at `(n, 0, c, w)` is the padded vector at
    `(n, c / 64, w, c % 64 + 64 − w)`. -/
theorem skew_apply (u : FVec F S2x64x64x128 .f32) (n : Fin 2) (o : Fin 1) (c : Fin 4096) (w : Fin 64)
    (i : Fin 64) (hi : i.val = c.val / 64) (p : Fin 128) (hp : p.val = c.val % 64 + 64 - w.val) :
    Cert.KernelIdeal.Gen.k0_pay1 u (ix4 n o c w) = u (ix4 n i w p) := by
  have hn := n.isLt
  have ho := o.isLt
  have hc := c.isLt
  have hw := w.isLt
  have hj : c.val % 64 < 64 := Nat.mod_lt _ (by decide)
  -- the position of entry (w, j) of a 64 × 127 block, as row a and column b of the 127 × 64 block
  have ha : (w.val * 127 + c.val % 64) / 64 < 127 := by omega
  have ha1 : (w.val * 127 + c.val % 64) / 64 + 1 < 128 := by omega
  have hb : (w.val * 127 + c.val % 64) % 64 < 64 := Nat.mod_lt _ (by decide)
  have hj127 : c.val % 64 < 127 := by omega
  unfold Cert.KernelIdeal.Gen.k0_pay1
  -- [2, 1, 4096, 64] at (n, 0, c, w) reads [2, 4096, 64] at (n, c, w)
  refine (shapeCast_apply _ _ (ix4 n o c w) (ix3 n c w : S2x4096x64.Idx)
    (by rw [Shape.rowMajor_val_three, Shape.rowMajor_val_four]
        show (n.val * 4096 + c.val) * 64 + w.val = ((n.val * 1 + o.val) * 4096 + c.val) * 64 + w.val
        omega)).trans ?_
  -- [2, 4096, 64] at (n, c, w) reads [2, 64, 64, 64] at (n, c / 64, c % 64, w)
  refine (shapeCast_apply _ _ _ (ix4 n i (⟨c.val % 64, hj⟩ : Fin 64) w : S2x64x64x64.Idx)
    (by rw [Shape.rowMajor_val_four, Shape.rowMajor_val_three]
        show ((n.val * 64 + i.val) * 64 + c.val % 64) * 64 + w.val = (n.val * 4096 + c.val) * 64 + w.val
        omega)).trans ?_
  -- the transpose [0, 1, 3, 2]: reads at (n, c / 64, w, c % 64)
  refine (transpose_apply _ _ _ _ (ix4 n i w (⟨c.val % 64, hj⟩ : Fin 64) : S2x64x64x64.Idx)
    (fun b => match b with | ⟨0, _⟩ => rfl | ⟨1, _⟩ => rfl | ⟨2, _⟩ => rfl | ⟨3, _⟩ => rfl)).trans ?_
  -- the first 64 of 127 columns
  refine (extractStridedSlice_apply _ _ _ _ (ix4 n i w (⟨c.val % 64, hj127⟩ : Fin 127) : S2x64x64x127.Idx)
    (fun a => match a with
      | ⟨0, _⟩ => by show n.val = 0 + n.val; omega
      | ⟨1, _⟩ => by show i.val = 0 + i.val; omega
      | ⟨2, _⟩ => by show w.val = 0 + w.val; omega
      | ⟨3, _⟩ => by show c.val % 64 = 0 + c.val % 64; omega)).trans ?_
  -- the 64 × 127 block re-read as 127 × 64: entry (w, j) is at flat position w·127 + j
  refine (shapeCast_apply _ _ _
    (ix4 n i (⟨(w.val * 127 + c.val % 64) / 64, ha⟩ : Fin 127) (⟨(w.val * 127 + c.val % 64) % 64, hb⟩ : Fin 64) : S2x64x127x64.Idx)
    (by rw [Shape.rowMajor_val_four, Shape.rowMajor_val_four]
        show ((n.val * 64 + i.val) * 127 + (w.val * 127 + c.val % 64) / 64) * 64 + (w.val * 127 + c.val % 64) % 64
          = ((n.val * 64 + i.val) * 64 + w.val) * 127 + c.val % 64
        omega)).trans ?_
  -- the first row of 64 dropped: one row further down in the 128 × 64 block
  refine (extractStridedSlice_apply _ _ _ _
    (ix4 n i (⟨(w.val * 127 + c.val % 64) / 64 + 1, ha1⟩ : Fin 128) (⟨(w.val * 127 + c.val % 64) % 64, hb⟩ : Fin 64) : S2x64x128x64.Idx)
    (fun a => match a with
      | ⟨0, _⟩ => by show n.val = 0 + n.val; omega
      | ⟨1, _⟩ => by show i.val = 0 + i.val; omega
      | ⟨2, _⟩ => by show (w.val * 127 + c.val % 64) / 64 + 1 = 1 + (w.val * 127 + c.val % 64) / 64; omega
      | ⟨3, _⟩ => by show (w.val * 127 + c.val % 64) % 64 = 0 + (w.val * 127 + c.val % 64) % 64; omega)).trans ?_
  -- the 128 × 64 block re-read as 64 × 128: flat position w·127 + j + 64 = w·128 + (j + 64 − w)
  exact shapeCast_apply _ _ _ (ix4 n i w p : S2x64x64x128.Idx)
    (by rw [Shape.rowMajor_val_four, Shape.rowMajor_val_four]
        show ((n.val * 64 + i.val) * 64 + w.val) * 128 + p.val
          = ((n.val * 64 + i.val) * 128 + ((w.val * 127 + c.val % 64) / 64 + 1)) * 64 + (w.val * 127 + c.val % 64) % 64
        omega)

/-- THE STORED VALUE AT AN INDEX, by coordinate values: the stored vector at `y = (n, 0, c, w)` is the scratch slot at
    any index `z` whose coordinates are `(0, n, c / 64, c % 64 + 63 − w, w)`. -/
theorem pay_apply_of_coords (v : Vec F S1x2x64x127x64 .f32) (y : S2x1x4096x64.Idx) (z : S1x2x64x127x64.Idx)
    (h0 : (z 0).val = 0) (h1 : (z 1).val = (y 0).val) (h2 : (z 2).val = (y 2).val / 64)
    (h3 : (z 3).val = (y 2).val % 64 + 63 - (y 3).val) (h4 : (z 4).val = (y 3).val) :
    Cert.KernelIdeal.Gen.k0_pay1 (Cert.KernelIdeal.Gen.k0_pay2 v) y = v z := by
  have hy0 : (y 0).val < 2 := (y 0).isLt
  have hy1 : (y 1).val < 1 := (y 1).isLt
  have hy2 : (y 2).val < 4096 := (y 2).isLt
  have hy3 : (y 3).val < 64 := (y 3).isLt
  have hi : (y 2).val / 64 < 64 := by omega
  have hp : (y 2).val % 64 + 64 - (y 3).val < 128 := by omega
  have hT : (y 2).val % 64 + 63 - (y 3).val < 127 := by omega
  have ey : y = ix4 (⟨(y 0).val, hy0⟩ : Fin 2) (⟨(y 1).val, hy1⟩ : Fin 1) (⟨(y 2).val, hy2⟩ : Fin 4096) (⟨(y 3).val, hy3⟩ : Fin 64) := by
    funext a; match a with | ⟨0, _⟩ => rfl | ⟨1, _⟩ => rfl | ⟨2, _⟩ => rfl | ⟨3, _⟩ => rfl
  have ez : z = ix5 (0 : Fin 1) (⟨(y 0).val, hy0⟩ : Fin 2) (⟨(y 2).val / 64, hi⟩ : Fin 64)
      (⟨(y 2).val % 64 + 63 - (y 3).val, hT⟩ : Fin 127) (⟨(y 3).val, hy3⟩ : Fin 64) := by
    funext a
    match a with
    | ⟨0, _⟩ => exact Fin.ext h0
    | ⟨1, _⟩ => exact Fin.ext h1
    | ⟨2, _⟩ => exact Fin.ext h2
    | ⟨3, _⟩ => exact Fin.ext h3
    | ⟨4, _⟩ => exact Fin.ext h4
  rw [ez]
  refine (congrArg (Cert.KernelIdeal.Gen.k0_pay1 (Cert.KernelIdeal.Gen.k0_pay2 v)) ey).trans ?_
  refine (skew_apply (Cert.KernelIdeal.Gen.k0_pay2 v) ⟨(y 0).val, hy0⟩ ⟨(y 1).val, hy1⟩ ⟨(y 2).val, hy2⟩ ⟨(y 3).val, hy3⟩
    ⟨(y 2).val / 64, hi⟩ rfl ⟨(y 2).val % 64 + 64 - (y 3).val, hp⟩ rfl).trans ?_
  exact pad_apply v ⟨(y 0).val, hy0⟩ ⟨(y 2).val / 64, hi⟩ ⟨(y 3).val, hy3⟩ ⟨(y 2).val % 64 + 64 - (y 3).val, hp⟩
    ⟨(y 2).val % 64 + 63 - (y 3).val, hT⟩ (by show (y 2).val % 64 + 63 - (y 3).val + 1 = (y 2).val % 64 + 64 - (y 3).val; omega)

/-- The row index `c / 64` of an output channel is below 64. -/
theorem div_lt (y : S2x1x4096x64.Idx) : (y 2).val / 64 < 64 := by
  have hy2 : (y 2).val < 4096 := (y 2).isLt
  omega

/-- The relative column `c % 64 + 63 − w` is below 127. -/
theorem rel_lt (y : S2x1x4096x64.Idx) : (y 2).val % 64 + 63 - (y 3).val < 127 := by
  have hy3 : (y 3).val < 64 := (y 3).isLt
  omega

/-- THE STORED VALUE AT AN INDEX: at `(n, 0, c, w)` it is the scratch slot at `(0, n, c / 64, c % 64 + 63 − w, w)`. -/
theorem pay_apply (v : Vec F S1x2x64x127x64 .f32) (y : S2x1x4096x64.Idx) :
    Cert.KernelIdeal.Gen.k0_pay1 (Cert.KernelIdeal.Gen.k0_pay2 v) y
      = v (ix5 (0 : Fin 1) (y 0) (⟨(y 2).val / 64, div_lt y⟩ : Fin 64)
          (⟨(y 2).val % 64 + 63 - (y 3).val, rel_lt y⟩ : Fin 127) (y 3)) :=
  pay_apply_of_coords v y _ rfl rfl rfl rfl rfl

end Cert.Proof.Payload
-- ==== Proof.Spec.lean ====
/-
  The specification both programs meet: the "collect" rearrangement of relative-position attention.
  The input `x` has 127·127 channels, one per relative offset (Δrow, Δcol) ∈ [-63, 63]², stored at channel
  `(Δrow + 63)·127 + (Δcol + 63)`. Output channel `c = i·64 + j` at pixel `(h, w)` takes the channel of the offset
  from the pixel to position `(i, j)`:
      out[n, i·64 + j, h, w] = x[n, (i − h + 63)·127 + (j − w + 63), h, w].
  No arithmetic touches the values: the result is the input read at another index, so the law joining the two
  programs is equality of index maps, and finiteness of the input is never used.
-/
import Idealize.ShloMosaic.Lib.ValueIdx

namespace Cert.Collect

open Idealize.ShloMosaic Idealize.ShloMosaic.ValueIdx

/-- The input channel read for output channel `c = i·64 + j` at pixel `(h, w)`. -/
def chan (c h w : Nat) : Nat := (c / 64 + 63 - h) * 127 + (c % 64 + 63 - w)

theorem chan_lt {c h w : Nat} (hc : c < 4096) (hh : h < 64) (hw : w < 64) : chan c h w < 16129 := by
  unfold chan
  have h1 : c / 64 < 64 := by omega
  have h2 : c % 64 < 64 := Nat.mod_lt _ (by decide)
  have h3 : c / 64 + 63 - h ≤ 126 := by omega
  have h4 : c % 64 + 63 - w ≤ 126 := by omega
  calc (c / 64 + 63 - h) * 127 + (c % 64 + 63 - w) ≤ 126 * 127 + 126 :=
        Nat.add_le_add (Nat.mul_le_mul_right _ h3) h4
    _ < 16129 := by decide

/-- The index of `x` an output index reads. -/
def src (i : (⟨4, ![2, 4096, 64, 64]⟩ : Shape).Idx) : (⟨4, ![2, 16129, 64, 64]⟩ : Shape).Idx :=
  ix4 (i 0) ⟨chan (i 1).val (i 2).val (i 3).val, chan_lt (i 1).isLt (i 2).isLt (i 3).isLt⟩ (i 2) (i 3)

/-- The collected array: `x` read at `src`. -/
def collect {α : Type} (x : (⟨4, ![2, 16129, 64, 64]⟩ : Shape).Idx → α) :
    (⟨4, ![2, 4096, 64, 64]⟩ : Shape).Idx → α := fun i => x (src i)

end Cert.Collect
-- ==== Proof.ValueKI.lean ====
/-
  What the collect kernel computes, read off its frame run.
  The region's result array has shape [2, 64, 4096, 64], indexed (n, h, c, w) with c = i·64 + j: block h of it (all n,
  c, w at that h) is what grid point h stores. Point h stores the rearrangement of the scratch slot it has just waited
  for, and that slot holds block h of the reshaped input X = x5[2, 127, 127, 64, 64]: entry (n, i, T, w) of the slot is
  X[n, 63 − h + i, T, h, w]. The rearrangement puts at (n, c, w) the slot's entry (n, c / 64, c % 64 + 63 − w, w). So the
  region leaves  R[n, h, c, w] = X[n, c / 64 + 63 − h, c % 64 + 63 − w, h, w].  The 64 blocks tile R, so this holds of
  the whole array. X is the input x with its channel axis split as a·127 + b, and the program returns R with its two
  middle axes exchanged: out[n, c, h, w] = x[n, (c / 64 + 63 − h)·127 + (c % 64 + 63 − w), h, w], the collected array.
-/
import proofs.«120862_j50199577755805_1_alg».proof.Proof.FrameKI
import proofs.«120862_j50199577755805_1_alg».proof.Proof.Payload
import proofs.«120862_j50199577755805_1_alg».proof.Proof.Spec
import Idealize.ShloMosaic.Lib.Pipeline.Value
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Idealize.ShloMosaic.ValueIdx

theorem hz4 : (![0, 0, 0, 0] : Fin 4 → Nat) = fun _ => 0 := funext fun a => by fin_cases a <;> rfl

/-! ## Where a slot index and a block index sit in their buffers -/

omit [FloatOps F] in
/-- Slot `s`'s index `y` sits in the scratch at `(s, y)`. -/
theorem emb_slot (off : Fin 5 → Nat) (inb) (y : S2x64x127x64.Idx) (x : S1x2x64x127x64.Idx)
    (hy : ∀ i : Fin 4, (y i).val = (x i.succ).val) (a : Fin 5) :
    ((((Memref.whole cc0_scratch0).slice (Rect.unit (s := S2x2x64x127x64) off S1x2x64x127x64.size inb) (fun _ => rfl)).squeeze S2x64x127x64 squeezes_S1x2x64x127x64_S2x64x127x64).view.emb y a).val
      = off a + (x a).val := by
  show off a + 1 * ((Shape.reshapeEquiv (Shape.Squeezes.numel_eq squeezes_S1x2x64x127x64_S2x64x127x64) y) a).val = _
  rw [Shape.reshapeEquiv_cons_one (n := 4) (d := ![2, 64, 127, 64])]
  refine Fin.cases ?_ (fun i => ?_) a
  · have hx : (x 0).val < 1 := (x 0).isLt
    show off 0 + 1 * 0 = off 0 + (x 0).val
    omega
  · have := hy i
    show off i.succ + 1 * (y i).val = _
    omega

omit [FloatOps F] in
/-- Block `b`'s index `(n, i, T, w)` sits in the reshaped input at `(n, 63 − b + i, T, b, w)`. -/
theorem emb_src (b : Fin 64) (y : S2x64x127x64.Idx) (a : Fin 5) :
    ((srcB b).view.emb y a).val
      = (![0, 63 - b.val, 0, b.val, 0] : Fin 5 → Nat) a + ((ix5 (y 0) (y 1) (y 2) (0 : Fin 1) (y 3) : S2x64x127x1x64.Idx) a).val := by
  show (![0, 63 - b.val, 0, b.val, 0] : Fin 5 → Nat) a + 1 * ((Shape.reshapeEquiv (Shape.Squeezes.numel_eq squeezes_S2x64x127x1x64_S2x64x127x64) y) a).val = _
  rw [Shape.reshapeEquiv_eq_of_rowMajor (Shape.Squeezes.numel_eq squeezes_S2x64x127x1x64_S2x64x127x64)
    (y := (ix5 (y 0) (y 1) (y 2) (0 : Fin 1) (y 3) : S2x64x127x1x64.Idx)) (by
      rw [Shape.rowMajor_val_five, Shape.rowMajor_val_four]
      show ((((y 0).val * 64 + (y 1).val) * 127 + (y 2).val) * 1 + 0) * 64 + (y 3).val
        = (((y 0).val * 64 + (y 1).val) * 127 + (y 2).val) * 64 + (y 3).val
      omega)]
  omega

/-! ## A load of a slot's row reads what landed there -/

set_option maxRecDepth 16384 in
theorem slot_read (s : Fin 2) (x : S2x64x127x64.Idx → Elt F .f32) (off : Fin 5 → Nat) (inb) (hoff : off = ![s.val, 0, 0, 0, 0]) (y : S1x2x64x127x64.Idx) :
    (View.whole cc0_scratch0).readAt (Elt F) (Rect.unit (s := S2x2x64x127x64) off S1x2x64x127x64.size inb).toLoadRect
        ((rslot s).view.writes (Elt F) (rslot s).view.junk [⟨Rect.whole S2x64x127x64, x⟩]) y
      = x (fun i => (y i.succ).cast rfl) := by
  subst hoff
  simp only [View.readAt, View.read_whole]
  have e : (Rect.unit (s := S2x2x64x127x64) ![s.val, 0, 0, 0, 0] S1x2x64x127x64.size inb).toLoadRect.idx y
      = (rslot s).view.emb (fun i => (y i.succ).cast rfl) := by
    funext a
    apply Fin.ext
    rw [show ((rslot s).view.emb (fun i => (y i.succ).cast rfl) a).val = (![s.val, 0, 0, 0, 0] : Fin 5 → Nat) a + (y a).val from
      emb_slot _ _ _ y (fun _ => rfl) a]
    show (![s.val, 0, 0, 0, 0] : Fin 5 → Nat) a + 1 * (y a).val = _
    omega
  rw [e]
  exact congrFun (View.read_writes_whole (rslot s).view ((rslot s).view.junk (Val := Elt F)) x) _

/-! ## What each kind of point stores -/

section Out
variable (c : Dev nD) (t : Fin cfg0.N) (a2 : Memref sig .tc .vmem S2x1x4096x64 .f32) (h2 : a2.IsWhole) (W : HbBuf (F := F) c hbM)

/-- What point `t` stores, whatever its kind: the rearrangement of block `t` of the reshaped input, read through the slot. -/
abbrev stored : Vec F S2x1x4096x64 .f32 :=
  k0_pay1 (k0_pay2 (fun y => ReadAs.same.apply ((srcB (Ring.bk 64 t.val)).view.read (Elt F) W) (fun i => (y i.succ).cast rfl)))

theorem out_eq_first (hc0 : isFirst (grid0.coords t)) (hc1 : hasNext (grid0.coords t)) :
    outFirst c t a2 h2 hc0 hc1 W = stored c t W := by
  unfold outFirst
  rw [View.read_writes_eq_canon _ _ _ (coverFirst c t a2 h2 hc0 hc1 W)]
  unfold runFirst
  dsimp only
  sl_unfold_words
  rw [View.canon_unit_zero hz4]
  exact congrArg (fun v => k0_pay1 (k0_pay2 v)) (funext fun y => slot_read _ _ _ _ (off_load t) y)

theorem out_eq_mid (hc0 : ¬isFirst (grid0.coords t)) (hc1 : hasNext (grid0.coords t)) :
    outMid c t a2 h2 hc0 hc1 W = stored c t W := by
  unfold outMid
  rw [View.read_writes_eq_canon _ _ _ (coverMid c t a2 h2 hc0 hc1 W)]
  unfold runMid
  dsimp only
  sl_unfold_words
  rw [View.canon_unit_zero hz4]
  exact congrArg (fun v => k0_pay1 (k0_pay2 v)) (funext fun y => slot_read _ _ _ _ (off_load t) y)

theorem out_eq_last (hc0 : ¬isFirst (grid0.coords t)) (hc1 : ¬hasNext (grid0.coords t)) :
    outLast c t a2 h2 hc0 hc1 W = stored c t W := by
  unfold outLast
  rw [View.read_writes_eq_canon _ _ _ (coverLast c t a2 h2 hc0 hc1 W)]
  unfold runLast
  dsimp only
  sl_unfold_words
  rw [View.canon_unit_zero hz4]
  exact congrArg (fun v => k0_pay1 (k0_pay2 v)) (funext fun y => slot_read _ _ _ _ (off_load t) y)

theorem outsAt_eq : outsAt m c t = stored c t (V m c main_v0) := by
  by_cases h0 : t.val = 0
  · by_cases h1 : t.val < 63
    · rw [outsAt_first m c t h0 h1]; exact out_eq_first c t _ _ _ _ _
    · exfalso; omega
  · by_cases h1 : t.val < 63
    · rw [outsAt_mid m c t h0 h1]; exact out_eq_mid c t _ _ _ _ _
    · rw [outsAt_last m c t h0 h1]; exact out_eq_last c t _ _ _ _ _
end Out

/-! ## The region's result array -/

/-- R[n, h, c, w] = X[n, c / 64 + 63 − h, c % 64 + 63 − w, h, w]. -/
def regionOut (X : S2x127x127x64x64.Idx → Elt F .f32) : S2x64x4096x64.Idx → Elt F .f32 := fun i =>
  X (ix5 (i 0) (⟨(i 2).val / 64 + 63 - (i 1).val, by have h2 : (i 2).val < 4096 := (i 2).isLt; have h1 : (i 1).val < 64 := (i 1).isLt; omega⟩ : Fin 127)
    (⟨(i 2).val % 64 + 63 - (i 3).val, by have h3 : (i 3).val < 64 := (i 3).isLt; omega⟩ : Fin 127) (i 1) (i 3))

omit [FloatOps F] in
/-- The output window's block at point `t` starts at (0, t, 0, 0), with unit steps. -/
theorem out_idx : ∀ t : Fin cfg0.N, ∀ a : Fin 4, win0_0.index t a * win0_0.size a = (![0, t.val, 0, 0] : Fin 4 → Nat) a :=
  (by decide +kernel : ∀ t : Fin grid0.N, ∀ a : Fin 4, win0_0.index t a * win0_0.size a = (![0, t.val, 0, 0] : Fin 4 → Nat) a)

omit [FloatOps F] in
theorem emb_out (t : Fin cfg0.N) (x : ((cfg0.win 0).xblock (cfg0.grid.coords t)).Idx) (a : Fin 4) :
    (((cfg0.win 0).blk t).view.emb x a).val = (![0, t.val, 0, 0] : Fin 4 → Nat) a + (x a).val := by
  show (cfg0.win 0).index t a * (cfg0.win 0).size a + 1 * (x a).val = _
  have e := out_idx t a
  show win0_0.index t a * win0_0.size a + 1 * (x a).val = _
  omega

/-- The stored entry (n, 0, c, w) at a point whose slot holds block `b`: X[n, c / 64 + 63 − b, c % 64 + 63 − w, b, w]. -/
theorem stored_apply (X : S2x127x127x64x64.Idx → Elt F .f32) (b : Fin 64) (x : S2x1x4096x64.Idx) :
    k0_pay1 (k0_pay2 (fun y : S1x2x64x127x64.Idx => ReadAs.same.apply ((srcB b).view.read (Elt F) X) (fun i => (y i.succ).cast rfl))) x
      = X (ix5 (x 0) (⟨(x 2).val / 64 + 63 - b.val, by have h2 : (x 2).val < 4096 := (x 2).isLt; have := b.isLt; omega⟩ : Fin 127)
          (⟨(x 2).val % 64 + 63 - (x 3).val, by have h3 : (x 3).val < 64 := (x 3).isLt; omega⟩ : Fin 127) (⟨b.val, b.isLt⟩ : Fin 64) (x 3)) := by
  have hb := b.isLt
  have hx2 : (x 2).val < 4096 := (x 2).isLt
  have hx3 : (x 3).val < 64 := (x 3).isLt
  refine (Payload.pay_apply_of_coords _ x
    (ix5 (0 : Fin 1) (x 0) (⟨(x 2).val / 64, by omega⟩ : Fin 64) (⟨(x 2).val % 64 + 63 - (x 3).val, by omega⟩ : Fin 127) (x 3))
    rfl rfl rfl rfl rfl).trans ?_
  show X ((srcB b).view.emb (ix4 (x 0) (⟨(x 2).val / 64, by omega⟩ : Fin 64) (⟨(x 2).val % 64 + 63 - (x 3).val, by omega⟩ : Fin 127) (x 3))) = X _
  refine congrArg X (funext fun (a : Fin 5) => Fin.ext ?_)
  rw [emb_src]
  match a with
  | ⟨0, _⟩ => show 0 + (x 0).val = (x 0).val; omega
  | ⟨1, _⟩ => show 63 - b.val + (x 2).val / 64 = (x 2).val / 64 + 63 - b.val; omega
  | ⟨2, _⟩ => show 0 + ((x 2).val % 64 + 63 - (x 3).val) = (x 2).val % 64 + 63 - (x 3).val; omega
  | ⟨3, _⟩ => show b.val + 0 = b.val; omega
  | ⟨4, _⟩ => show 0 + (x 3).val = (x 3).val; omega

/-- What point `t` writes back is block `t` of R. -/
theorem flushed_eq (c : Dev nD) (t : Fin cfg0.N) :
    (dats m 0 c).flushed 0 t = ((cfg0.win 0).blk t).view.read (Elt F) (regionOut (V m c main_v0)) := by
  show (cfg0.win 0).cut (grid0.coords t) ((dats m 0 c).after 0 t) = _
  rw [after_0, outsAt_eq]
  funext x
  have hN : t.val < 64 := lt_of_lt_of_eq t.isLt (show cfg0.N = 64 from N_0)
  have hbk : (Ring.bk 64 t.val).val = t.val := Ring.bk_val hN
  have hx1 : (x 1).val < 1 := (x 1).isLt
  refine (stored_apply (V m c main_v0) (Ring.bk 64 t.val) x).trans ?_
  show (V m c main_v0 : S2x127x127x64x64.Idx → Elt F .f32) _ = regionOut (V m c main_v0) (((cfg0.win 0).blk t).view.emb x)
  unfold regionOut
  have e1 := emb_out t x
  have e10 := e1 0; have e11 := e1 1; have e12 := e1 2; have e13 := e1 3
  refine congrArg (V m c main_v0 : S2x127x127x64x64.Idx → Elt F .f32) (funext fun (a : Fin 5) => Fin.ext ?_)
  match a with
  | ⟨0, _⟩ => show (x 0).val = (((cfg0.win 0).blk t).view.emb x 0).val; rw [e10]; show _ = 0 + (x 0).val; omega
  | ⟨1, _⟩ => show (x 2).val / 64 + 63 - (Ring.bk 64 t.val).val = (((cfg0.win 0).blk t).view.emb x 2).val / 64 + 63 - (((cfg0.win 0).blk t).view.emb x 1).val
              rw [e12, e11, hbk]; show _ = (0 + (x 2).val) / 64 + 63 - (t.val + (x 1).val); omega
  | ⟨2, _⟩ => show (x 2).val % 64 + 63 - (x 3).val = (((cfg0.win 0).blk t).view.emb x 2).val % 64 + 63 - (((cfg0.win 0).blk t).view.emb x 3).val
              rw [e12, e13]; show _ = (0 + (x 2).val) % 64 + 63 - (0 + (x 3).val); omega
  | ⟨3, _⟩ => show (Ring.bk 64 t.val).val = (((cfg0.win 0).blk t).view.emb x 1).val
              rw [e11, hbk]; show _ = t.val + (x 1).val; omega
  | ⟨4, _⟩ => show (x 3).val = (((cfg0.win 0).blk t).view.emb x 3).val; rw [e13]; show _ = 0 + (x 3).val; omega

/-! ## The blocks tile the array -/

omit [FloatOps F] in
theorem mem_blk (t : Fin cfg0.N) (i : S2x64x4096x64.Idx) :
    i ∈ ((cfg0.win 0).blk t).view.set ↔ (i 1 : Nat) = t.val := by
  show i ∈ ((View.whole main_v1).slice (win0_0.rect t)).set ↔ _
  rw [View.set_slice_whole, Rect.mem_set_unit]
  have h0 : (i 0 : Nat) < 2 := (i 0).isLt
  have h2 : (i 2 : Nat) < 4096 := (i 2).isLt
  have h3 : (i 3 : Nat) < 64 := (i 3).isLt
  have e := out_idx t
  have es : ∀ t : Fin cfg0.N, win0_0.xsize (grid0.coords t) 0 = 2 ∧ win0_0.xsize (grid0.coords t) 1 = 1
      ∧ win0_0.xsize (grid0.coords t) 2 = 4096 ∧ win0_0.xsize (grid0.coords t) 3 = 64 :=
    (by decide +kernel : ∀ t : Fin grid0.N, win0_0.xsize (grid0.coords t) 0 = 2 ∧ win0_0.xsize (grid0.coords t) 1 = 1
      ∧ win0_0.xsize (grid0.coords t) 2 = 4096 ∧ win0_0.xsize (grid0.coords t) 3 = 64)
  obtain ⟨s0, s1, s2, s3⟩ := es t
  have e0 := e 0; have e1 := e 1; have e2 := e 2; have e3 := e 3
  refine ⟨fun h => ?_, fun h a => ?_⟩
  · have := h 1
    rw [show win0_0.index t 1 * win0_0.size 1 = t.val from e1, s1] at this; omega
  · match a with
    | ⟨0, _⟩ => show win0_0.index t 0 * win0_0.size 0 ≤ (i 0 : Nat) ∧ (i 0 : Nat) < win0_0.index t 0 * win0_0.size 0 + win0_0.xsize (grid0.coords t) 0
                rw [show win0_0.index t 0 * win0_0.size 0 = 0 from e0, s0]; omega
    | ⟨1, _⟩ => show win0_0.index t 1 * win0_0.size 1 ≤ (i 1 : Nat) ∧ (i 1 : Nat) < win0_0.index t 1 * win0_0.size 1 + win0_0.xsize (grid0.coords t) 1
                rw [show win0_0.index t 1 * win0_0.size 1 = t.val from e1, s1]; omega
    | ⟨2, _⟩ => show win0_0.index t 2 * win0_0.size 2 ≤ (i 2 : Nat) ∧ (i 2 : Nat) < win0_0.index t 2 * win0_0.size 2 + win0_0.xsize (grid0.coords t) 2
                rw [show win0_0.index t 2 * win0_0.size 2 = 0 from e2, s2]; omega
    | ⟨3, _⟩ => show win0_0.index t 3 * win0_0.size 3 ≤ (i 3 : Nat) ∧ (i 3 : Nat) < win0_0.index t 3 * win0_0.size 3 + win0_0.xsize (grid0.coords t) 3
                rw [show win0_0.index t 3 * win0_0.size 3 = 0 from e3, s3]; omega

omit [FloatOps F] in
theorem cover (i : S2x64x4096x64.Idx) :
    ∃ t : Fin cfg0.N, (cfg0.win 0).flush t = true ∧ i ∈ ((cfg0.win 0).blk t).view.set := by
  have h1 : (i 1 : Nat) < 64 := (i 1).isLt
  have hN : cfg0.N = 64 := N_0
  refine ⟨⟨i 1, by omega⟩, flush0_0 _, ?_⟩
  rw [mem_blk]

/-- The region leaves R in its result array. -/
theorem final_R (c : Dev nD) : (dats m 0 c).arrAt 0 cfg0.N = regionOut (V m c main_v0) :=
  (dats m 0 c).arrAt_eq_of_cover 0 (regionOut (V m c main_v0)) (fun t _ => flushed_eq m c t) cover

end Cert.Proof.KI

end
-- ==== Proof.ResultKI.lean ====
/-
  The collect kernel's returned array, and its run with that result.
  The reshape before the region reads the input's channel a·127 + b at (a, b); the region leaves R; the transpose after
  it exchanges R's two middle axes. Composed: out[n, c, h, w] = x[n, (c / 64 + 63 − h)·127 + (c % 64 + 63 − w), h, w].
-/
import proofs.«120862_j50199577755805_1_alg».proof.Proof.ValueKI
import proofs.«120862_j50199577755805_1_alg».proof.Proof.Payload
import proofs.«120862_j50199577755805_1_alg».proof.Proof.Spec
import Idealize.ShloMosaic.Lib.Pipeline.Value
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Idealize.ShloMosaic.ValueIdx

/-- The reshaped input: X[n, a, b, h, w] = x[n, a·127 + b, h, w]. -/
theorem V_main_v0_eq (c : Dev nD) :
    (V m c main_v0 : S2x127x127x64x64.Idx → Elt F .f32)
      = shapeCast S2x127x127x64x64 (m ((c : Thread nD τ).loc main_arg0)) shapeCasts_S2x16129x64x64_S2x127x127x64x64 := by
  show StableHlo.after hostOps0 (fun b => m (c, b)) (Proc.devRef .tc main_v0) = _
  after_results
  rfl

/-- What the program returns: the transpose of R. -/
theorem tail_main_v2 (c : Dev nD) :
    Pipeline.afterTail₀ cfgs (dats m) 0 (V0 m) [hostOps1] c main_v2
      = transpose S2x4096x64x64 [0, 2, 1, 3] (regionOut (V m c main_v0)) transposes_S2x64x4096x64_S2x4096x64x64_0_2_1_3 := by
  unfold Pipeline.afterTail₀
  show StableHlo.after hostOps1 _ (Proc.devRef .tc main_v2) = _
  after_results
  exact congrArg (fun R => transpose S2x4096x64x64 [0, 2, 1, 3] R transposes_S2x64x4096x64_S2x4096x64x64_0_2_1_3)
    ((Pipeline.withArrays_arr spec0 launch0.win.arr_inj c _ _ 0).trans (final_R m c))

/-- The returned array is the collected input. -/
theorem result_eq (c : Dev nD) :
    Pipeline.afterTail₀ cfgs (dats m) 0 (V0 m) [hostOps1] c main_v2 = Cert.Collect.collect (m ((c : Thread nD τ).loc main_arg0)) := by
  rw [tail_main_v2, V_main_v0_eq]
  funext i
  have h0 : (i 0).val < 2 := (i 0).isLt
  have h1 : (i 1).val < 4096 := (i 1).isLt
  have h2 : (i 2).val < 64 := (i 2).isLt
  have h3 : (i 3).val < 64 := (i 3).isLt
  -- the transpose exchanges the two middle coordinates
  refine (transpose_apply _ _ _ i (ix4 (i 0) (i 2) (i 1) (i 3) : S2x64x4096x64.Idx)
    (fun b => match b with | ⟨0, _⟩ => rfl | ⟨1, _⟩ => rfl | ⟨2, _⟩ => rfl | ⟨3, _⟩ => rfl)).trans ?_
  unfold regionOut
  -- the reshape reads channel a·127 + b at (a, b)
  refine (shapeCast_apply _ _ _ (Cert.Collect.src i) ?_).trans rfl
  rw [Shape.rowMajor_val_four, Shape.rowMajor_val_five]
  show (((i 0).val * 16129 + Cert.Collect.chan (i 1).val (i 2).val (i 3).val) * 64 + (i 2).val) * 64 + (i 3).val
    = ((((i 0).val * 127 + ((i 1).val / 64 + 63 - (i 2).val)) * 127 + ((i 1).val % 64 + 63 - (i 3).val)) * 64 + (i 2).val) * 64 + (i 3).val
  unfold Cert.Collect.chan
  generalize (i 1).val / 64 + 63 - (i 2).val = a
  generalize (i 1).val % 64 + 63 - (i 3).val = b
  omega

/-- The run of the program with its result: every execution ends with the collected input in the result array and the
    input as launched. -/
theorem run_collect : θ_run defs (onTc (τ := τ) (main (F := F))) ⟨m, fun _ => 0, ρ⟩ (fun r => ∀ c : Dev nD,
      r.2.mem ((c.tc : Thread nD τ).loc main_v2) = Cert.Collect.collect (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (tail_main_arg0 m (dats m) c)⟩)
    (run_main m ρ)

end Cert.Proof.KI

end
-- ==== Proof.RefRun.lean ====
/-
  The reference, run. It is a straight line of fifty array operations with no kernel: the first twenty-eight build, from
  four counters 0..63, the table of relative channels
      rel[n, i·64 + j, h, w] = (i − h + 63)·127 + (j − w + 63)
  as 32-bit words (a [64,64,64,64] table re-read in row-major order as [1,4096,64,64] and repeated over n); the last
  twenty-two take the input along its channel axis at those channels: a negative channel has 16129 added, the channels
  become start indices of a gather that pairs the axes n, h, w of input and indices, and an element whose start index
  is outside 0..16128 is replaced by a fixed constant. This module names those values stage by stage and proves that
  every weakly fair execution ends with the result array holding the last stage and the input array unchanged. The two
  stretches are read back separately: the second is a function of the table and of the input only.
-/
import proofs.«120862_j50199577755805_1_alg».proof.Proof.Gen.ReferenceIdeal
import Idealize.ShloMosaic.Lib.StableHlo.Run

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

/-! ## The values, stage by stage -/

/-- The [64,64,64,64] table: at (i, j, h, w) the word (i − h + 63)·127 + (j − w + 63). -/
def tab : (⟨S64x64x64x64, .i32⟩ : BufTy).Contents (Elt F) :=
  addi (broadcastInDim S64x64x64x64 ![0, 1, 2, 3] bcast_S64x1x64x1_S64x64x64x64_0_1_2_3 (muli (addi (subi (broadcastInDim S64x1x64x1 ![0, 1, 2, 3] bcast_S64x1x1x1_S64x1x64x1_0_1_2_3 (broadcastInDim S64x1x1x1 ![0] bcast_S64_S64x1x1x1_0 (iotaInDim S64 32 0))) (broadcastInDim S64x1x64x1 ![0, 1, 2, 3] bcast_S1x1x64x1_S64x1x64x1_0_1_2_3 (broadcastInDim S1x1x64x1 ![2] bcast_S64_S1x1x64x1_2 (iotaInDim S64 32 0)))) (broadcastInDim S64x1x64x1 ![] bcast_S_S64x1x64x1 (constantI S_ 32 63#32))) (broadcastInDim S64x1x64x1 ![] bcast_S_S64x1x64x1 (constantI S_ 32 127#32)))) (broadcastInDim S64x64x64x64 ![0, 1, 2, 3] bcast_S1x64x1x64_S64x64x64x64_0_1_2_3 (addi (subi (broadcastInDim S1x64x1x64 ![0, 1, 2, 3] bcast_S1x64x1x1_S1x64x1x64_0_1_2_3 (broadcastInDim S1x64x1x1 ![1] bcast_S64_S1x64x1x1_1 (iotaInDim S64 32 0))) (broadcastInDim S1x64x1x64 ![0, 1, 2, 3] bcast_S1x1x1x64_S1x64x1x64_0_1_2_3 (broadcastInDim S1x1x1x64 ![3] bcast_S64_S1x1x1x64_3 (iotaInDim S64 32 0)))) (broadcastInDim S1x64x1x64 ![] bcast_S_S1x64x1x64 (constantI S_ 32 63#32))))

/-- The table read in row-major order as [1,4096,64,64], repeated along the leading axis. -/
def rel : (⟨S2x4096x64x64, .i32⟩ : BufTy).Contents (Elt F) :=
  broadcastInDim S2x4096x64x64 ![0, 1, 2, 3] bcast_S1x4096x64x64_S2x4096x64x64_0_1_2_3 (shapeCast _ (tab (F := F)) shapeCasts_S64x64x64x64_S1x4096x64x64)

/-- A channel array with 16129 added where it is negative. -/
def wrapped (idx : (⟨S2x4096x64x64, .i32⟩ : BufTy).Contents (Elt F)) : (⟨S2x4096x64x64, .i32⟩ : BufTy).Contents (Elt F) :=
  select (cmpi .slt idx (broadcastInDim S2x4096x64x64 ![] bcast_S_S2x4096x64x64 (constantI S_ 32 0#32))) (addi idx (broadcastInDim S2x4096x64x64 ![] bcast_S_S2x4096x64x64 (constantI S_ 32 16129#32))) idx

/-- The same with a trailing unit axis: the gather's start indices. -/
def starts (idx : (⟨S2x4096x64x64, .i32⟩ : BufTy).Contents (Elt F)) : (⟨S2x4096x64x64x1, .i32⟩ : BufTy).Contents (Elt F) :=
  shapeCast _ (wrapped (F := F) idx) shapeCasts_S2x4096x64x64_S2x4096x64x64x1

/-- Whether a start index lies in 0..16128, the conjunction taken over the unit axis. -/
def inRange (idx : (⟨S2x4096x64x64, .i32⟩ : BufTy).Contents (Elt F)) : (⟨S2x4096x64x64, .i1⟩ : BufTy).Contents (Elt F) :=
  Host.reduce IntOp.andi (andi (cmpi .sge (starts (F := F) idx) (broadcastInDim S2x4096x64x64x1 ![] bcast_S_S2x4096x64x64x1 (constantI S_ 32 0#32))) (cmpi .sle (starts (F := F) idx) (broadcastInDim S2x4096x64x64x1 ![0, 1, 2, 3, 4] bcast_S1x1x1x1x1_S2x4096x64x64x1_0_1_2_3_4 (broadcastInDim S1x1x1x1x1 ![4] bcast_S1_S1x1x1x1x1_4 (constantI S1 32 16128#32))))) (constantI S_ 1 1#1) reducesTo_S2x4096x64x64x1_S2x4096x64x64_d4 h_S_

/-- The input taken along its channel axis at the channels `idx`. -/
def taken (x : (⟨S2x16129x64x64, .f32⟩ : BufTy).Contents (Elt F)) (idx : (⟨S2x4096x64x64, .i32⟩ : BufTy).Contents (Elt F)) :
    (⟨S2x4096x64x64, .f32⟩ : BufTy).Contents (Elt F) :=
  select (inRange (F := F) idx) (Host.gather gather_S2x16129x64x64_S2x4096x64x64x1_S2x4096x64x64_n_1_023_023_1_4_1111 x (starts (F := F) idx)) (broadcastInDim S2x4096x64x64 ![] bcast_S_S2x4096x64x64 (constant S_ .f32 0x7FC00000#32))

/-! ## The operations -/

/-- The first stretch: the operations that build the table of channels. -/
abbrev opsA : List (HloOp τ sig (Elt F)) :=
  [ nullary main_v0 (iotaInDim S64 32 0),
    unary main_v0 main_v1 (broadcastInDim S64x1x1x1 ![0] bcast_S64_S64x1x1x1_0 : (⟨S64, .i32⟩ : BufTy).Contents (Elt F) → (⟨S64x1x1x1, .i32⟩ : BufTy).Contents (Elt F)),
    nullary main_v2 (iotaInDim S64 32 0),
    unary main_v2 main_v3 (broadcastInDim S1x64x1x1 ![1] bcast_S64_S1x64x1x1_1 : (⟨S64, .i32⟩ : BufTy).Contents (Elt F) → (⟨S1x64x1x1, .i32⟩ : BufTy).Contents (Elt F)),
    nullary main_v4 (iotaInDim S64 32 0),
    unary main_v4 main_v5 (broadcastInDim S1x1x64x1 ![2] bcast_S64_S1x1x64x1_2 : (⟨S64, .i32⟩ : BufTy).Contents (Elt F) → (⟨S1x1x64x1, .i32⟩ : BufTy).Contents (Elt F)),
    nullary main_v6 (iotaInDim S64 32 0),
    unary main_v6 main_v7 (broadcastInDim S1x1x1x64 ![3] bcast_S64_S1x1x1x64_3 : (⟨S64, .i32⟩ : BufTy).Contents (Elt F) → (⟨S1x1x1x64, .i32⟩ : BufTy).Contents (Elt F)),
    unary main_v1 main_v8 (broadcastInDim S64x1x64x1 ![0, 1, 2, 3] bcast_S64x1x1x1_S64x1x64x1_0_1_2_3 : (⟨S64x1x1x1, .i32⟩ : BufTy).Contents (Elt F) → (⟨S64x1x64x1, .i32⟩ : BufTy).Contents (Elt F)),
    unary main_v5 main_v9 (broadcastInDim S64x1x64x1 ![0, 1, 2, 3] bcast_S1x1x64x1_S64x1x64x1_0_1_2_3 : (⟨S1x1x64x1, .i32⟩ : BufTy).Contents (Elt F) → (⟨S64x1x64x1, .i32⟩ : BufTy).Contents (Elt F)),
    binary main_v8 main_v9 main_v10 (subi : (⟨S64x1x64x1, .i32⟩ : BufTy).Contents (Elt F) → (⟨S64x1x64x1, .i32⟩ : BufTy).Contents (Elt F) → (⟨S64x1x64x1, .i32⟩ : BufTy).Contents (Elt F)),
    nullary main_c (constantI S_ 32 63#32),
    unary main_c main_v11 (broadcastInDim S64x1x64x1 ![] bcast_S_S64x1x64x1 : (⟨S_, .i32⟩ : BufTy).Contents (Elt F) → (⟨S64x1x64x1, .i32⟩ : BufTy).Contents (Elt F)),
    binary main_v10 main_v11 main_v12 (addi : (⟨S64x1x64x1, .i32⟩ : BufTy).Contents (Elt F) → (⟨S64x1x64x1, .i32⟩ : BufTy).Contents (Elt F) → (⟨S64x1x64x1, .i32⟩ : BufTy).Contents (Elt F)),
    nullary main_c_0 (constantI S_ 32 127#32),
    unary main_c_0 main_v13 (broadcastInDim S64x1x64x1 ![] bcast_S_S64x1x64x1 : (⟨S_, .i32⟩ : BufTy).Contents (Elt F) → (⟨S64x1x64x1, .i32⟩ : BufTy).Contents (Elt F)),
    binary main_v12 main_v13 main_v14 (muli : (⟨S64x1x64x1, .i32⟩ : BufTy).Contents (Elt F) → (⟨S64x1x64x1, .i32⟩ : BufTy).Contents (Elt F) → (⟨S64x1x64x1, .i32⟩ : BufTy).Contents (Elt F)),
    unary main_v3 main_v15 (broadcastInDim S1x64x1x64 ![0, 1, 2, 3] bcast_S1x64x1x1_S1x64x1x64_0_1_2_3 : (⟨S1x64x1x1, .i32⟩ : BufTy).Contents (Elt F) → (⟨S1x64x1x64, .i32⟩ : BufTy).Contents (Elt F)),
    unary main_v7 main_v16 (broadcastInDim S1x64x1x64 ![0, 1, 2, 3] bcast_S1x1x1x64_S1x64x1x64_0_1_2_3 : (⟨S1x1x1x64, .i32⟩ : BufTy).Contents (Elt F) → (⟨S1x64x1x64, .i32⟩ : BufTy).Contents (Elt F)),
    binary main_v15 main_v16 main_v17 (subi : (⟨S1x64x1x64, .i32⟩ : BufTy).Contents (Elt F) → (⟨S1x64x1x64, .i32⟩ : BufTy).Contents (Elt F) → (⟨S1x64x1x64, .i32⟩ : BufTy).Contents (Elt F)),
    nullary main_c_1 (constantI S_ 32 63#32),
    unary main_c_1 main_v18 (broadcastInDim S1x64x1x64 ![] bcast_S_S1x64x1x64 : (⟨S_, .i32⟩ : BufTy).Contents (Elt F) → (⟨S1x64x1x64, .i32⟩ : BufTy).Contents (Elt F)),
    binary main_v17 main_v18 main_v19 (addi : (⟨S1x64x1x64, .i32⟩ : BufTy).Contents (Elt F) → (⟨S1x64x1x64, .i32⟩ : BufTy).Contents (Elt F) → (⟨S1x64x1x64, .i32⟩ : BufTy).Contents (Elt F)),
    unary main_v14 main_v20 (broadcastInDim S64x64x64x64 ![0, 1, 2, 3] bcast_S64x1x64x1_S64x64x64x64_0_1_2_3 : (⟨S64x1x64x1, .i32⟩ : BufTy).Contents (Elt F) → (⟨S64x64x64x64, .i32⟩ : BufTy).Contents (Elt F)),
    unary main_v19 main_v21 (broadcastInDim S64x64x64x64 ![0, 1, 2, 3] bcast_S1x64x1x64_S64x64x64x64_0_1_2_3 : (⟨S1x64x1x64, .i32⟩ : BufTy).Contents (Elt F) → (⟨S64x64x64x64, .i32⟩ : BufTy).Contents (Elt F)),
    binary main_v20 main_v21 main_v22 (addi : (⟨S64x64x64x64, .i32⟩ : BufTy).Contents (Elt F) → (⟨S64x64x64x64, .i32⟩ : BufTy).Contents (Elt F) → (⟨S64x64x64x64, .i32⟩ : BufTy).Contents (Elt F)),
    reshape main_v22 main_v23 rfl shapeCasts_S64x64x64x64_S1x4096x64x64,
    unary main_v23 main_v24 (broadcastInDim S2x4096x64x64 ![0, 1, 2, 3] bcast_S1x4096x64x64_S2x4096x64x64_0_1_2_3 : (⟨S1x4096x64x64, .i32⟩ : BufTy).Contents (Elt F) → (⟨S2x4096x64x64, .i32⟩ : BufTy).Contents (Elt F)) ]

/-- The second stretch: the take along the channel axis. -/
abbrev opsB : List (HloOp τ sig (Elt F)) :=
  [ nullary main_call0_c ((constantI S_ 32 0#32) : (⟨S_, .i32⟩ : BufTy).Contents (Elt F)),
    unary main_call0_c main_call0_v0 ((broadcastInDim S2x4096x64x64 ![] bcast_S_S2x4096x64x64) : (⟨S_, .i32⟩ : BufTy).Contents (Elt F) → (⟨S2x4096x64x64, .i32⟩ : BufTy).Contents (Elt F)),
    binary main_v24 main_call0_v0 main_call0_v1 ((cmpi .slt) : (⟨S2x4096x64x64, .i32⟩ : BufTy).Contents (Elt F) → (⟨S2x4096x64x64, .i32⟩ : BufTy).Contents (Elt F) → (⟨S2x4096x64x64, .i1⟩ : BufTy).Contents (Elt F)),
    nullary main_call0_c_0 ((constantI S_ 32 16129#32) : (⟨S_, .i32⟩ : BufTy).Contents (Elt F)),
    unary main_call0_c_0 main_call0_v2 ((broadcastInDim S2x4096x64x64 ![] bcast_S_S2x4096x64x64) : (⟨S_, .i32⟩ : BufTy).Contents (Elt F) → (⟨S2x4096x64x64, .i32⟩ : BufTy).Contents (Elt F)),
    binary main_v24 main_call0_v2 main_call0_v3 (addi : (⟨S2x4096x64x64, .i32⟩ : BufTy).Contents (Elt F) → (⟨S2x4096x64x64, .i32⟩ : BufTy).Contents (Elt F) → (⟨S2x4096x64x64, .i32⟩ : BufTy).Contents (Elt F)),
    ternary main_call0_v1 main_call0_v3 main_v24 main_call0_v4 (select : (⟨S2x4096x64x64, .i1⟩ : BufTy).Contents (Elt F) → (⟨S2x4096x64x64, .i32⟩ : BufTy).Contents (Elt F) → (⟨S2x4096x64x64, .i32⟩ : BufTy).Contents (Elt F) → (⟨S2x4096x64x64, .i32⟩ : BufTy).Contents (Elt F)),
    reshape main_call0_v4 main_call0_v5 rfl shapeCasts_S2x4096x64x64_S2x4096x64x64x1,
    nullary main_call0_c_1 ((constantI S1 32 16128#32) : (⟨S1, .i32⟩ : BufTy).Contents (Elt F)),
    nullary main_call0_c_2 ((constantI S_ 32 0#32) : (⟨S_, .i32⟩ : BufTy).Contents (Elt F)),
    unary main_call0_c_2 main_call0_v6 ((broadcastInDim S2x4096x64x64x1 ![] bcast_S_S2x4096x64x64x1) : (⟨S_, .i32⟩ : BufTy).Contents (Elt F) → (⟨S2x4096x64x64x1, .i32⟩ : BufTy).Contents (Elt F)),
    binary main_call0_v5 main_call0_v6 main_call0_v7 ((cmpi .sge) : (⟨S2x4096x64x64x1, .i32⟩ : BufTy).Contents (Elt F) → (⟨S2x4096x64x64x1, .i32⟩ : BufTy).Contents (Elt F) → (⟨S2x4096x64x64x1, .i1⟩ : BufTy).Contents (Elt F)),
    unary main_call0_c_1 main_call0_v8 ((broadcastInDim S1x1x1x1x1 ![4] bcast_S1_S1x1x1x1x1_4) : (⟨S1, .i32⟩ : BufTy).Contents (Elt F) → (⟨S1x1x1x1x1, .i32⟩ : BufTy).Contents (Elt F)),
    unary main_call0_v8 main_call0_v9 ((broadcastInDim S2x4096x64x64x1 ![0, 1, 2, 3, 4] bcast_S1x1x1x1x1_S2x4096x64x64x1_0_1_2_3_4) : (⟨S1x1x1x1x1, .i32⟩ : BufTy).Contents (Elt F) → (⟨S2x4096x64x64x1, .i32⟩ : BufTy).Contents (Elt F)),
    binary main_call0_v5 main_call0_v9 main_call0_v10 ((cmpi .sle) : (⟨S2x4096x64x64x1, .i32⟩ : BufTy).Contents (Elt F) → (⟨S2x4096x64x64x1, .i32⟩ : BufTy).Contents (Elt F) → (⟨S2x4096x64x64x1, .i1⟩ : BufTy).Contents (Elt F)),
    binary main_call0_v7 main_call0_v10 main_call0_v11 (andi : (⟨S2x4096x64x64x1, .i1⟩ : BufTy).Contents (Elt F) → (⟨S2x4096x64x64x1, .i1⟩ : BufTy).Contents (Elt F) → (⟨S2x4096x64x64x1, .i1⟩ : BufTy).Contents (Elt F)),
    nullary main_call0_c_3 ((constantI S_ 1 1#1) : (⟨S_, .i1⟩ : BufTy).Contents (Elt F)),
    binary main_call0_v11 main_call0_c_3 main_call0_v12 ((fun x v => Host.reduce IntOp.andi x v reducesTo_S2x4096x64x64x1_S2x4096x64x64_d4 h_S_) : (⟨S2x4096x64x64x1, .i1⟩ : BufTy).Contents (Elt F) → (⟨S_, .i1⟩ : BufTy).Contents (Elt F) → (⟨S2x4096x64x64, .i1⟩ : BufTy).Contents (Elt F)),
    binary main_arg0 main_call0_v5 main_call0_v13 ((fun x i => Host.gather gather_S2x16129x64x64_S2x4096x64x64x1_S2x4096x64x64_n_1_023_023_1_4_1111 x i) : (⟨S2x16129x64x64, .f32⟩ : BufTy).Contents (Elt F) → (⟨S2x4096x64x64x1, .i32⟩ : BufTy).Contents (Elt F) → (⟨S2x4096x64x64, .f32⟩ : BufTy).Contents (Elt F)),
    nullary main_call0_cst ((constant S_ .f32 0x7FC00000#32) : (⟨S_, .f32⟩ : BufTy).Contents (Elt F)),
    unary main_call0_cst main_call0_v14 ((broadcastInDim S2x4096x64x64 ![] bcast_S_S2x4096x64x64) : (⟨S_, .f32⟩ : BufTy).Contents (Elt F) → (⟨S2x4096x64x64, .f32⟩ : BufTy).Contents (Elt F)),
    ternary main_call0_v12 main_call0_v13 main_call0_v14 main_v25 (select : (⟨S2x4096x64x64, .i1⟩ : BufTy).Contents (Elt F) → (⟨S2x4096x64x64, .f32⟩ : BufTy).Contents (Elt F) → (⟨S2x4096x64x64, .f32⟩ : BufTy).Contents (Elt F) → (⟨S2x4096x64x64, .f32⟩ : BufTy).Contents (Elt F)) ]

/-- The second stretch as the program spells it: each operation of the outlined take stated over references that carry
    their array's type, the value moved to the buffer's own type and back along an equation that is `rfl` at a literal
    reference. -/
abbrev opsBt : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S2x4096x64x64, .i32⟩) main_call0_v0) (broadcastInDim S2x4096x64x64 ![] bcast_S_S2x4096x64x64),
    TRef.binary (TRef.of (T := ⟨S2x4096x64x64, .i32⟩) main_v24) (TRef.of (T := ⟨S2x4096x64x64, .i32⟩) main_call0_v0) (TRef.of (T := ⟨S2x4096x64x64, .i1⟩) main_call0_v1) (cmpi .slt),
    TRef.nullary (TRef.of (T := ⟨S_, .i32⟩) main_call0_c_0) (constantI S_ 32 16129#32),
    TRef.unary (TRef.of (T := ⟨S_, .i32⟩) main_call0_c_0) (TRef.of (T := ⟨S2x4096x64x64, .i32⟩) main_call0_v2) (broadcastInDim S2x4096x64x64 ![] bcast_S_S2x4096x64x64),
    TRef.binary (TRef.of (T := ⟨S2x4096x64x64, .i32⟩) main_v24) (TRef.of (T := ⟨S2x4096x64x64, .i32⟩) main_call0_v2) (TRef.of (T := ⟨S2x4096x64x64, .i32⟩) main_call0_v3) addi,
    TRef.ternary (TRef.of (T := ⟨S2x4096x64x64, .i1⟩) main_call0_v1) (TRef.of (T := ⟨S2x4096x64x64, .i32⟩) main_call0_v3) (TRef.of (T := ⟨S2x4096x64x64, .i32⟩) main_v24) (TRef.of (T := ⟨S2x4096x64x64, .i32⟩) main_call0_v4) select,
    TRef.reshape (TRef.of (T := ⟨S2x4096x64x64, .i32⟩) main_call0_v4) (TRef.of (T := ⟨S2x4096x64x64x1, .i32⟩) main_call0_v5) rfl shapeCasts_S2x4096x64x64_S2x4096x64x64x1,
    TRef.nullary (TRef.of (T := ⟨S1, .i32⟩) main_call0_c_1) (constantI S1 32 16128#32),
    TRef.nullary (TRef.of (T := ⟨S_, .i32⟩) main_call0_c_2) (constantI S_ 32 0#32),
    TRef.unary (TRef.of (T := ⟨S_, .i32⟩) main_call0_c_2) (TRef.of (T := ⟨S2x4096x64x64x1, .i32⟩) main_call0_v6) (broadcastInDim S2x4096x64x64x1 ![] bcast_S_S2x4096x64x64x1),
    TRef.binary (TRef.of (T := ⟨S2x4096x64x64x1, .i32⟩) main_call0_v5) (TRef.of (T := ⟨S2x4096x64x64x1, .i32⟩) main_call0_v6) (TRef.of (T := ⟨S2x4096x64x64x1, .i1⟩) main_call0_v7) (cmpi .sge),
    TRef.unary (TRef.of (T := ⟨S1, .i32⟩) main_call0_c_1) (TRef.of (T := ⟨S1x1x1x1x1, .i32⟩) main_call0_v8) (broadcastInDim S1x1x1x1x1 ![4] bcast_S1_S1x1x1x1x1_4),
    TRef.unary (TRef.of (T := ⟨S1x1x1x1x1, .i32⟩) main_call0_v8) (TRef.of (T := ⟨S2x4096x64x64x1, .i32⟩) main_call0_v9) (broadcastInDim S2x4096x64x64x1 ![0, 1, 2, 3, 4] bcast_S1x1x1x1x1_S2x4096x64x64x1_0_1_2_3_4),
    TRef.binary (TRef.of (T := ⟨S2x4096x64x64x1, .i32⟩) main_call0_v5) (TRef.of (T := ⟨S2x4096x64x64x1, .i32⟩) main_call0_v9) (TRef.of (T := ⟨S2x4096x64x64x1, .i1⟩) main_call0_v10) (cmpi .sle),
    TRef.binary (TRef.of (T := ⟨S2x4096x64x64x1, .i1⟩) main_call0_v7) (TRef.of (T := ⟨S2x4096x64x64x1, .i1⟩) main_call0_v10) (TRef.of (T := ⟨S2x4096x64x64x1, .i1⟩) main_call0_v11) andi,
    TRef.nullary (TRef.of (T := ⟨S_, .i1⟩) main_call0_c_3) (constantI S_ 1 1#1),
    TRef.binary (TRef.of (T := ⟨S2x4096x64x64x1, .i1⟩) main_call0_v11) (TRef.of (T := ⟨S_, .i1⟩) main_call0_c_3) (TRef.of (T := ⟨S2x4096x64x64, .i1⟩) main_call0_v12) (fun x v => Host.reduce IntOp.andi x v reducesTo_S2x4096x64x64x1_S2x4096x64x64_d4 h_S_),
    TRef.binary (TRef.of (T := ⟨S2x16129x64x64, .f32⟩) main_arg0) (TRef.of (T := ⟨S2x4096x64x64x1, .i32⟩) main_call0_v5) (TRef.of (T := ⟨S2x4096x64x64, .f32⟩) main_call0_v13) (fun x i => Host.gather gather_S2x16129x64x64_S2x4096x64x64x1_S2x4096x64x64_n_1_023_023_1_4_1111 x i),
    TRef.nullary (TRef.of (T := ⟨S_, .f32⟩) main_call0_cst) (constant S_ .f32 0x7FC00000#32),
    TRef.unary (TRef.of (T := ⟨S_, .f32⟩) main_call0_cst) (TRef.of (T := ⟨S2x4096x64x64, .f32⟩) main_call0_v14) (broadcastInDim S2x4096x64x64 ![] bcast_S_S2x4096x64x64),
    TRef.ternary (TRef.of (T := ⟨S2x4096x64x64, .i1⟩) main_call0_v12) (TRef.of (T := ⟨S2x4096x64x64, .f32⟩) main_call0_v13) (TRef.of (T := ⟨S2x4096x64x64, .f32⟩) main_call0_v14) (TRef.of (T := ⟨S2x4096x64x64, .f32⟩) main_v25) select ]

/-- At literal references the conjunction over the unit axis is the same operation spelt either way, whatever its
    function is (so the function is never opened). -/
theorem reduce_op_eq (f : (⟨S2x4096x64x64x1, .i1⟩ : BufTy).Contents (Elt F) → (⟨S_, .i1⟩ : BufTy).Contents (Elt F) → (⟨S2x4096x64x64, .i1⟩ : BufTy).Contents (Elt F)) :
    (TRef.binary (TRef.of (T := ⟨S2x4096x64x64x1, .i1⟩) main_call0_v11) (TRef.of (T := ⟨S_, .i1⟩) main_call0_c_3) (TRef.of (T := ⟨S2x4096x64x64, .i1⟩) main_call0_v12) f : HloOp τ sig (Elt F))
      = binary main_call0_v11 main_call0_c_3 main_call0_v12 f := rfl

/-- The two spellings of the second stretch are one list. -/
theorem opsBt_eq : (opsBt : List (HloOp τ sig (Elt F))) = opsB := by
  unfold opsBt opsB
  rw [reduce_op_eq]
  rfl

/-- All fifty, in order. -/
abbrev ops : List (HloOp τ sig (Elt F)) := opsA ++ opsB

set_option maxRecDepth 8192 in
theorem main_eq_t (c : Dev nD) : main (F := F) c = seq (opsA ++ opsBt) := rfl
theorem main_eq (c : Dev nD) : main (F := F) c = seq ops := (main_eq_t c).trans (by rw [opsBt_eq])
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., reshape_bufs_sub .., unary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem ops_sub : (ops : List (HloOp τ sig (Elt F))).Forall fun op => op.bufs ⊆ tcRefs τ sig :=
  List.forall_iff_forall_mem.2 fun op hop => (List.mem_append.1 hop).elim
    (List.forall_iff_forall_mem.1 opsA_sub op) (List.forall_iff_forall_mem.1 opsB_sub op)

/-- What two stretches leave is what the second leaves of what the first leaves. -/
theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## Each stretch read back -/

/-- The first stretch leaves the table of channels, whatever it starts from … -/
theorem after_opsA_rel (V : Valuation τ sig (Elt F)) :
    after (opsA (F := F)) V (Proc.devRef .tc main_v24) = rel (F := F) := by
  after_results_simp <;> rfl
/-- … and does not write the input. -/
theorem after_opsA_arg (V : Valuation τ sig (Elt F)) :
    after (opsA (F := F)) V (Proc.devRef .tc main_arg0) = V (Proc.devRef .tc main_arg0) := by
  after_results_simp <;> rfl

/-- The second stretch leaves the input taken at the channels it finds … -/
theorem after_opsB_res (W : Valuation τ sig (Elt F)) :
    after (opsB (F := F)) W (Proc.devRef .tc main_v25)
      = taken (F := F) (W (Proc.devRef .tc main_arg0)) (W (Proc.devRef .tc main_v24)) := by
  after_results_simp <;> rfl
/-- … and does not write the input either. -/
theorem after_opsB_arg (W : Valuation τ sig (Elt F)) :
    after (opsB (F := F)) W (Proc.devRef .tc main_arg0) = W (Proc.devRef .tc main_arg0) := by
  after_results_simp <;> rfl

/-! ## The run -/

/-- The result array's value: the input taken at the table of channels. -/
def res (m : (ℓ : Loc nD τ sig) → Buf (Elt F) ℓ) (c : Dev nD) : Buf (Elt F) ((c.tc : Thread nD τ).loc main_v25) :=
  taken (F := F) (m ((c.tc : Thread nD τ).loc main_arg0)) (rel (F := F))

/-- On every device, for any float values, from any memory with zero counters: every weakly fair execution of the
    reference terminates with the result array at `res` and the input array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = res m c
      ∧ r.2.mem ((c.tc : Thread nD τ).loc main_arg0) = m ((c.tc : Thread nD τ).loc main_arg0) :=
  (θ_run defs _ _).mono (fun _ h c => ⟨(h c main_v25).trans (by
        show after (opsA ++ opsB) (launchContents m c) (Proc.devRef .tc main_v25) = _
        rw [after_append', after_opsB_res, after_opsA_rel, after_opsA_arg]; rfl),
      (h c main_arg0).trans (by
        show after (opsA ++ opsB) (launchContents m c) (Proc.devRef .tc main_arg0) = _
        rw [after_append', after_opsB_arg, after_opsA_arg])⟩)
    (run_seq scopedRefs_eq scopedSems_eq defs main (fun _ => ops) main_eq (fun _ => ops_sub) m ρ)

end Cert.Proof.RefSide

end
-- ==== Proof.RefRead.lean ====
/-
  The reference's result, index by index. The table of channels holds at (n, c, h, w) the 32-bit word of
      chan c h w = (c/64 + 63 − h)·127 + (c%64 + 63 − w),
  a number below 16129: the counters are below 64, so adding 63 before subtracting keeps every difference
  non-negative, and the largest value 126·127 + 126 is far below 2³¹, so the 32-bit arithmetic never wraps. Hence no
  channel is negative (the correction by 16129 is never taken), every start index lies in 0..16128 (the in-range
  mask is one everywhere and the constant is never selected), and the gather's clamp is the identity: the result at
  (n, c, h, w) is the input at (n, chan c h w, h, w), which is the collected array. Nothing here depends on the float
  instance: only indices are computed.
-/
import proofs.«120862_j50199577755805_1_alg».proof.Proof.RefRun
import proofs.«120862_j50199577755805_1_alg».proof.Proof.Spec
import Idealize.ShloMosaic.Lib.Pipeline.Value
import Idealize.ShloMosaic.Lib.ReduceAll

noncomputable section

namespace Cert.Proof.RefSide

open Cert.ReferenceIdeal Cert.ReferenceIdeal.Gen Idealize.ShloMosaic Idealize.ShloMosaic.TcCoe Idealize.SL.Sem
open Idealize.ShloMosaic.ValueIdx Cert.Collect

variable {F : FTy → Type} [FloatOps F]

/-! ## Words: the channel arithmetic does not wrap -/

/-- A natural number below 2³¹ read as a signed 32-bit word is itself. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- For counters below 64 the 32-bit computation (a − h + 63)·127 + (b − w + 63) is the natural number's word: no
    subtraction goes below zero once 63 is added, and nothing reaches 2³². -/
theorem word_eq (a b h w : Nat) (ha : a < 64) (hb : b < 64) (hh : h < 64) (hw : w < 64) :
    IntOp.addi (IntOp.muli (IntOp.addi (IntOp.subi (BitVec.ofNat 32 a) (BitVec.ofNat 32 h)) 63#32) 127#32)
        (IntOp.addi (IntOp.subi (BitVec.ofNat 32 b) (BitVec.ofNat 32 w)) 63#32)
      = BitVec.ofNat 32 ((a + 63 - h) * 127 + (b + 63 - w)) := by
  unfold IntOp.addi IntOp.muli IntOp.subi
  apply BitVec.eq_of_toNat_eq
  simp only [BitVec.toNat_add, BitVec.toNat_mul, BitVec.toNat_sub, BitVec.toNat_ofNat]
  omega

/-! ## The table of channels at an index -/

/-- The [64,64,64,64] table at (a, b, h, w). -/
theorem tab_apply (a b h w : Fin 64) :
    tab (F := F) (ix4 a b h w) = BitVec.ofNat 32 ((a.val + 63 - h.val) * 127 + (b.val + 63 - w.val)) := by
  rw [← word_eq a.val b.val h.val w.val a.isLt b.isLt h.isLt w.isLt]
  rfl

/-- The channel array at (n, c, h, w): the word of `chan c h w` — row-major position c·4096 + h·64 + w of the
    [1,4096,64,64] array is position ((c/64)·64 + c%64)·4096 + h·64 + w of the table. -/
theorem rel_apply (i : S2x4096x64x64.Idx) :
    rel (F := F) i = BitVec.ofNat 32 (chan (i 1).val (i 2).val (i 3).val) := by
  have h1 : (i 1).val < 4096 := (i 1).isLt
  have h2 : (i 2).val < 64 := (i 2).isLt
  have h3 : (i 3).val < 64 := (i 3).isLt
  refine (broadcastInDim_apply _ bcast_S1x4096x64x64_S2x4096x64x64_0_1_2_3 _ i
    (ix4 (⟨0, Nat.one_pos⟩ : Fin 1) (⟨(i 1).val, h1⟩ : Fin 4096) (⟨(i 2).val, h2⟩ : Fin 64) (⟨(i 3).val, h3⟩ : Fin 64))
    (fun a => match a with
      | ⟨0, _⟩ => by show 0 = if (1 : Nat) = 1 then 0 else (i 0).val; rw [if_pos rfl]
      | ⟨1, _⟩ => by show (i 1).val = if (4096 : Nat) = 1 then 0 else (i 1).val; rw [if_neg (by decide)]
      | ⟨2, _⟩ => by show (i 2).val = if (64 : Nat) = 1 then 0 else (i 2).val; rw [if_neg (by decide)]
      | ⟨3, _⟩ => by show (i 3).val = if (64 : Nat) = 1 then 0 else (i 3).val; rw [if_neg (by decide)])).trans ?_
  refine (shapeCast_apply _ shapeCasts_S64x64x64x64_S1x4096x64x64 _
    (ix4 (⟨(i 1).val / 64, by omega⟩ : Fin 64) (⟨(i 1).val % 64, by omega⟩ : Fin 64) (⟨(i 2).val, h2⟩ : Fin 64) (⟨(i 3).val, h3⟩ : Fin 64))
    (by
      rw [Shape.rowMajor_val_four, Shape.rowMajor_val_four]
      show ((((i 1).val / 64) * 64 + (i 1).val % 64) * 64 + (i 2).val) * 64 + (i 3).val
        = ((0 * 4096 + (i 1).val) * 64 + (i 2).val) * 64 + (i 3).val
      omega)).trans ?_
  exact tab_apply _ _ _ _

/-! ## The take at an index -/

/-- Adding 16129 to negative channels changes no channel that is the word of a number below 16129. -/
theorem wrapped_apply (idx : (⟨S2x4096x64x64, .i32⟩ : BufTy).Contents (Elt F)) (i : S2x4096x64x64.Idx) (n : Nat)
    (hn : n < 16129) (h : idx i = BitVec.ofNat 32 n) : wrapped (F := F) idx i = BitVec.ofNat 32 n := by
  have hz : IntOp.cmpi .slt (BitVec.ofNat 32 n) 0#32 = 0#1 := eq_zero_of_ne_one fun hc => by
    have := IntOp.cmpi_slt.1 hc
    rw [toInt_ofNat_small n (by omega)] at this
    have h0 : (0#32 : BitVec 32).toInt = 0 := by decide
    rw [h0] at this
    omega
  show Scalar.select (IntOp.cmpi .slt (idx i) 0#32) (IntOp.addi (idx i) 16129#32) (idx i) = _
  rw [h, hz, select_zero]

/-- The start indices are the channels with a unit axis appended. -/
theorem starts_apply (idx : (⟨S2x4096x64x64, .i32⟩ : BufTy).Contents (Elt F)) (k : S2x4096x64x64x1.Idx) :
    starts (F := F) idx k
      = wrapped (F := F) idx (ix4 (⟨(k 0).val, (k 0).isLt⟩ : Fin 2) (⟨(k 1).val, (k 1).isLt⟩ : Fin 4096)
          (⟨(k 2).val, (k 2).isLt⟩ : Fin 64) (⟨(k 3).val, (k 3).isLt⟩ : Fin 64)) :=
  shapeCast_apply _ shapeCasts_S2x4096x64x64_S2x4096x64x64x1 k _ (by
    have h4 : (k 4).val < 1 := (k 4).isLt
    rw [Shape.rowMajor_val_four, Shape.rowMajor_val_five]
    show (((k 0).val * 4096 + (k 1).val) * 64 + (k 2).val) * 64 + (k 3).val
      = ((((k 0).val * 4096 + (k 1).val) * 64 + (k 2).val) * 64 + (k 3).val) * 1 + (k 4).val
    omega)

/-- The start index at (n, c, h, w, 0): the word of `chan c h w`. -/
theorem starts_rel (k : S2x4096x64x64x1.Idx) :
    starts (F := F) (rel (F := F)) k = BitVec.ofNat 32 (chan (k 1).val (k 2).val (k 3).val) := by
  rw [starts_apply]
  exact wrapped_apply _ _ _ (chan_lt (k 1).isLt (k 2).isLt (k 3).isLt) (rel_apply _)

/-- A conjunction of ones is one. -/
theorem foldl_andi_ones {ι : Type} (p : ι → BitVec 1) (hp : ∀ i, p i = 1#1) (l : List ι) :
    l.foldl (fun r i => IntOp.andi r (p i)) 1#1 = 1#1 := by
  induction l with
  | nil => rfl
  | cons a l ih =>
    have e : IntOp.andi 1#1 1#1 = 1#1 := by decide
    rw [List.foldl_cons, hp a, e]; exact ih

/-- Every start index lies in 0..16128, so the in-range mask is one everywhere. -/
theorem inRange_rel (i : S2x4096x64x64.Idx) : inRange (F := F) (rel (F := F)) i = 1#1 := by
  unfold inRange
  rw [Host.reduce_eq_foldl]
  refine foldl_andi_ones _ (fun k => ?_) _
  show IntOp.andi (IntOp.cmpi .sge (starts (F := F) (rel (F := F)) k) 0#32)
    (IntOp.cmpi .sle (starts (F := F) (rel (F := F)) k) 16128#32) = 1#1
  have hlt := chan_lt (k 1).isLt (k 2).isLt (k 3).isLt
  have h0 : (0#32 : BitVec 32).toInt = 0 := by decide
  have h1 : (16128#32 : BitVec 32).toInt = 16128 := by decide
  rw [starts_rel]
  refine IntOp.andi_eq_one.2 ⟨IntOp.cmpi_sge.2 ?_, IntOp.cmpi_sle.2 ?_⟩
  · rw [toInt_ofNat_small (chan (k 1).val (k 2).val (k 3).val) (by omega), h0]; omega
  · rw [toInt_ofNat_small (chan (k 1).val (k 2).val (k 3).val) (by omega), h1]; omega

/-! From here on the start indices are used only through `starts_rel`: they are never opened again. -/
attribute [local irreducible] starts rel inRange

/-- The start-indices index the gather reads for result index (n, c, h, w): (n, c, h, w, 0) — the start index has one
    component, and the other four axes are the result's. -/
theorem siIdx_eq (i : S2x4096x64x64.Idx) (c : Fin gather_S2x16129x64x64_S2x4096x64x64x1_S2x4096x64x64_n_1_023_023_1_4_1111.startIndexMap.length) :
    gather_S2x16129x64x64_S2x4096x64x64x1_S2x4096x64x64_n_1_023_023_1_4_1111.siIdx i c
      = ix5 (⟨(i 0).val, (i 0).isLt⟩ : Fin 2) (⟨(i 1).val, (i 1).isLt⟩ : Fin 4096) (⟨(i 2).val, (i 2).isLt⟩ : Fin 64)
          (⟨(i 3).val, (i 3).isLt⟩ : Fin 64) (⟨0, Nat.one_pos⟩ : Fin 1) := by
  funext b; refine Fin.ext ?_
  match b with
  | ⟨0, _⟩ => rfl
  | ⟨1, _⟩ => rfl
  | ⟨2, _⟩ => rfl
  | ⟨3, _⟩ => rfl
  | ⟨4, _⟩ =>
    have hl : gather_S2x16129x64x64_S2x4096x64x64x1_S2x4096x64x64_n_1_023_023_1_4_1111.startIndexMap.length = 1 := rfl
    have hc := c.isLt
    show c.val = 0
    omega

/-- On an axis the input shares with the start indices (n, h or w) the gather reads the result's own coordinate,
    whatever the start indices hold. -/
theorem opIdx_shared (i : S2x4096x64x64.Idx) (st : IVec S2x4096x64x64x1 32) (a : Fin 4)
    (ha : a.val = 0 ∨ a.val = 2 ∨ a.val = 3) :
    (gather_S2x16129x64x64_S2x4096x64x64x1_S2x4096x64x64_n_1_023_023_1_4_1111.operandIdx i st a).val = (src i a).val := by
  rcases ha with h | h | h
  · obtain rfl : a = (0 : Fin 4) := Fin.ext h
    show gather_S2x16129x64x64_S2x4096x64x64x1_S2x4096x64x64_n_1_023_023_1_4_1111.start i st 0 + gather_S2x16129x64x64_S2x4096x64x64x1_S2x4096x64x64_n_1_023_023_1_4_1111.batchCoord i 0 + gather_S2x16129x64x64_S2x4096x64x64x1_S2x4096x64x64_n_1_023_023_1_4_1111.offCoord i 0 = _
    rw [GatherDims.start_batching _ _ _ _ (by decide),
      GatherDims.offCoord_eq_zero _ _ _ (fun h => ((GatherDims.mem_sKept _ _).mp h).2 (by decide)),
      Nat.zero_add, Nat.add_zero]
    rfl
  · obtain rfl : a = (2 : Fin 4) := Fin.ext h
    show gather_S2x16129x64x64_S2x4096x64x64x1_S2x4096x64x64_n_1_023_023_1_4_1111.start i st 2 + gather_S2x16129x64x64_S2x4096x64x64x1_S2x4096x64x64_n_1_023_023_1_4_1111.batchCoord i 2 + gather_S2x16129x64x64_S2x4096x64x64x1_S2x4096x64x64_n_1_023_023_1_4_1111.offCoord i 2 = _
    rw [GatherDims.start_batching _ _ _ _ (by decide),
      GatherDims.offCoord_eq_zero _ _ _ (fun h => ((GatherDims.mem_sKept _ _).mp h).2 (by decide)),
      Nat.zero_add, Nat.add_zero]
    rfl
  · obtain rfl : a = (3 : Fin 4) := Fin.ext h
    show gather_S2x16129x64x64_S2x4096x64x64x1_S2x4096x64x64_n_1_023_023_1_4_1111.start i st 3 + gather_S2x16129x64x64_S2x4096x64x64x1_S2x4096x64x64_n_1_023_023_1_4_1111.batchCoord i 3 + gather_S2x16129x64x64_S2x4096x64x64x1_S2x4096x64x64_n_1_023_023_1_4_1111.offCoord i 3 = _
    rw [GatherDims.start_batching _ _ _ _ (by decide),
      GatherDims.offCoord_eq_zero _ _ _ (fun h => ((GatherDims.mem_sKept _ _).mp h).2 (by decide)),
      Nat.zero_add, Nat.add_zero]
    rfl

/-- On the channel axis the gather reads at the start index read signed and clamped into 0..16128, whatever the start
    indices hold. -/
theorem opIdx_channel (i : S2x4096x64x64.Idx) (st : IVec S2x4096x64x64x1 32) (a : Fin 4) (ha : a.val = 1) :
    (gather_S2x16129x64x64_S2x4096x64x64x1_S2x4096x64x64_n_1_023_023_1_4_1111.operandIdx i st a).val
      = min (st (ix5 (⟨(i 0).val, (i 0).isLt⟩ : Fin 2) (⟨(i 1).val, (i 1).isLt⟩ : Fin 4096) (⟨(i 2).val, (i 2).isLt⟩ : Fin 64)
          (⟨(i 3).val, (i 3).isLt⟩ : Fin 64) (⟨0, Nat.one_pos⟩ : Fin 1))).toInt.toNat 16128 := by
  obtain rfl : a = (1 : Fin 4) := Fin.ext ha
  show gather_S2x16129x64x64_S2x4096x64x64x1_S2x4096x64x64_n_1_023_023_1_4_1111.start i st 1 + gather_S2x16129x64x64_S2x4096x64x64x1_S2x4096x64x64_n_1_023_023_1_4_1111.batchCoord i 1 + gather_S2x16129x64x64_S2x4096x64x64x1_S2x4096x64x64_n_1_023_023_1_4_1111.offCoord i 1 = _
  rw [GatherDims.batchCoord_eq_zero _ _ _ (by decide),
    GatherDims.offCoord_eq_zero _ _ _ (fun h => ((GatherDims.mem_sKept _ _).mp h).1 (by decide)),
    Nat.add_zero]
  unfold GatherDims.start
  rw [dif_pos (by decide), siIdx_eq]
  rfl

/-- At the table of channels that is `chan c h w`: the start index read signed is that number, and the clamp does not
    move it. -/
theorem opIdx_channel_rel (i : S2x4096x64x64.Idx) (a : Fin 4) (ha : a.val = 1) :
    (gather_S2x16129x64x64_S2x4096x64x64x1_S2x4096x64x64_n_1_023_023_1_4_1111.operandIdx i (starts (F := F) (rel (F := F))) a).val = (src i a).val := by
  have hlt := chan_lt (i 1).isLt (i 2).isLt (i 3).isLt
  rw [opIdx_channel i _ a ha, starts_rel]
  rw [toInt_ofNat_small (chan (i 1).val (i 2).val (i 3).val) (by omega), Int.toNat_natCast]
  obtain rfl : a = (1 : Fin 4) := Fin.ext ha
  exact Nat.min_eq_left (Nat.le_of_lt_succ hlt)

/-- The gather at (n, c, h, w): the input at (n, chan c h w, h, w). The axes n, h, w of the input are paired with
    those of the start indices, the channel axis is the one the start index names, every slice has one element. -/
theorem gather_apply (x : (⟨S2x16129x64x64, .f32⟩ : BufTy).Contents (Elt F)) (i : S2x4096x64x64.Idx) :
    Host.gather gather_S2x16129x64x64_S2x4096x64x64x1_S2x4096x64x64_n_1_023_023_1_4_1111 x (starts (F := F) (rel (F := F))) i = x (src i) := by
  unfold Host.gather
  refine congrArg x (funext fun a => Fin.ext ?_)
  have h4 : a.val < 4 := a.isLt
  by_cases h1 : a.val = 1
  · exact opIdx_channel_rel i a h1
  · exact opIdx_shared i _ a (by omega)

/-- The take at the table of channels is the collected array: the mask is one, so the gathered element is kept. -/
theorem taken_rel (x : (⟨S2x16129x64x64, .f32⟩ : BufTy).Contents (Elt F)) (i : S2x4096x64x64.Idx) :
    taken (F := F) x (rel (F := F)) i = x (src i) := by
  unfold taken
  rw [select_apply, inRange_rel, select_one, gather_apply]

/-! ## The run, at the collected array -/

/-- The reference's result is the collected array of its input. -/
theorem res_eq_collect (m : (ℓ : Loc nD τ sig) → Buf (Elt F) ℓ) (c : Dev nD) :
    res (F := F) m c = collect (m ((c.tc : Thread nD τ).loc main_arg0)) :=
  funext fun i => taken_rel _ i

/-- Every weakly fair execution of the reference terminates with its result array the collected array of the input
    and the input unchanged. -/
theorem run_collect (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v25) = collect (m ((c.tc : Thread nD τ).loc main_arg0))
      ∧ r.2.mem ((c.tc : Thread nD τ).loc main_arg0) = m ((c.tc : Thread nD τ).loc main_arg0)) :=
  (θ_run _ _ _).mono (fun _ h c => ⟨(h c).1.trans (res_eq_collect m c), (h c).2⟩) (run (F := F) m ρ)

end Cert.Proof.RefSide

end
-- ==== Proof.lean ====
/-
  The certificate of the collect kernel against its reference.
  Both programs return the input x : f32[2, 127·127, 64, 64] re-indexed:
      out[n, i·64 + j, h, w] = x[n, (i − h + 63)·127 + (j − w + 63), h, w].
  The kernel gets there by streaming, for each image row h, the 64 channel rows it needs through a two-slot scratch
  (one block ahead, on its own semaphores) and shearing each 64 × 127 block into place by a row-major re-reading; the
  reference by one gather along the channel axis at an index array it builds from iotas. No arithmetic touches a value
  on either side, so the two results are the same array for every input — finite or not — and the equality is an
  equality of index maps (Proof/Spec.lean states the map once).
  The three frames: the kernel's, at the word level and at the ideal level, is the invariant of its read-ahead carried
  over the 64 grid points (Proof/Ring…, Proof/Run…, Proof/Frame…); the reference's is its run with the result dropped.
  The idealization rewrote nothing, so there is nothing to preserve.
-/
import proofs.«120862_j50199577755805_1_alg».proof.Defs
import proofs.«120862_j50199577755805_1_alg».proof.Proof.Gen.Kernel
import proofs.«120862_j50199577755805_1_alg».proof.Proof.Gen.KernelIdeal
import proofs.«120862_j50199577755805_1_alg».proof.Proof.Gen.ReferenceIdeal
import proofs.«120862_j50199577755805_1_alg».proof.Proof.Gen.Pre_finite_inputs
import proofs.«120862_j50199577755805_1_alg».proof.Proof.FrameKB
import proofs.«120862_j50199577755805_1_alg».proof.Proof.ResultKI
import proofs.«120862_j50199577755805_1_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs, faults nowhere, and leaves its input as launched. -/
theorem frame_kernel : Cert.frame_Kernel := fun m ρ _ => Cert.Proof.KB.frame (F := Bits) m ρ

/-- So does its idealization. -/
theorem frame_kernelIdeal : Cert.frame_KernelIdeal := fun m ρ _ => Cert.Proof.KI.frame (F := Ideal) m ρ

/-- So does the reference: its run, the result dropped. -/
theorem frame_reference : Cert.frame_ReferenceIdeal := fun m ρ _ =>
  (θ_run Cert.ReferenceIdeal.defs _ _).mono (fun _ h c => (h c).2) (Cert.Proof.RefSide.run_collect (F := Ideal) m ρ)

/-- From memories agreeing on the input, both programs end with the collected input in their result. -/
theorem algebraic : Cert.algebraic_KernelIdeal_ReferenceIdeal := fun m ρ m' ρ' _ hagree =>
  ⟨fun c => Cert.Collect.collect (m ((c.tc : Thread Cert.KernelIdeal.nD Cert.KernelIdeal.τ).loc Cert.KernelIdeal.main_arg0)),
    Cert.Proof.KI.run_collect (F := Ideal) m ρ,
    (θ_run Cert.ReferenceIdeal.defs _ _).mono (fun _ h c => ⟨by rw [(h c).1, hagree c], (h c).2⟩)
      (Cert.Proof.RefSide.run_collect (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
